-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x512 : Shape := ⟨2, ![4096, 512]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x512 : S_.BroadcastsInDim S4096x512 (![] : Fin 0 → Fin S4096x512.rank)
  reducesTo_S4096x512_S_d0_1 : S4096x512.ReducesTo [0, 1] S_
  reducesTo_S4096x512_S4096_d1 : S4096x512.ReducesTo [1] S4096

variable [Facts]

def fn_part1 {F : FTy → Type} [FloatOps F] (main_arg4 : FVec F S4096x512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := mulf main_arg4 main_arg4
  let main_cst_8 : FVec F S_ .f32 := constant S_ .f32 0x00000000#32
  let main_v25 : FVec F S4096 .f32 := (fun x v => Host.reduceAdd x v reducesTo_S4096x512_S4096_d1 h_S_) main_v24 main_cst_8
  let main_cst_9 : FVec F S_ .f32 := constant S_ .f32 0x00000000#32
  let main_v26 : FVec F S4096 .f32 := broadcastInDim S4096 ![] bcast_S_S4096 main_cst_9
  let main_v27 : IVec S4096 1 := cmpf .ogt main_v25 main_v26
  let main_c_10 : IVec S_ 1 := constantI S_ 1 1#1
  let main_v28 : IVec S_ 1 := (fun x v => Host.reduce IntOp.andi x v reducesTo_S4096_S_d0 h_S_) main_v27 main_c_10
  let main_v29 : IVec S_ 1 := andi main_v23 main_v28
  main_v29

def fn {F : FTy → Type} [FloatOps F] (main_arg0 : FVec F S4096 .f32) (main_arg1 : FVec F S4096 .f32) (main_arg2 : FVec F S4096 .f32) (main_arg3 : FVec F S4096 .f32) (main_arg4 : FVec F S4096x512 .f32) (main_arg5 : IVec S4096 32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096 : Shape := ⟨1, ![4096]⟩
abbrev S4096x512 : Shape := ⟨2, ![4096, 512]⟩
abbrev S_ : Shape := ⟨0, ![]⟩
abbrev S4096x1 : Shape := ⟨2, ![4096, 1]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 171
  | .vmem => 26
  | .smem => 0
  | _ => 0

abbrev hbmTy0_0 (i : Nat) : BufTy := match i % 128 with
  | 0 => ⟨S4096, .f32⟩
  | 1 => ⟨S4096, .f32⟩
  | 2 => ⟨S4096, .f32⟩
  | 3 => ⟨S4096, .f32⟩
  | 4 => ⟨S4096x512, .f32⟩
  | 5 => ⟨S4096, .i32⟩
  | 6 => ⟨S4096, .f32⟩
  | 7 => ⟨S4096, .f32⟩
  | 8 => ⟨S_, .f32⟩
  | 9 => ⟨S4096, .f32⟩
  | 10 => ⟨S4096, .i1⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096, .f32⟩
  | 19 => ⟨S_, .f32⟩
  | 20 => ⟨S_, .f32⟩
  | 21 => ⟨S_, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .i1⟩
  | 28 => ⟨S_, .f32⟩
  | 29 => ⟨S4096, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S4096, .f32⟩
  | 50 => ⟨S4096, .f32⟩
  | 51 => ⟨S_, .f32⟩
  | 52 => ⟨S_, .f32⟩
  | 53 => ⟨S_, .f32⟩
  | 54 => ⟨S_, .f32⟩
  | 55 => ⟨S4096, .f32⟩
  | 56 => ⟨S4096, .f32⟩
  | 57 => ⟨S4096, .f32⟩
  | 58 => ⟨S_, .f32⟩
  | 59 => ⟨S_, .f32⟩
  | 60 => ⟨S_, .f32⟩
  | 61 => ⟨S_, .f32⟩
  | 62 => ⟨S4096, .f32⟩
  | 63 => ⟨S_, .f32⟩
  | 64 => ⟨S_, .f32⟩
  | 65 => ⟨S_, .f32⟩
  | 66 => ⟨S_, .f32⟩
  | 67 => ⟨S4096, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S4096, .f32⟩
  | 91 => ⟨S4096, .f32⟩
  | 92 => ⟨S4096, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S_, .f32⟩
  | 100 => ⟨S_, .f32⟩
  | 101 => ⟨S_, .f32⟩
  | 102 => ⟨S4096, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S4096x512, .f32⟩
  | 119 => ⟨S_, .f32⟩
  | 120 => ⟨S4096, .f32⟩
  | 121 => ⟨S4096x1, .f32⟩
  | 122 => ⟨S4096x1, .f32⟩
  | 123 => ⟨S4096x512, .f32⟩
  | 124 => ⟨S4096x512, .f32⟩
  | 125 => ⟨S4096x512, .bf16⟩
  | 126 => ⟨S4096x1, .i32⟩
  | 127 => ⟨S1x4096, .i32⟩
  | _ => ⟨S4096, .f32⟩

abbrev hbmTy0_1 (i : Nat) : BufTy := match i % 128 with
  | 0 => ⟨S4096x1, .f32⟩
  | 1 => ⟨S1x4096, .f32⟩
  | 2 => ⟨S4096x1, .f32⟩
  | 3 => ⟨S1x4096, .f32⟩
  | 4 => ⟨S4096x1, .f32⟩
  | 5 => ⟨S4096x1, .f32⟩
  | 6 => ⟨S4096x1, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .i1⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_v26 : Ref sig .tc := ⟨.hbm, 44, rfl⟩
abbrev main_cst_11 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_13 : Ref sig .tc := ⟨.hbm, 51, rfl⟩
abbrev main_v31 : Ref sig .tc := ⟨.hbm, 52, rfl⟩
abbrev main_cst_14 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_cst_16 : Ref sig .tc := ⟨.hbm, 60, rfl⟩
abbrev main_v37 : Ref sig .tc := ⟨.hbm, 61, rfl⟩
abbrev main_v38 : Ref sig .tc := ⟨.hbm, 62, rfl⟩
abbrev main_cst_17 : Ref sig .tc := ⟨.hbm, 63, rfl⟩
abbrev main_v39 : Ref sig .tc := ⟨.hbm, 64, rfl⟩
abbrev main_cst_18 : Ref sig .tc := ⟨.hbm, 65, rfl⟩
abbrev main_v40 : Ref sig .tc := ⟨.hbm, 66, rfl⟩
abbrev main_v41 : Ref sig .tc := ⟨.hbm, 67, rfl⟩
abbrev main_cst_19 : Ref sig .tc := ⟨.hbm, 68, rfl⟩
abbrev main_v42 : Ref sig .tc := ⟨.hbm, 69, rfl⟩
abbrev main_cst_20 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_21 : Ref sig .tc := ⟨.hbm, 75, rfl⟩
abbrev main_v47 : Ref sig .tc := ⟨.hbm, 76, rfl⟩
abbrev main_v48 : Ref sig .tc := ⟨.hbm, 77, rfl⟩
abbrev main_cst_22 : Ref sig .tc := ⟨.hbm, 78, rfl⟩
abbrev main_v49 : Ref sig .tc := ⟨.hbm, 79, rfl⟩
abbrev main_cst_23 : Ref sig .tc := ⟨.hbm, 80, rfl⟩
abbrev main_v50 : Ref sig .tc := ⟨.hbm, 81, rfl⟩
abbrev main_cst_24 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_v54 : Ref sig .tc := ⟨.hbm, 87, rfl⟩
abbrev main_cst_26 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_27 : Ref sig .tc := ⟨.hbm, 93, rfl⟩
abbrev main_v59 : Ref sig .tc := ⟨.hbm, 94, rfl⟩
abbrev main_cst_28 : Ref sig .tc := ⟨.hbm, 95, rfl⟩
abbrev main_v60 : Ref sig .tc := ⟨.hbm, 96, rfl⟩
abbrev main_v61 : Ref sig .tc := ⟨.hbm, 97, rfl⟩
abbrev main_cst_29 : Ref sig .tc := ⟨.hbm, 98, rfl⟩
abbrev main_v62 : Ref sig .tc := ⟨.hbm, 99, rfl⟩
abbrev main_cst_30 : Ref sig .tc := ⟨.hbm, 100, rfl⟩
abbrev main_v63 : Ref sig .tc := ⟨.hbm, 101, rfl⟩
abbrev main_v64 : Ref sig .tc := ⟨.hbm, 102, rfl⟩
abbrev main_cst_31 : Ref sig .tc := ⟨.hbm, 103, rfl⟩
abbrev main_v65 : Ref sig .tc := ⟨.hbm, 104, rfl⟩
abbrev main_cst_32 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_33 : Ref sig .tc := ⟨.hbm, 110, rfl⟩
abbrev main_v70 : Ref sig .tc := ⟨.hbm, 111, rfl⟩
abbrev main_v71 : Ref sig .tc := ⟨.hbm, 112, rfl⟩
abbrev main_cst_34 : Ref sig .tc := ⟨.hbm, 113, rfl⟩
abbrev main_v72 : Ref sig .tc := ⟨.hbm, 114, rfl⟩
abbrev main_v73 : Ref sig .tc := ⟨.hbm, 115, rfl⟩
abbrev main_cst_35 : Ref sig .tc := ⟨.hbm, 116, rfl⟩
abbrev main_v74 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85_0 : Ref sig .tc := ⟨.hbm, 132, rfl⟩
abbrev main_v85_1 : Ref sig .tc := ⟨.hbm, 133, rfl⟩
abbrev main_v85_2 : Ref sig .tc := ⟨.hbm, 134, rfl⟩
abbrev main_v85_3 : Ref sig .tc := ⟨.hbm, 135, rfl⟩
abbrev main_v85_4 : Ref sig .tc := ⟨.hbm, 136, rfl⟩
abbrev main_cst_36 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_37 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_38 : Ref sig .tc := ⟨.hbm, 147, rfl⟩
abbrev main_v94 : Ref sig .tc := ⟨.hbm, 148, rfl⟩
abbrev main_cst_39 : Ref sig .tc := ⟨.hbm, 149, rfl⟩
abbrev main_v95 : Ref sig .tc := ⟨.hbm, 150, rfl⟩
abbrev main_v96 : Ref sig .tc := ⟨.hbm, 151, rfl⟩
abbrev main_cst_40 : Ref sig .tc := ⟨.hbm, 152, rfl⟩
abbrev main_v97 : Ref sig .tc := ⟨.hbm, 153, rfl⟩
abbrev main_cst_41 : Ref sig .tc := ⟨.hbm, 154, rfl⟩
abbrev main_v98 : Ref sig .tc := ⟨.hbm, 155, rfl⟩
abbrev main_cst_42 : Ref sig .tc := ⟨.hbm, 156, rfl⟩
abbrev main_v99 : Ref sig .tc := ⟨.hbm, 157, rfl⟩
abbrev main_cst_43 : Ref sig .tc := ⟨.hbm, 158, rfl⟩
abbrev main_v100 : Ref sig .tc := ⟨.hbm, 159, rfl⟩
abbrev main_cst_44 : Ref sig .tc := ⟨.hbm, 160, rfl⟩
abbrev main_v101 : Ref sig .tc := ⟨.hbm, 161, rfl⟩
abbrev main_v102 : Ref sig .tc := ⟨.hbm, 162, rfl⟩
abbrev main_cst_45 : Ref sig .tc := ⟨.hbm, 163, rfl⟩
abbrev main_call3_v0 : Ref sig .tc := ⟨.hbm, 164, rfl⟩
abbrev main_v103 : Ref sig .tc := ⟨.hbm, 165, rfl⟩
abbrev main_cst_46 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  bcast_S_S4096 : S_.BroadcastsInDim S4096 (![] : Fin 0 → Fin S4096.rank)
  reducesTo_S4096_S_d0 : S4096.ReducesTo [0] S_
  h_S_ : 0 < S_.numel
  reducesTo_S4096x512_S4096_d1 : S4096x512.ReducesTo [1] S4096
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bitsLt_bf16_f32 : FTy.bits .bf16 < FTy.bits .f32
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  bcast_S_S4096x1 : S_.BroadcastsInDim S4096x1 (![] : Fin 0 → Fin S4096x1.rank)
  reducesTo_S4096x1_S_d0_1 : S4096x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S4096x1.size a
  hwx0_9 : ∀ i : grid0.Coords, EltTy.bits .f32 = 32 ∨ (Rect.block (s := S4096x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S4096x1.size a
  hwx0_10 : ∀ i : grid0.Coords, EltTy.bits .f32 = 32 ∨ (Rect.block (s := S4096x1) S1024x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S4096x1.size a
  hwx0_11 : ∀ i : grid0.Coords, EltTy.bits .f32 = 32 ∨ (Rect.block (s := S4096x1) S1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S4096x1.size a
  hwx0_12 : ∀ i : grid0.Coords, EltTy.bits .f32 = 32 ∨ (Rect.block (s := S4096x1) S1024x1.size (cc0_transform_12 i) (hinb0_12 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v78) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v80) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v81) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v83) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v84) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v85_0) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v85_1) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v85_2) S1024x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v85_3) S1024x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v85_4) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096 : Shape := ⟨1, ![4096]⟩
abbrev S4096x512 : Shape := ⟨2, ![4096, 512]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 218
  | .vmem => 0
  | .smem => 0
  | _ => 0

abbrev hbmTy0_0 (i : Nat) : BufTy := match i % 128 with
  | 0 => ⟨S4096, .f32⟩
  | 1 => ⟨S4096, .f32⟩
  | 2 => ⟨S4096, .f32⟩
  | 3 => ⟨S4096, .f32⟩
  | 4 => ⟨S4096x512, .f32⟩
  | 5 => ⟨S4096, .i32⟩
  | 6 => ⟨S4096, .f32⟩
  | 7 => ⟨S4096, .f32⟩
  | 8 => ⟨S_, .f32⟩
  | 9 => ⟨S4096, .f32⟩
  | 10 => ⟨S4096, .i1⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096, .f32⟩
  | 19 => ⟨S_, .f32⟩
  | 20 => ⟨S_, .f32⟩
  | 21 => ⟨S_, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .i1⟩
  | 28 => ⟨S_, .f32⟩
  | 29 => ⟨S4096, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S4096, .f32⟩
  | 50 => ⟨S4096, .f32⟩
  | 51 => ⟨S_, .f32⟩
  | 52 => ⟨S_, .f32⟩
  | 53 => ⟨S_, .f32⟩
  | 54 => ⟨S_, .f32⟩
  | 55 => ⟨S4096, .f32⟩
  | 56 => ⟨S4096, .f32⟩
  | 57 => ⟨S4096, .f32⟩
  | 58 => ⟨S_, .f32⟩
  | 59 => ⟨S_, .f32⟩
  | 60 => ⟨S_, .f32⟩
  | 61 => ⟨S_, .f32⟩
  | 62 => ⟨S4096, .f32⟩
  | 63 => ⟨S_, .f32⟩
  | 64 => ⟨S_, .f32⟩
  | 65 => ⟨S_, .f32⟩
  | 66 => ⟨S_, .f32⟩
  | 67 => ⟨S4096, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S4096, .f32⟩
  | 91 => ⟨S4096, .f32⟩
  | 92 => ⟨S4096, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S_, .f32⟩
  | 100 => ⟨S_, .f32⟩
  | 101 => ⟨S_, .f32⟩
  | 102 => ⟨S4096, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S4096x512, .f32⟩
  | 119 => ⟨S_, .f32⟩
  | 120 => ⟨S4096, .f32⟩
  | 121 => ⟨S4096x1, .f32⟩
  | 122 => ⟨S4096x1, .f32⟩
  | 123 => ⟨S4096x512, .f32⟩
  | 124 => ⟨S4096x512, .f32⟩
  | 125 => ⟨S512x4096, .f32⟩
  | 126 => ⟨S4096x4096, .f32⟩
  | 127 => ⟨S_, .f32⟩
  | _ => ⟨S4096, .f32⟩

abbrev hbmTy0_1 (i : Nat) : BufTy := match i % 128 with
  | 0 => ⟨S4096x4096, .f32⟩
  | 1 => ⟨S4096x4096, .f32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i1⟩
  | 8 => ⟨S4096x4096, .f32⟩
  | 9 => ⟨S4096x1, .i32⟩
  | 10 => ⟨S1x4096, .i32⟩
  | 11 => ⟨S4096x4096, .i32⟩
  | 12 => ⟨S4096x4096, .i32⟩
  | 13 => ⟨S4096x4096, .i1⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x4096, .f32⟩
  | 29 => ⟨S4096x4096, .f32⟩
  | 30 => ⟨S4096x4096, .f32⟩
  | 31 => ⟨S_, .f32⟩
  | 32 => ⟨S4096, .f32⟩
  | 33 => ⟨S_, .f32⟩
  | 34 => ⟨S4096, .f32⟩
  | 35 => ⟨S_, .f32⟩
  | 36 => ⟨S4096, .f32⟩
  | 37 => ⟨S4096, .f32⟩
  | 38 => ⟨S4096, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S4096x1, .i32⟩
  | 47 => ⟨S1x4096, .i32⟩
  | 48 => ⟨S4096x4096, .i32⟩
  | 49 => ⟨S4096x4096, .i32⟩
  | 50 => ⟨S4096x4096, .i1⟩
  | 51 => ⟨S4096x1, .f32⟩
  | 52 => ⟨S1x4096, .f32⟩
  | 53 => ⟨S_, .f32⟩
  | 54 => ⟨S1x4096, .f32⟩
  | 55 => ⟨S1x4096, .f32⟩
  | 56 => ⟨S4096x4096, .f32⟩
  | 57 => ⟨S4096x4096, .f32⟩
  | 58 => ⟨S4096x4096, .i1⟩
  | 59 => ⟨S4096x4096, .i1⟩
  | 60 => ⟨S4096x4096, .f32⟩
  | 61 => ⟨S4096x1, .f32⟩
  | 62 => ⟨S1x4096, .f32⟩
  | 63 => ⟨S4096x4096, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S4096x4096, .f32⟩
  | 73 => ⟨S_, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_v26 : Ref sig .tc := ⟨.hbm, 44, rfl⟩
abbrev main_cst_11 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_13 : Ref sig .tc := ⟨.hbm, 51, rfl⟩
abbrev main_v31 : Ref sig .tc := ⟨.hbm, 52, rfl⟩
abbrev main_cst_14 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_cst_16 : Ref sig .tc := ⟨.hbm, 60, rfl⟩
abbrev main_v37 : Ref sig .tc := ⟨.hbm, 61, rfl⟩
abbrev main_v38 : Ref sig .tc := ⟨.hbm, 62, rfl⟩
abbrev main_cst_17 : Ref sig .tc := ⟨.hbm, 63, rfl⟩
abbrev main_v39 : Ref sig .tc := ⟨.hbm, 64, rfl⟩
abbrev main_cst_18 : Ref sig .tc := ⟨.hbm, 65, rfl⟩
abbrev main_v40 : Ref sig .tc := ⟨.hbm, 66, rfl⟩
abbrev main_v41 : Ref sig .tc := ⟨.hbm, 67, rfl⟩
abbrev main_cst_19 : Ref sig .tc := ⟨.hbm, 68, rfl⟩
abbrev main_v42 : Ref sig .tc := ⟨.hbm, 69, rfl⟩
abbrev main_cst_20 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_21 : Ref sig .tc := ⟨.hbm, 75, rfl⟩
abbrev main_v47 : Ref sig .tc := ⟨.hbm, 76, rfl⟩
abbrev main_v48 : Ref sig .tc := ⟨.hbm, 77, rfl⟩
abbrev main_cst_22 : Ref sig .tc := ⟨.hbm, 78, rfl⟩
abbrev main_v49 : Ref sig .tc := ⟨.hbm, 79, rfl⟩
abbrev main_cst_23 : Ref sig .tc := ⟨.hbm, 80, rfl⟩
abbrev main_v50 : Ref sig .tc := ⟨.hbm, 81, rfl⟩
abbrev main_cst_24 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_25 : Ref sig .tc := ⟨.hbm, 86, rfl⟩
abbrev main_v54 : Ref sig .tc := ⟨.hbm, 87, rfl⟩
abbrev main_cst_26 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_27 : Ref sig .tc := ⟨.hbm, 93, rfl⟩
abbrev main_v59 : Ref sig .tc := ⟨.hbm, 94, rfl⟩
abbrev main_cst_28 : Ref sig .tc := ⟨.hbm, 95, rfl⟩
abbrev main_v60 : Ref sig .tc := ⟨.hbm, 96, rfl⟩
abbrev main_v61 : Ref sig .tc := ⟨.hbm, 97, rfl⟩
abbrev main_cst_29 : Ref sig .tc := ⟨.hbm, 98, rfl⟩
abbrev main_v62 : Ref sig .tc := ⟨.hbm, 99, rfl⟩
abbrev main_cst_30 : Ref sig .tc := ⟨.hbm, 100, rfl⟩
abbrev main_v63 : Ref sig .tc := ⟨.hbm, 101, rfl⟩
abbrev main_v64 : Ref sig .tc := ⟨.hbm, 102, rfl⟩
abbrev main_cst_31 : Ref sig .tc := ⟨.hbm, 103, rfl⟩
abbrev main_v65 : Ref sig .tc := ⟨.hbm, 104, rfl⟩
abbrev main_cst_32 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_33 : Ref sig .tc := ⟨.hbm, 110, rfl⟩
abbrev main_v70 : Ref sig .tc := ⟨.hbm, 111, rfl⟩
abbrev main_v71 : Ref sig .tc := ⟨.hbm, 112, rfl⟩
abbrev main_cst_34 : Ref sig .tc := ⟨.hbm, 113, rfl⟩
abbrev main_v72 : Ref sig .tc := ⟨.hbm, 114, rfl⟩
abbrev main_v73 : Ref sig .tc := ⟨.hbm, 115, rfl⟩
abbrev main_cst_35 : Ref sig .tc := ⟨.hbm, 116, rfl⟩
abbrev main_v74 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_36 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_37 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_38 : Ref sig .tc := ⟨.hbm, 149, rfl⟩
abbrev main_v99 : Ref sig .tc := ⟨.hbm, 150, rfl⟩
abbrev main_v100 : Ref sig .tc := ⟨.hbm, 151, rfl⟩
abbrev main_cst_39 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_40 : Ref sig .tc := ⟨.hbm, 159, rfl⟩
abbrev main_v107 : Ref sig .tc := ⟨.hbm, 160, rfl⟩
abbrev main_cst_41 : Ref sig .tc := ⟨.hbm, 161, rfl⟩
abbrev main_v108 : Ref sig .tc := ⟨.hbm, 162, rfl⟩
abbrev main_cst_42 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_43 : Ref sig .tc := ⟨.hbm, 167, rfl⟩
abbrev main_v112 : Ref sig .tc := ⟨.hbm, 168, rfl⟩
abbrev main_cst_44 : Ref sig .tc := ⟨.hbm, 169, rfl⟩
abbrev main_v113 : Ref sig .tc := ⟨.hbm, 170, rfl⟩
abbrev main_v114 : Ref sig .tc := ⟨.hbm, 171, rfl⟩
abbrev main_cst_45 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_46 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_47 : Ref sig .tc := ⟨.hbm, 194, rfl⟩
abbrev main_v135 : Ref sig .tc := ⟨.hbm, 195, rfl⟩
abbrev main_v136 : Ref sig .tc := ⟨.hbm, 196, rfl⟩
abbrev main_call3_cst : Ref sig .tc := ⟨.hbm, 197, rfl⟩
abbrev main_call3_v0 : Ref sig .tc := ⟨.hbm, 198, rfl⟩
abbrev main_v137 : Ref sig .tc := ⟨.hbm, 199, rfl⟩
abbrev main_v138 : Ref sig .tc := ⟨.hbm, 200, rfl⟩
abbrev main_cst_48 : Ref sig .tc := ⟨.hbm, 201, rfl⟩
abbrev main_v139 : Ref sig .tc := ⟨.hbm, 202, rfl⟩
abbrev main_cst_49 : Ref sig .tc := ⟨.hbm, 203, rfl⟩
abbrev main_v140 : Ref sig .tc := ⟨.hbm, 204, rfl⟩
abbrev main_cst_50 : Ref sig .tc := ⟨.hbm, 205, rfl⟩
abbrev main_v141 : Ref sig .tc := ⟨.hbm, 206, rfl⟩
abbrev main_cst_51 : Ref sig .tc := ⟨.hbm, 207, rfl⟩
abbrev main_v142 : Ref sig .tc := ⟨.hbm, 208, rfl⟩
abbrev main_v143 : Ref sig .tc := ⟨.hbm, 209, rfl⟩
abbrev main_cst_52 : Ref sig .tc := ⟨.hbm, 210, rfl⟩
abbrev main_call4_v0 : Ref sig .tc := ⟨.hbm, 211, rfl⟩
abbrev main_v144 : Ref sig .tc := ⟨.hbm, 212, rfl⟩
abbrev main_cst_53 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  reducesTo_S4096_S_d0 : S4096.ReducesTo [0] S_
  h_S_ : 0 < S_.numel
  reducesTo_S4096x512_S4096_d1 : S4096x512.ReducesTo [1] S4096
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096x1 : S_.BroadcastsInDim S4096x1 (![] : Fin 0 → Fin S4096x1.rank)
  bcast_S_S1x4096 : S_.BroadcastsInDim S1x4096 (![] : Fin 0 → Fin S1x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KerStep.lean ====
/-
  What one grid point does to the five per-row accumulators, as pure functions of the point's input blocks.

  A point (i, j) of the 4 × 4 grid holds the rows' block A and the columns' block B of the normalised features, the rows' and
  columns' ids r, c, targets gr, gc and predictions pr, pc, and the five 1024 × 1 accumulator blocks.  Every point adds to each
  accumulator the row sums of its 1024 × 1024 tile of pair terms (`upd`); a point on the diagonal i = j then takes the
  diagonal pair's term off the first three (`dia`); a point with j = 0 starts from zeros (`zero`).
-/
import proofs.«138601_j79577154060421_2_alg».proof.Proof.Gen.KernelIdeal.Skeleton

noncomputable section

namespace Cert.KerStep

open Idealize.ShloMosaic Cert.KernelIdeal Cert.KernelIdeal.Gen

variable {F : FTy → Type} [FloatOps F] [Named F]

/-- The accumulators' contents at a point with j = 0, before anything is added. -/
def zero : FVec F S1024x1 .f32 := k0_pay6 (F := F)

/-- exp of the tile's logits, summed along each row, added to the accumulator. -/
def upd0 (A B : Vec F S1024x512 .bf16) (a : Vec F S1024x1 .f32) : FVec F S1024x1 .f32 :=
  k0_pay19 (k0_pay13 A B) a
/-- the logits of the pairs with equal ids, summed along each row, added. -/
def upd1 (A B : Vec F S1024x512 .bf16) (r : Vec F S1024x1 .i32) (c : Vec F S1x1024 .i32) (a : Vec F S1024x1 .f32) :
    FVec F S1024x1 .f32 :=
  k0_pay20 (k0_pay14 A B r c) a
/-- the number of pairs with equal ids in each row of the tile, added. -/
def upd2 (r : Vec F S1024x1 .i32) (c : Vec F S1x1024 .i32) (a : Vec F S1024x1 .f32) : FVec F S1024x1 .f32 :=
  k0_pay21 (k0_pay12 r c) a
/-- the hinge of the ranked pairs of each row of the tile, added. -/
def upd3 (r : Vec F S1024x1 .i32) (c : Vec F S1x1024 .i32) (gr : Vec F S1024x1 .f32) (gc : Vec F S1x1024 .f32)
    (pr : Vec F S1024x1 .f32) (pc : Vec F S1x1024 .f32) (a : Vec F S1024x1 .f32) : FVec F S1024x1 .f32 :=
  k0_pay22 (k0_pay12 r c) (k0_pay15 pr) (k0_pay16 pc) (k0_pay17 gr gc) a
/-- the number of ranked pairs of each row of the tile, added. -/
def upd4 (r : Vec F S1024x1 .i32) (c : Vec F S1x1024 .i32) (gr : Vec F S1024x1 .f32) (gc : Vec F S1x1024 .f32)
    (a : Vec F S1024x1 .f32) : FVec F S1024x1 .f32 :=
  k0_pay1 (k0_pay18 (k0_pay12 r c) (k0_pay17 gr gc)) a

/-- On a diagonal tile: the diagonal pair's exp-logit taken off. -/
def dia0 (A B : Vec F S1024x512 .bf16) (a : Vec F S1024x1 .f32) : FVec F S1024x1 .f32 :=
  k0_pay3 (k0_pay13 A B) a
/-- On a diagonal tile: the diagonal pair's logit taken off. -/
def dia1 (A B : Vec F S1024x512 .bf16) (a : Vec F S1024x1 .f32) : FVec F S1024x1 .f32 :=
  k0_pay4 (k0_pay11 A B) a
/-- On a diagonal tile: the diagonal pair itself taken off the count. -/
def dia2 (a : Vec F S1024x1 .f32) : FVec F S1024x1 .f32 :=
  k0_pay5 a

end Cert.KerStep

end
-- ==== Proof.FI_Runs.lean ====
/-
  What the four kinds of grid point share: the two conditions the body branches on, decided over the 4 × 4 grid in closed
  form (the point t has coordinates (t / 4, t % 4): the accumulators are reset when the column coordinate is 0, that is
  t % 4 = 0, and the diagonal term is taken off when the two coordinates agree, that is t % 5 = 0), and each window's
  current staging buffer at a point.
-/
import proofs.«138601_j79577154060421_2_alg».proof.Proof.Gen.KernelIdeal.Launch
import proofs.«138601_j79577154060421_2_alg».proof.Proof.Gen.KernelIdeal.Skeleton
import proofs.«138601_j79577154060421_2_alg».proof.Proof.Gen.KernelIdeal.Points
import proofs.«138601_j79577154060421_2_alg».proof.Proof.KerStep
import Idealize.ShloMosaic.Lib.Pipeline.FrameBody
import Idealize.ShloMosaic.Lib.Ring
import Idealize.ShloMosaic.Lib.Tactic
import Idealize.ShloMosaic.Lib.Pipeline.Regions

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body resets the accumulators: the column coordinate is 0. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The body takes the diagonal term off: the two coordinates agree. -/
abbrev cond2 (i : grid0.Coords) : Prop :=
  (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val % 5 = 0 :=
  (by decide +kernel : ∀ t : Fin grid0.N, cond2 (grid0.coords t) ↔ t.val % 5 = 0)

/-- Each window's current staging buffer at point `t`, as the pipeline passes it to the body, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x1 .f32 := win0_12.stage (cfg0.slots t 12)
abbrev hs12 (t : Fin cfg0.N) : (ms12 t).IsWhole := hstage0_12 ((cfg0.slots t 12).cast nbuf0_12)

/-- One staging buffer of an output window, through which its contents are stated (the choice does not matter). -/
abbrev VO : View sig .tc .vmem S1024x1 .f32 := (Memref.whole cc0_stg8_0 : Memref sig .tc .vmem S1024x1 .f32).view

end Cert.FrameI

end
-- ==== Proof.FI_RunD.lean ====
/-
  The kernel body run once at a grid point of kind D.
-/
import proofs.«138601_j79577154060421_2_alg».proof.Proof.FI_Runs

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind D (accumulators carried, diagonal term absent): on whole staging buffers, the eight
    inputs at their contents and the five accumulators at what the point before left, it runs to the end, the inputs as they were and
    each accumulator's buffer with the body's stores written, listed last first. -/
noncomputable def kernelRun_D (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo0 ∗ owns (c : Thread nD τ) arg11 fullShare xo1 ∗ owns (c : Thread nD τ) arg12 fullShare xo2 ∗ owns (c : Thread nD τ) arg13 fullShare xo3 ∗ owns (c : Thread nD τ) arg14 fullShare xo4 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameI

end
-- ==== Proof.FI_RunC.lean ====
/-
  The kernel body run once at a grid point of kind C.
-/
import proofs.«138601_j79577154060421_2_alg».proof.Proof.FI_RunD

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind C (accumulators carried, diagonal term taken off): on whole staging buffers, the eight
    inputs at their contents and the five accumulators at what the point before left, it runs to the end, the inputs as they were and
    each accumulator's buffer with the body's stores written, listed last first. -/
noncomputable def kernelRun_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo0 ∗ owns (c : Thread nD τ) arg11 fullShare xo1 ∗ owns (c : Thread nD τ) arg12 fullShare xo2 ∗ owns (c : Thread nD τ) arg13 fullShare xo3 ∗ owns (c : Thread nD τ) arg14 fullShare xo4 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameI

end
-- ==== Proof.FI_RunB.lean ====
/-
  The kernel body run once at a grid point of kind B.
-/
import proofs.«138601_j79577154060421_2_alg».proof.Proof.FI_RunC

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind B (accumulators reset, diagonal term absent): on whole staging buffers, the eight
    inputs at their contents and the five accumulators at anything, it runs to the end, the inputs as they were and
    each accumulator's buffer with the body's stores written, listed last first. -/
noncomputable def kernelRun_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameI

end
-- ==== Proof.FI_RunA.lean ====
/-
  The kernel body run once at a grid point of kind A.
-/
import proofs.«138601_j79577154060421_2_alg».proof.Proof.FI_RunB

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind A (accumulators reset, diagonal term taken off): on whole staging buffers, the eight
    inputs at their contents and the five accumulators at anything, it runs to the end, the inputs as they were and
    each accumulator's buffer with the body's stores written, listed last first. -/
noncomputable def kernelRun_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameI

end
-- ==== Proof.FI_Frame.lean ====
/-
  The pipeline's proof data for the pairwise kernel and its body obligation.

  After the body at point t each input window's staging buffer holds its block of the array the region found, and each of the
  five accumulator windows holds what the point's kind of run leaves: at a point that resets (t % 4 = 0) a function of the input
  blocks alone, otherwise of the input blocks and of what the point before left — between two such points the buffer is not
  written back, since an accumulator is written back only after the last column tile (t % 4 = 3).  The array of normalised features is
  handed to the kernel through two windows (its rows' block and its columns' block): the two windows hold it at the two halves
  of the full share.
-/
import proofs.«138601_j79577154060421_2_alg».proof.Proof.FI_RunA

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each kind of run leaves in each accumulator's buffer -/

theorem cover_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1 S1024x1.size (by sl_kernel_rfl) y

/-- Accumulator 0 after a run of kind A: its stores read back. -/
def out_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1)

theorem cover_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1 S1024x1.size (by sl_kernel_rfl) y

/-- Accumulator 1 after a run of kind A: its stores read back. -/
def out_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1)

theorem cover_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1 S1024x1.size (by sl_kernel_rfl) y

/-- Accumulator 2 after a run of kind A: its stores read back. -/
def out_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1)

theorem cover_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1 S1024x1.size (by sl_kernel_rfl) y

/-- Accumulator 3 after a run of kind A: its stores read back. -/
def out_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1)

theorem cover_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2 S1024x1.size (by sl_kernel_rfl) y

/-- Accumulator 4 after a run of kind A: its stores read back. -/
def out_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2)

theorem cover_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1 S1024x1.size (by sl_kernel_rfl) y

/-- Accumulator 0 after a run of kind B: its stores read back. -/
def out_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1)

theorem cover_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1 S1024x1.size (by sl_kernel_rfl) y

/-- Accumulator 1 after a run of kind B: its stores read back. -/
def out_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1)

theorem cover_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1 S1024x1.size (by sl_kernel_rfl) y

/-- Accumulator 2 after a run of kind B: its stores read back. -/
def out_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1)

theorem cover_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1 S1024x1.size (by sl_kernel_rfl) y

/-- Accumulator 3 after a run of kind B: its stores read back. -/
def out_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1)

theorem cover_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2 S1024x1.size (by sl_kernel_rfl) y

/-- Accumulator 4 after a run of kind B: its stores read back. -/
def out_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2)

theorem cover_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1 S1024x1.size (by sl_kernel_rfl) y

/-- Accumulator 0 after a run of kind C: its stores read back. -/
def out_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1)

theorem cover_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1 S1024x1.size (by sl_kernel_rfl) y

/-- Accumulator 1 after a run of kind C: its stores read back. -/
def out_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1)

theorem cover_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1 S1024x1.size (by sl_kernel_rfl) y

/-- Accumulator 2 after a run of kind C: its stores read back. -/
def out_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1)

theorem cover_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1 S1024x1.size (by sl_kernel_rfl) y

/-- Accumulator 3 after a run of kind C: its stores read back. -/
def out_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1)

theorem cover_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2 S1024x1.size (by sl_kernel_rfl) y

/-- Accumulator 4 after a run of kind C: its stores read back. -/
def out_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2)

theorem cover_D_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1 S1024x1.size (by sl_kernel_rfl) y

/-- Accumulator 0 after a run of kind D: its stores read back. -/
def out_D_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1)

theorem cover_D_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1 S1024x1.size (by sl_kernel_rfl) y

/-- Accumulator 1 after a run of kind D: its stores read back. -/
def out_D_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1)

theorem cover_D_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1 S1024x1.size (by sl_kernel_rfl) y

/-- Accumulator 2 after a run of kind D: its stores read back. -/
def out_D_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1)

theorem cover_D_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1 S1024x1.size (by sl_kernel_rfl) y

/-- Accumulator 3 after a run of kind D: its stores read back. -/
def out_D_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1)

theorem cover_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2 S1024x1.size (by sl_kernel_rfl) y

/-- Accumulator 4 after a run of kind D: its stores read back. -/
def out_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2)

/-! ## @main up to the region -/

/-- Core `c`'s buffers at launch, as the host operations' valuation; -/
abbrev V₀ (c : Dev nD) : Valuation τ sig (Elt F) := fun b => (s₀ m ρ).mem ((c : Dev nD), b)
/-- and when the region is entered: the seven stretches of host operations before it have run. -/
abbrev Vpre (c : Dev nD) : Valuation τ sig (Elt F) :=
  StableHlo.after hostOps0_6 (StableHlo.after hostOps0_5 (StableHlo.after hostOps0_4 (StableHlo.after hostOps0_3
    (StableHlo.after hostOps0_2 (StableHlo.after hostOps0_1 (StableHlo.after hostOps0 (V₀ m ρ c)))))))
abbrev V (c : Dev nD) (b : Ref sig .tc) : Buf (Elt F) ((c : Thread nD τ).loc b) := Vpre m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the accumulators hold after each point -/

/-- The five accumulator blocks. -/
abbrev Acc5 (F : FTy → Type) [FloatOps F] : Type :=
  Vec F S1024x1 .f32 × Vec F S1024x1 .f32 × Vec F S1024x1 .f32 × Vec F S1024x1 .f32 × Vec F S1024x1 .f32

/-- One point: the kind of run the closed forms select, at the point's buffers and input blocks, over what the point before
    left (which a point that resets does not read). -/
def stepAt (c : Dev nD) (t : Fin cfg0.N) (prev : Acc5 F) : Acc5 F :=
  if h1 : t.val % 4 = 0 then
    if h2 : t.val % 5 = 0 then
      (out_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t))
    else
      (out_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t))
  else
    if h2 : t.val % 5 = 0 then
      (out_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2)
    else
      (out_D_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2)

/-- The accumulation over the points, in the grid's order. -/
def outsAt (c : Dev nD) : (n : ℕ) → n < cfg0.N → Acc5 F
  | 0, hn => stepAt m ρ c ⟨0, hn⟩ (VO.read (Elt F) VO.junk, VO.read (Elt F) VO.junk, VO.read (Elt F) VO.junk, VO.read (Elt F) VO.junk, VO.read (Elt F) VO.junk)
  | n + 1, hn => stepAt m ρ c ⟨n + 1, hn⟩ (outsAt c n (Nat.lt_of_succ_lt hn))

/-- The point before `t`. -/
abbrev pred (t : Fin cfg0.N) : t.val - 1 < cfg0.N := Nat.lt_of_le_of_lt (Nat.sub_le _ _) t.isLt

theorem outsAt_A (c : Dev nD) (t : Fin cfg0.N) (h1 : t.val % 4 = 0) (h2 : t.val % 5 = 0) :
    outsAt m ρ c t.val t.isLt =
      (out_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t)) := by
  obtain ⟨n, hn⟩ := t
  cases n with
  | zero => show stepAt m ρ c ⟨0, hn⟩ _ = _; unfold stepAt; rw [dif_pos h1, dif_pos h2]
  | succ n => show stepAt m ρ c ⟨n + 1, hn⟩ _ = _; unfold stepAt; rw [dif_pos h1, dif_pos h2]

theorem outsAt_B (c : Dev nD) (t : Fin cfg0.N) (h1 : t.val % 4 = 0) (h2 : ¬t.val % 5 = 0) :
    outsAt m ρ c t.val t.isLt =
      (out_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t)) := by
  obtain ⟨n, hn⟩ := t
  cases n with
  | zero => show stepAt m ρ c ⟨0, hn⟩ _ = _; unfold stepAt; rw [dif_pos h1, dif_neg h2]
  | succ n => show stepAt m ρ c ⟨n + 1, hn⟩ _ = _; unfold stepAt; rw [dif_pos h1, dif_neg h2]

theorem outsAt_C (c : Dev nD) (t : Fin cfg0.N) (h1 : ¬t.val % 4 = 0) (h2 : t.val % 5 = 0) :
    outsAt m ρ c t.val t.isLt =
      (out_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2) := by
  obtain ⟨n, hn⟩ := t
  cases n with
  | zero => exact absurd (Nat.zero_mod _) h1
  | succ n => show stepAt m ρ c ⟨n + 1, hn⟩ _ = _; unfold stepAt; rw [dif_neg h1, dif_pos h2]; rfl

theorem outsAt_D (c : Dev nD) (t : Fin cfg0.N) (h1 : ¬t.val % 4 = 0) (h2 : ¬t.val % 5 = 0) :
    outsAt m ρ c t.val t.isLt =
      (out_D_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2) := by
  obtain ⟨n, hn⟩ := t
  cases n with
  | zero => exact absurd (Nat.zero_mod _) h1
  | succ n => show stepAt m ρ c ⟨n + 1, hn⟩ _ = _; unfold stepAt; rw [dif_neg h1, dif_neg h2]; rfl

/-! ## The pipeline's proof data -/

/-- The proof data on core `c`: the arrays as the region finds them; after the body each input's buffer at its block and
    the accumulators' at `outsAt`; the class's invariant; nothing owed; the full share, but for the array of normalised
    features, which its two windows hold at the two halves. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => (outsAt m ρ c t.val t.isLt).1
    | ⟨9, _⟩ => (outsAt m ρ c t.val t.isLt).2.1
    | ⟨10, _⟩ => (outsAt m ρ c t.val t.isLt).2.2.1
    | ⟨11, _⟩ => (outsAt m ρ c t.val t.isLt).2.2.2.1
    | ⟨12, _⟩ => (outsAt m ρ c t.val t.isLt).2.2.2.2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m ρ 0 c).A w = V m ρ c (Pipeline.arrRef spec0 w) := by
  dsimp only [dats]
theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = iblk m ρ c 6 t := by dsimp only [dats]
theorem after_7 (c : Dev nD) (t : Fin cfg0.N) : (dats m ρ 0 c).after 7 t = iblk m ρ c 7 t := by dsimp only [dats]
theorem after_8 (c : Dev nD) (t : Fin cfg0.N) : (dats m ρ 0 c).after 8 t = (outsAt m ρ c t.val t.isLt).1 := by dsimp only [dats]
theorem after_9 (c : Dev nD) (t : Fin cfg0.N) : (dats m ρ 0 c).after 9 t = (outsAt m ρ c t.val t.isLt).2.1 := by dsimp only [dats]
theorem after_10 (c : Dev nD) (t : Fin cfg0.N) : (dats m ρ 0 c).after 10 t = (outsAt m ρ c t.val t.isLt).2.2.1 := by dsimp only [dats]
theorem after_11 (c : Dev nD) (t : Fin cfg0.N) : (dats m ρ 0 c).after 11 t = (outsAt m ρ c t.val t.isLt).2.2.2.1 := by dsimp only [dats]
theorem after_12 (c : Dev nD) (t : Fin cfg0.N) : (dats m ρ 0 c).after 12 t = (outsAt m ρ c t.val t.isLt).2.2.2.2 := by dsimp only [dats]

/-- Each input's current staging buffer holds its block at every point, fetched there or not. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m ρ 0 c).before 6 t d = iblk m ρ c 6 t :=
  ((dats m ρ 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m ρ 0 c).before 7 t d = iblk m ρ c 7 t :=
  ((dats m ρ 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- At a point that does not reset, an accumulator's current staging buffer holds what the body left at the point before:
    the buffer was not written back between. -/
theorem before_8 (c : Dev nD) (t : Fin cfg0.N) (h1 : ¬t.val % 4 = 0) (d) :
    (dats m ρ 0 c).before 8 t d = (outsAt m ρ c (t.val - 1) (pred t)).1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
theorem before_9 (c : Dev nD) (t : Fin cfg0.N) (h1 : ¬t.val % 4 = 0) (d) :
    (dats m ρ 0 c).before 9 t d = (outsAt m ρ c (t.val - 1) (pred t)).2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
theorem before_10 (c : Dev nD) (t : Fin cfg0.N) (h1 : ¬t.val % 4 = 0) (d) :
    (dats m ρ 0 c).before 10 t d = (outsAt m ρ c (t.val - 1) (pred t)).2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
theorem before_11 (c : Dev nD) (t : Fin cfg0.N) (h1 : ¬t.val % 4 = 0) (d) :
    (dats m ρ 0 c).before 11 t d = (outsAt m ρ c (t.val - 1) (pred t)).2.2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (c : Dev nD) (t : Fin cfg0.N) (h1 : ¬t.val % 4 = 0) (d) :
    (dats m ρ 0 c).before 12 t d = (outsAt m ρ c (t.val - 1) (pred t)).2.2.2.2 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d))
    ∗ (∃ d, owns (c : Thread nD τ) (ms7 t) fullShare ((dats m ρ 0 c).before 7 t d))
    ∗ (∃ d, owns (c : Thread nD τ) (ms8 t) fullShare ((dats m ρ 0 c).before 8 t d))
    ∗ (∃ d, owns (c : Thread nD τ) (ms9 t) fullShare ((dats m ρ 0 c).before 9 t d))
    ∗ (∃ d, owns (c : Thread nD τ) (ms10 t) fullShare ((dats m ρ 0 c).before 10 t d))
    ∗ (∃ d, owns (c : Thread nD τ) (ms11 t) fullShare ((dats m ρ 0 c).before 11 t d))
    ∗ (∃ d, owns (c : Thread nD τ) (ms12 t) fullShare ((dats m ρ 0 c).before 12 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t)
    ∗ owns (c : Thread nD τ) (ms7 t) fullShare ((dats m ρ 0 c).after 7 t)
    ∗ owns (c : Thread nD τ) (ms8 t) fullShare ((dats m ρ 0 c).after 8 t)
    ∗ owns (c : Thread nD τ) (ms9 t) fullShare ((dats m ρ 0 c).after 9 t)
    ∗ owns (c : Thread nD τ) (ms10 t) fullShare ((dats m ρ 0 c).after 10 t)
    ∗ owns (c : Thread nD τ) (ms11 t) fullShare ((dats m ρ 0 c).after 11 t)
    ∗ owns (c : Thread nD τ) (ms12 t) fullShare ((dats m ρ 0 c).after 12 t))

set_option maxHeartbeats 4000000 in
/-- The body at any point: the inputs' buffers hold their blocks; the closed forms say which kind the point is; an accumulator
    a point reads before storing holds what the point before left; so that kind's run applies, the invariant passing through
    unread and nothing owed throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5, before_6, before_7]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6, after_7, after_8, after_9, after_10, after_11, after_12]
  by_cases h1 : t.val % 4 = 0 <;> by_cases h2 : t.val % 5 = 0
  · rw [outsAt_A m ρ c t h1 h2]
    try dsimp only
    unfold out_A_0 out_A_1 out_A_2 out_A_3 out_A_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_A c (grid0.coords t) _ _ _ _ _ _ _ _ _ _ _ _ _ _ _ _ _ _ _ _ _ _ _ _ _ _ ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_0 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_A_1 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_A_2 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_A_3 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_A_4 c _ _ _ _ _ _ _ _ _ _ _ _ _ _ _ _ _ _ _ _ _ _ _ _ _ _ _ _ _ _ _ _ _ _ _ _ _)
  · rw [outsAt_B m ρ c t h1 h2]
    try dsimp only
    unfold out_B_0 out_B_1 out_B_2 out_B_3 out_B_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_B c (grid0.coords t) _ _ _ _ _ _ _ _ _ _ _ _ _ _ _ _ _ _ _ _ _ _ _ _ _ _ ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_0 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_B_1 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_B_2 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_B_3 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_B_4 c _ _ _ _ _ _ _ _ _ _ _ _ _ _ _ _ _ _ _ _ _ _ _ _ _ _ _ _ _ _ _ _ _ _ _ _ _)
  · rw [outsAt_C m ρ c t h1 h2]
    simp only [before_8 m ρ c t h1, before_9 m ρ c t h1, before_10 m ρ c t h1, before_11 m ρ c t h1, before_12 m ρ c t h1]
    try dsimp only
    unfold out_C_0 out_C_1 out_C_2 out_C_3 out_C_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_C c (grid0.coords t) _ _ _ _ _ _ _ _ _ _ _ _ _ _ _ _ _ _ _ _ _ _ _ _ _ _ (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) _ _ _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_C_0 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_C_1 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_C_2 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_C_3 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_C_4 c _ _ _ _ _ _ _ _ _ _ _ _ _ _ _ _ _ _ _ _ _ _ _ _ _ _ _ _ _ _ _ _ _ _ _ _ _ _ _ _ _ _)
  · rw [outsAt_D m ρ c t h1 h2]
    simp only [before_8 m ρ c t h1, before_9 m ρ c t h1, before_10 m ρ c t h1, before_11 m ρ c t h1, before_12 m ρ c t h1]
    try dsimp only
    unfold out_D_0 out_D_1 out_D_2 out_D_3 out_D_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_D c (grid0.coords t) _ _ _ _ _ _ _ _ _ _ _ _ _ _ _ _ _ _ _ _ _ _ _ _ _ _ (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) _ _ _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_D_0 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_D_1 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_D_2 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_D_3 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_D_4 c _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.FrameI

end
-- ==== Proof.FI_Arrays.lean ====
/-
  The windows' arrays of the pairwise kernel against the distinct buffers behind them.

  The region has thirteen windows.  The first two — the rows' block and the columns' block of the normalised features —
  are windows on one array; the other eleven arrays are distinct from it and from one another.  The launch hands the
  region each distinct buffer whole at the full share; the pipeline's proof data holds window by window, the shared array
  at the left half of the full share through the first window and at the right half through the second, every other
  array at the full share.  The two accounts are one resource: a points-to at the full share is the two points-tos at its
  halves, and every array is a whole buffer.
-/
import proofs.«138601_j79577154060421_2_alg».proof.Proof.FI_Frame

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The distinct buffers behind the windows' arrays, and the windows' arrays -/

/-- The rows' window and the columns' window are windows on one array. -/
theorem arrRef_zero_one : Pipeline.arrRef spec0 0 = Pipeline.arrRef spec0 1 := rfl

/-- The other eleven arrays are pairwise distinct, and distinct from it. -/
theorem arrRef_inj_but_zero :
    ∀ a b : Fin 13, a ≠ 0 → b ≠ 0 → Pipeline.arrRef spec0 a = Pipeline.arrRef spec0 b → a = b := by decide

theorem arrRef_injOn : Set.InjOn (Pipeline.arrRef spec0) ((Finset.univ.erase (0 : Fin 13) : Finset (Fin 13)) : Set (Fin 13)) :=
  fun a ha b hb e => arrRef_inj_but_zero a b (Finset.ne_of_mem_erase (Finset.mem_coe.mp ha))
    (Finset.ne_of_mem_erase (Finset.mem_coe.mp hb)) e

/-- Every array is the array of a window other than the first. -/
theorem image_arrRef : (Finset.univ : Finset (Fin 13)).image (Pipeline.arrRef spec0)
    = (Finset.univ.erase (0 : Fin 13)).image (Pipeline.arrRef spec0) := by
  ext b
  simp only [Finset.mem_image, Finset.mem_univ, true_and, Finset.mem_erase, ne_eq, and_true]
  constructor
  · rintro ⟨w, rfl⟩
    by_cases hw : w = 0
    · subst hw
      exact ⟨1, by decide, arrRef_zero_one.symm⟩
    · exact ⟨w, hw, rfl⟩
  · rintro ⟨w, -, rfl⟩
    exact ⟨w, rfl⟩

/-- For proof data that holds the shared array at the two halves of the full share through its two windows, and every
    other array at the full share: the distinct buffers, each whole at the full share, are the windows' arrays. -/
theorem arrays_eq_of_shares (c : Dev nD) (dat : Dat τ (Elt F) Unit ℕ (UR sig nD τ) ℕ cfg0 c)
    (hs0 : dat.share 0 = fullShare.left) (hs1 : dat.share 1 = fullShare.right)
    (hs : ∀ w : Fin cfg0.W, w ≠ 0 → w ≠ 1 → dat.share w = fullShare)
    (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄) = dat.arrays G := by
  classical
  let Φ : Fin cfg0.W → sProp 𝕄 := fun w =>
    (cfg0.win w).arr.view.loc (c : Thread nD τ) ↦[(cfg0.win w).arr.view.set]{dat.share w} G w
  let Ψ : Fin cfg0.W → sProp 𝕄 := fun w =>
    ((c : Thread nD τ).loc (Pipeline.arrRef spec0 w)) ↦{fullShare} Vg (Pipeline.arrRef spec0 w)
  have h1mem : (1 : Fin 13) ∈ Finset.univ.erase (0 : Fin 13) := by decide
  have hrest : bigSep ((Finset.univ.erase (0 : Fin 13)).erase 1) Ψ = bigSep ((Finset.univ.erase (0 : Fin 13)).erase 1) Φ :=
    bigSep_congr fun w hw => by
      have h1 : w ≠ 1 := Finset.ne_of_mem_erase hw
      have h0 : w ≠ 0 := Finset.ne_of_mem_erase (Finset.mem_of_mem_erase hw)
      show (((c : Thread nD τ).loc (Pipeline.arrRef spec0 w)) ↦{fullShare} Vg (Pipeline.arrRef spec0 w) : sProp 𝕄)
        = (cfg0.win w).arr.view.loc (c : Thread nD τ) ↦[(cfg0.win w).arr.view.set]{dat.share w} G w
      rw [(arr_whole0 w).set_eq_univ, hs w h0 h1, hG w]
  have e01 : Ψ 1 = iprop(Φ 0 ∗ Φ 1) := by
    show (((c : Thread nD τ).loc (Pipeline.arrRef spec0 1)) ↦{fullShare} Vg (Pipeline.arrRef spec0 1) : sProp 𝕄)
      = iprop(((cfg0.win 0).arr.view.loc (c : Thread nD τ) ↦[(cfg0.win 0).arr.view.set]{dat.share 0} G 0)
          ∗ ((cfg0.win 1).arr.view.loc (c : Thread nD τ) ↦[(cfg0.win 1).arr.view.set]{dat.share 1} G 1))
    rw [(arr_whole0 0).set_eq_univ, hs0, hs1, hG 0, hG 1]
    try rw [(arr_whole0 1).set_eq_univ]
    show (((c : Thread nD τ).loc (Pipeline.arrRef spec0 1)) ↦{fullShare} Vg (Pipeline.arrRef spec0 1) : sProp 𝕄)
      = iprop((((c : Thread nD τ).loc (Pipeline.arrRef spec0 1)) ↦{fullShare.left} Vg (Pipeline.arrRef spec0 1))
          ∗ (((c : Thread nD τ).loc (Pipeline.arrRef spec0 1)) ↦{fullShare.right} Vg (Pipeline.arrRef spec0 1)))
    exact Entails.antisymm (pointsTo_share (PosShare.mem_left_op_right fullShare)).1
      (pointsTo_share (PosShare.mem_left_op_right fullShare)).2
  calc (Pipeline.arrBufs (Ix := Unit) (Name := ℕ) (U := UR sig nD τ) (Lvl := ℕ) spec0 c Vg : sProp 𝕄)
      = bigSep (Finset.univ.erase (0 : Fin 13)) Ψ := by
        unfold Pipeline.arrBufs
        rw [image_arrRef]
        exact bigSep_image_of_injOn arrRef_injOn _
    _ = iprop(Ψ 1 ∗ bigSep ((Finset.univ.erase (0 : Fin 13)).erase 1) Ψ) := bigSep_erase h1mem
    _ = iprop((Φ 0 ∗ Φ 1) ∗ bigSep ((Finset.univ.erase (0 : Fin 13)).erase 1) Φ) := by rw [e01, hrest]
    _ = iprop(Φ 0 ∗ (Φ 1 ∗ bigSep ((Finset.univ.erase (0 : Fin 13)).erase 1) Φ)) := equiv_iff.mp ⟨sep_assoc, sep_assoc'⟩
    _ = iprop(Φ 0 ∗ bigSep (Finset.univ.erase (0 : Fin 13)) Φ) := by rw [bigSep_erase (Φ := Φ) h1mem]; rfl
    _ = bigSep Finset.univ Φ := (bigSep_univ_split (0 : Fin 13)).symm
    _ = dat.arrays G := rfl

variable (m : (ℓ : Loc nD τ sig) → Buf (Elt F) ℓ) (ρ : Dev nD → PrngReg)

/-! ## At this kernel's proof data -/

theorem share_zero (c : Dev nD) : (dats m ρ 0 c).share 0 = fullShare.left := rfl

theorem share_one (c : Dev nD) : (dats m ρ 0 c).share 1 = fullShare.right := rfl

theorem share_rest (c : Dev nD) (w : Fin cfg0.W) (h0 : w ≠ 0) (h1 : w ≠ 1) : (dats m ρ 0 c).share w = fullShare := by
  fin_cases w
  · exact absurd rfl h0
  · exact absurd rfl h1
  all_goals rfl

/-- The distinct buffers behind the arrays, each whole at the full share at contents Vg, are the proof data's arrays at
    contents G, when G is Vg window by window. -/
theorem arrays_eq (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      = (dats m ρ 0 c).arrays G :=
  arrays_eq_of_shares c (dats m ρ 0 c) (share_zero m ρ c) (share_one m ρ c) (share_rest m ρ c) Vg G hG

theorem arrays_of_bufs (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      ⊢ (dats m ρ 0 c).arrays G := by
  rw [arrays_eq m ρ c Vg G hG]

theorem bufs_of_arrays (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (dats m ρ 0 c).arrays G
      ⊢ (Pipeline.arrBufs (Ix := Unit) (Name := ℕ) (U := UR sig nD τ) (Lvl := ℕ) spec0 c Vg : sProp 𝕄) := by
  rw [arrays_eq m ρ c Vg G hG]

theorem arrays_iff (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      ⊣⊢ (dats m ρ 0 c).arrays G :=
  ⟨arrays_of_bufs m ρ c Vg G hG, bufs_of_arrays m ρ c Vg G hG⟩

end Cert.FrameI

end
-- ==== Proof.FI_Launch.lean ====
/-
  The run of the whole program: @main as its host stretches and the kernel region, in order.

  Between two items each core holds every unscoped buffer whole at a valuation — the launch contents, then each stretch of
  host operations applied, then, after the region, the five accumulator arrays at what the pipeline wrote back — beside what
  the core owes (nothing) and its generator register.  The region takes the windows' arrays out of the buffers (the array of
  normalised features, handed to two windows, split into the two halves of its share), leaves every other buffer alone, and
  puts the arrays back at their final contents.
-/
import proofs.«138601_j79577154060421_2_alg».proof.Proof.FI_Arrays

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host stretches -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every item: what the core owes, and its generator register. -/
abbrev R (c : Dev nD) : sProp 𝕄 :=
  iprop((∃ W, owes (c : Thread nD τ) (0 : CellTallies nD τ sig Unit) W) ∗ ∃ r, prngReg c r)

/-! ## The buffers' contents between items -/
abbrev W1 (c : Dev nD) : Valuation τ sig (Elt F) := StableHlo.after hostOps0 (V₀ m ρ c)
abbrev W2 (c : Dev nD) : Valuation τ sig (Elt F) := StableHlo.after hostOps0_1 (W1 m ρ c)
abbrev W3 (c : Dev nD) : Valuation τ sig (Elt F) := StableHlo.after hostOps0_2 (W2 m ρ c)
abbrev W4 (c : Dev nD) : Valuation τ sig (Elt F) := StableHlo.after hostOps0_3 (W3 m ρ c)
abbrev W5 (c : Dev nD) : Valuation τ sig (Elt F) := StableHlo.after hostOps0_4 (W4 m ρ c)
abbrev W6 (c : Dev nD) : Valuation τ sig (Elt F) := StableHlo.after hostOps0_5 (W5 m ρ c)
abbrev W7 (c : Dev nD) : Valuation τ sig (Elt F) := StableHlo.after hostOps0_6 (W6 m ρ c)

/-- An array's contents after the region, as the library computes them from the proof data. -/
def finalA (c : Dev nD) (w : Fin cfg0.W) : Buf (Elt F) ((cfg0.win w).arr.view.loc (c : Thread nD τ)) := (dats m ρ 0 c).arrAt w cfg0.N

/-- After the region: the five accumulator arrays at their final contents, every other buffer as the region found it. -/
abbrev Wx (c : Dev nD) : Valuation τ sig (Elt F) :=
  Function.update (Function.update (Function.update (Function.update (Function.update (W7 m ρ c)
    main_v85_0 (finalA m ρ c 8)) main_v85_1 (finalA m ρ c 9)) main_v85_2 (finalA m ρ c 10)) main_v85_3 (finalA m ρ c 11)) main_v85_4 (finalA m ρ c 12)
abbrev W9 (c : Dev nD) : Valuation τ sig (Elt F) := StableHlo.after hostOps1 (Wx m ρ c)
abbrev W10 (c : Dev nD) : Valuation τ sig (Elt F) := StableHlo.after hostOps1_1 (W9 m ρ c)
abbrev W11 (c : Dev nD) : Valuation τ sig (Elt F) := StableHlo.after hostOps1_2 (W10 m ρ c)

/-! ## The items as segments -/

/-- A stretch of host operations over the unscoped buffers from a valuation. -/
def hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := UR sig nD τ) (Lvl := ℕ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The region -/

theorem arr_unscoped (w : Fin cfg0.W) : (Pipeline.arrRef spec0 w).isScoped = false := winFacts₀0.arr_unscoped w

/-- A buffer that is none of the five accumulator arrays is not touched by the region. -/
theorem Wx_of (c : Dev nD) (r : Ref sig .tc) (h : r ∉ ([main_v85_0, main_v85_1, main_v85_2, main_v85_3, main_v85_4] : List (Ref sig .tc))) :
    Wx m ρ c r = W7 m ρ c r := by
  simp only [List.mem_cons, List.mem_nil_iff, not_or, or_false] at h
  obtain ⟨h0, h1, h2, h3, h4⟩ := h
  simp only [Wx, Function.update_of_ne (StableHlo.devRef_ne_of_ne h4 : (Proc.devRef .tc r : DevRef τ sig) ≠ Proc.devRef .tc main_v85_4),
    Function.update_of_ne (StableHlo.devRef_ne_of_ne h3 : (Proc.devRef .tc r : DevRef τ sig) ≠ Proc.devRef .tc main_v85_3),
    Function.update_of_ne (StableHlo.devRef_ne_of_ne h2 : (Proc.devRef .tc r : DevRef τ sig) ≠ Proc.devRef .tc main_v85_2),
    Function.update_of_ne (StableHlo.devRef_ne_of_ne h1 : (Proc.devRef .tc r : DevRef τ sig) ≠ Proc.devRef .tc main_v85_1),
    Function.update_of_ne (StableHlo.devRef_ne_of_ne h0 : (Proc.devRef .tc r : DevRef τ sig) ≠ Proc.devRef .tc main_v85_0)]
/-- Accumulator array 0 after the region. -/
theorem Wx_out0 (c : Dev nD) : Wx m ρ c main_v85_0 = finalA m ρ c 8 := by
  simp only [Wx, Function.update_of_ne (StableHlo.devRef_ne_of_ne (by decide : main_v85_0 ≠ main_v85_4) : (Proc.devRef .tc main_v85_0 : DevRef τ sig) ≠ Proc.devRef .tc main_v85_4),
    Function.update_of_ne (StableHlo.devRef_ne_of_ne (by decide : main_v85_0 ≠ main_v85_3) : (Proc.devRef .tc main_v85_0 : DevRef τ sig) ≠ Proc.devRef .tc main_v85_3),
    Function.update_of_ne (StableHlo.devRef_ne_of_ne (by decide : main_v85_0 ≠ main_v85_2) : (Proc.devRef .tc main_v85_0 : DevRef τ sig) ≠ Proc.devRef .tc main_v85_2),
    Function.update_of_ne (StableHlo.devRef_ne_of_ne (by decide : main_v85_0 ≠ main_v85_1) : (Proc.devRef .tc main_v85_0 : DevRef τ sig) ≠ Proc.devRef .tc main_v85_1),
    Function.update_self]
/-- Accumulator array 1 after the region. -/
theorem Wx_out1 (c : Dev nD) : Wx m ρ c main_v85_1 = finalA m ρ c 9 := by
  simp only [Wx, Function.update_of_ne (StableHlo.devRef_ne_of_ne (by decide : main_v85_1 ≠ main_v85_4) : (Proc.devRef .tc main_v85_1 : DevRef τ sig) ≠ Proc.devRef .tc main_v85_4),
    Function.update_of_ne (StableHlo.devRef_ne_of_ne (by decide : main_v85_1 ≠ main_v85_3) : (Proc.devRef .tc main_v85_1 : DevRef τ sig) ≠ Proc.devRef .tc main_v85_3),
    Function.update_of_ne (StableHlo.devRef_ne_of_ne (by decide : main_v85_1 ≠ main_v85_2) : (Proc.devRef .tc main_v85_1 : DevRef τ sig) ≠ Proc.devRef .tc main_v85_2),
    Function.update_self]
/-- Accumulator array 2 after the region. -/
theorem Wx_out2 (c : Dev nD) : Wx m ρ c main_v85_2 = finalA m ρ c 10 := by
  simp only [Wx, Function.update_of_ne (StableHlo.devRef_ne_of_ne (by decide : main_v85_2 ≠ main_v85_4) : (Proc.devRef .tc main_v85_2 : DevRef τ sig) ≠ Proc.devRef .tc main_v85_4),
    Function.update_of_ne (StableHlo.devRef_ne_of_ne (by decide : main_v85_2 ≠ main_v85_3) : (Proc.devRef .tc main_v85_2 : DevRef τ sig) ≠ Proc.devRef .tc main_v85_3),
    Function.update_self]
/-- Accumulator array 3 after the region. -/
theorem Wx_out3 (c : Dev nD) : Wx m ρ c main_v85_3 = finalA m ρ c 11 := by
  simp only [Wx, Function.update_of_ne (StableHlo.devRef_ne_of_ne (by decide : main_v85_3 ≠ main_v85_4) : (Proc.devRef .tc main_v85_3 : DevRef τ sig) ≠ Proc.devRef .tc main_v85_4),
    Function.update_self]
/-- Accumulator array 4 after the region. -/
theorem Wx_out4 (c : Dev nD) : Wx m ρ c main_v85_4 = finalA m ρ c 12 := by
  simp only [Wx, Function.update_self]

set_option maxHeartbeats 4000000 in
/-- What the region leaves in the arrays is what the valuation after it holds at their buffers. -/
theorem finalA_Wx (c : Dev nD) : ∀ w : Fin cfg0.W, finalA m ρ c w = Wx m ρ c (Pipeline.arrRef spec0 w)
  | ⟨0, _⟩ => show finalA m ρ c 0 = Wx m ρ c main_v78 from
      ((dats m ρ 0 c).arrAt_in 0 rfl _).trans ((show (dats m ρ 0 c).A 0 = W7 m ρ c main_v78 from A_eq m ρ c 0).trans (Wx_of m ρ c main_v78 (by decide)).symm)
  | ⟨1, _⟩ => show finalA m ρ c 1 = Wx m ρ c main_v78 from
      ((dats m ρ 0 c).arrAt_in 1 rfl _).trans ((show (dats m ρ 0 c).A 1 = W7 m ρ c main_v78 from A_eq m ρ c 1).trans (Wx_of m ρ c main_v78 (by decide)).symm)
  | ⟨2, _⟩ => show finalA m ρ c 2 = Wx m ρ c main_v79 from
      ((dats m ρ 0 c).arrAt_in 2 rfl _).trans ((show (dats m ρ 0 c).A 2 = W7 m ρ c main_v79 from A_eq m ρ c 2).trans (Wx_of m ρ c main_v79 (by decide)).symm)
  | ⟨3, _⟩ => show finalA m ρ c 3 = Wx m ρ c main_v80 from
      ((dats m ρ 0 c).arrAt_in 3 rfl _).trans ((show (dats m ρ 0 c).A 3 = W7 m ρ c main_v80 from A_eq m ρ c 3).trans (Wx_of m ρ c main_v80 (by decide)).symm)
  | ⟨4, _⟩ => show finalA m ρ c 4 = Wx m ρ c main_v81 from
      ((dats m ρ 0 c).arrAt_in 4 rfl _).trans ((show (dats m ρ 0 c).A 4 = W7 m ρ c main_v81 from A_eq m ρ c 4).trans (Wx_of m ρ c main_v81 (by decide)).symm)
  | ⟨5, _⟩ => show finalA m ρ c 5 = Wx m ρ c main_v82 from
      ((dats m ρ 0 c).arrAt_in 5 rfl _).trans ((show (dats m ρ 0 c).A 5 = W7 m ρ c main_v82 from A_eq m ρ c 5).trans (Wx_of m ρ c main_v82 (by decide)).symm)
  | ⟨6, _⟩ => show finalA m ρ c 6 = Wx m ρ c main_v83 from
      ((dats m ρ 0 c).arrAt_in 6 rfl _).trans ((show (dats m ρ 0 c).A 6 = W7 m ρ c main_v83 from A_eq m ρ c 6).trans (Wx_of m ρ c main_v83 (by decide)).symm)
  | ⟨7, _⟩ => show finalA m ρ c 7 = Wx m ρ c main_v84 from
      ((dats m ρ 0 c).arrAt_in 7 rfl _).trans ((show (dats m ρ 0 c).A 7 = W7 m ρ c main_v84 from A_eq m ρ c 7).trans (Wx_of m ρ c main_v84 (by decide)).symm)
  | ⟨8, _⟩ => (Wx_out0 m ρ c).symm
  | ⟨9, _⟩ => (Wx_out1 m ρ c).symm
  | ⟨10, _⟩ => (Wx_out2 m ρ c).symm
  | ⟨11, _⟩ => (Wx_out3 m ρ c).symm
  | ⟨12, _⟩ => (Wx_out4 m ρ c).symm

/-- A buffer that is no window's array is not touched by the region. -/
theorem Wx_rest (c : Dev nD) (b : Ref sig .tc) (hb : b ∉ Finset.univ.image (Pipeline.arrRef spec0)) : Wx m ρ c b = W7 m ρ c b :=
  Wx_of m ρ c b (by
    simp only [List.mem_cons, List.mem_nil_iff, not_or, or_false]
    exact ⟨fun e => hb (Finset.mem_image.mpr ⟨8, Finset.mem_univ _, e.symm⟩), fun e => hb (Finset.mem_image.mpr ⟨9, Finset.mem_univ _, e.symm⟩),
      fun e => hb (Finset.mem_image.mpr ⟨10, Finset.mem_univ _, e.symm⟩), fun e => hb (Finset.mem_image.mpr ⟨11, Finset.mem_univ _, e.symm⟩),
      fun e => hb (Finset.mem_image.mpr ⟨12, Finset.mem_univ _, e.symm⟩)⟩)

/-- The buffers the region does not stage, before and after it. -/
theorem rest_eq (c : Dev nD) :
    (Pipeline.unscopedRest (Ix := Unit) (Name := ℕ) (U := UR sig nD τ) (Lvl := ℕ) spec0 c (fun b => Wx m ρ c b) : sProp 𝕄)
      = Pipeline.unscopedRest spec0 c (V m ρ c) := by
  unfold Pipeline.unscopedRest
  exact BI.bigSep_congr fun b hb => by
    show (((c : Thread nD τ).loc b) ↦{fullShare} Wx m ρ c b : sProp 𝕄) = _
    rw [Wx_rest m ρ c b (Finset.mem_sdiff.mp hb).2]

/-- ENTRY: the unscoped buffers as the host stretches left them are the windows' arrays and the rest. -/
theorem entry_split (c : Dev nD) :
    (unscopedBufs c (V m ρ c) : sProp 𝕄) ⊢ iprop((dats m ρ 0 c).arrays ((dats m ρ 0 c).arrAt · 0)
      ∗ Pipeline.unscopedRest (Ix := Unit) (Name := ℕ) (U := UR sig nD τ) (Lvl := ℕ) spec0 c (V m ρ c)) := by
  rw [Pipeline.unscopedBufs_split₀ cfgs 0 (arr_unscoped) c (V m ρ c)]
  exact sep_mono (arrays_iff m ρ c (V m ρ c) (fun w => (dats m ρ 0 c).arrAt w 0) (fun w => A_eq m ρ c w)).1 .rfl

/-- EXIT: the windows' arrays at their final contents and the rest are the unscoped buffers at the valuation after the region. -/
theorem exit_join (c : Dev nD) :
    iprop((dats m ρ 0 c).arrays (finalA m ρ c)
      ∗ Pipeline.unscopedRest (Ix := Unit) (Name := ℕ) (U := UR sig nD τ) (Lvl := ℕ) spec0 c (V m ρ c))
      ⊢ (unscopedBufs c (fun b => Wx m ρ c b) : sProp 𝕄) := by
  rw [Pipeline.unscopedBufs_split₀ cfgs 0 (arr_unscoped) c (fun b => Wx m ρ c b), rest_eq]
  exact sep_mono (arrays_iff m ρ c (fun b => Wx m ρ c b) (finalA m ρ c) (finalA_Wx m ρ c)).2 .rfl

set_option backward.isDefEq.respectTransparency.types false in
/-- THE REGION: the layout decided for windows that may share an array, no semaphore of its own, the body obligation; entered
    from the buffers after the host stretches before it, left with the accumulator arrays at their final contents. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (Wx m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [show StableHlo.held (c : Thread nD τ) (Pipeline.ucRefs τ sig) (W7 m ρ c) = unscopedBufs c (V m ρ c) from (Pipeline.unscopedBufs_held c _).symm]
    iintro ⟨⟨Hub, HR⟩, -, -⟩
    icases HR with ⟨HO, Hp⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (Wx m ρ c) = unscopedBufs c (fun b => Wx m ρ c b) from (Pipeline.unscopedBufs_held c _).symm]
    iintro ⟨Ha, HO, Hp, Hrest⟩
    imodintro
    isplitl [Ha Hrest]
    · iapply (exit_join m ρ c)
      isplitl [Ha]; · iexact Ha
      iexact Hrest
    · isplitl [HO]
      · unfold Pipeline.Dat.owesAt Pipeline.owesWithin
        icases HO with ⟨%W, -, HO⟩; iexists W; iexact HO
      · iexact Hp

/-- @main as the list of its items. -/
abbrev segs : List (Pipeline.Seg (pcfgs (F := F)) adm (dats m ρ) () defs₀ Variants.none L lv) :=
  [.host (hseg hostOps0 hostOps0_sub hostOps0_fresh (V₀ m ρ)),
   .host (hseg hostOps0_1 hostOps0_1_sub hostOps0_1_fresh (W1 m ρ)),
   .host (hseg hostOps0_2 hostOps0_2_sub hostOps0_2_fresh (W2 m ρ)),
   .host (hseg hostOps0_3 hostOps0_3_sub hostOps0_3_fresh (W3 m ρ)),
   .host (hseg hostOps0_4 hostOps0_4_sub hostOps0_4_fresh (W4 m ρ)),
   .host (hseg hostOps0_5 hostOps0_5_sub hostOps0_5_fresh (W5 m ρ)),
   .host (hseg hostOps0_6 hostOps0_6_sub hostOps0_6_fresh (W6 m ρ)),
   .region (reg0 m ρ),
   .host (hseg hostOps1 hostOps1_sub hostOps1_fresh (Wx m ρ)),
   .host (hseg hostOps1_1 hostOps1_1_sub hostOps1_1_fresh (W9 m ρ)),
   .host (hseg hostOps1_2 hostOps1_2_sub hostOps1_2_fresh (W10 m ρ))]

/-- The physical post: every unscoped buffer at the last valuation. -/
def QC : PUnit × MemSt nD τ sig (Elt F) → Prop := fun r =>
  ∀ c : Dev nD, ∀ b ∈ Pipeline.ucRefs τ sig, r.2.mem ((c : Thread nD τ).1, b) = W11 m ρ c b

set_option backward.isDefEq.respectTransparency.types false in
set_option maxHeartbeats 2000000 in
/-- At the compiled mesh, for any values, from any memory with zero counters: every weakly fair execution of @main on the
    TensorCores terminates, nothing faulting, and every final state has every unscoped buffer at the last valuation. -/
theorem run_main : θ_run defs (onTc (τ := τ) (main (F := F))) ⟨m, fun _ => 0, ρ⟩ (QC m ρ) :=
  Pipeline.θ_run_regions_kit (pcfgs (F := F)) adm (dats m ρ) () cellOf_inj emb₁ defs₀ Variants.none L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1, StableHlo.seq hostOps1_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ (∃ W, owes (c : Thread nD τ) (0 : CellTallies nD τ sig Unit) W) ∗ ∃ r, prngReg c r)
          ⊢ (iprop((StableHlo.held (c : Thread nD τ) (Pipeline.ucRefs τ sig) (W11 m ρ c) ∗ ∃ r, prngReg c r) ∗ ∃ W, owes (c : Thread nD τ) (0 : CellTallies nD τ sig Unit) W) : sProp 𝕄) from by
        iintro ⟨Hh, HO, Hp⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem ((c : Thread nD τ).1, b) = W11 m ρ c b)
    (hfin := fun c s' => by
      show iprop((StableHlo.held (c : Thread nD τ) (Pipeline.ucRefs τ sig) (W11 m ρ c) ∗ ∃ r, prngReg c r) ∗ SI s') ⊢ _
      unfold StableHlo.held
      iintro ⟨⟨Hh, -⟩, HSI⟩
      ihave Hr := (pointsTo_read_all (Pipeline.ucRefs τ sig) (fun b => ((c : Thread nD τ).1, b)) (W11 m ρ c) s') $$ [Hh HSI]
      · isplitl [Hh] <;> iassumption
      icases Hr with ⟨%h, HSI⟩
      imodintro
      isplitr; · ipureintro; exact h
      iexact HSI)
    (hQ := fun _ h => h)

end Cert.FrameI

end
-- ==== Proof.FI_Args.lean ====
/-
  No item of @main writes an argument array: each host stretch writes only the results of its own operations, and the region
  only the five accumulator arrays.  So every argument holds at the end what it held at launch.
-/
import proofs.«138601_j79577154060421_2_alg».proof.Proof.FI_Launch

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hostOps0_W : List (Ref sig .tc) := [main_v0, main_v1, main_cst, main_v2, main_v3, main_cst_0, main_v4, main_v5, main_v6, main_cst_1, main_v7, main_v8]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_1`'s operations write. -/
abbrev hostOps0_1_W : List (Ref sig .tc) := [main_v9]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_2`'s operations write. -/
abbrev hostOps0_2_W : List (Ref sig .tc) := [main_cst_2, main_v10, main_cst_3, main_v11, main_v12, main_v13, main_cst_4, main_v14, main_v15, main_cst_5, main_v16, main_v17, main_v18, main_cst_6, main_v19, main_v20]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_3`'s operations write. -/
abbrev hostOps0_3_W : List (Ref sig .tc) := [main_v21]
set_option maxHeartbeats 4000000 in
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_4`'s operations write. -/
abbrev hostOps0_4_W : List (Ref sig .tc) := [main_cst_7, main_v22, main_cst_8, main_v23, main_cst_9, main_v24, main_cst_10, main_v25, main_v26, main_cst_11, main_v27, main_cst_12, main_v28, main_v29, main_v30, main_cst_13, main_v31, main_cst_14, main_v32, main_v33, main_v34, main_v35, main_cst_15, main_v36, main_cst_16, main_v37, main_v38, main_cst_17, main_v39, main_cst_18, main_v40, main_v41, main_cst_19, main_v42, main_cst_20, main_v43, main_v44, main_v45, main_v46, main_cst_21, main_v47, main_v48, main_cst_22, main_v49, main_cst_23, main_v50, main_cst_24, main_v51, main_v52, main_v53, main_cst_25, main_v54, main_cst_26, main_v55, main_v56, main_v57, main_v58, main_cst_27, main_v59, main_cst_28, main_v60, main_v61, main_cst_29, main_v62, main_cst_30, main_v63, main_v64, main_cst_31, main_v65, main_cst_32, main_v66, main_v67, main_v68, main_v69, main_cst_33, main_v70, main_v71, main_cst_34, main_v72, main_v73, main_cst_35, main_v74]
set_option maxHeartbeats 4000000 in
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_5`'s operations write. -/
abbrev hostOps0_5_W : List (Ref sig .tc) := [main_call2_v0, main_call2_cst, main_call2_v1, main_call2_v2, main_v75]
set_option maxHeartbeats 4000000 in
theorem hostOps0_5_writes : (hostOps0_5 : List (HloOp τ sig (Elt F))).Forall fun op => op.writes ⊆ (hostOps0_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_6`'s operations write. -/
abbrev hostOps0_6_W : List (Ref sig .tc) := [main_v76, main_v77, main_v78, main_v79, main_v80, main_v81, main_v82, main_v83, main_v84]
set_option maxHeartbeats 4000000 in
theorem hostOps0_6_writes : (hostOps0_6 : List (HloOp τ sig (Elt F))).Forall fun op => op.writes ⊆ (hostOps0_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1`'s operations write. -/
abbrev hostOps1_W : List (Ref sig .tc) := [main_cst_36, main_v86, main_v87, main_v88, main_v89, main_v90, main_cst_37, main_v91, main_v92, main_v93, main_cst_38, main_v94, main_cst_39, main_v95, main_v96, main_cst_40, main_v97, main_cst_41, main_v98, main_cst_42, main_v99, main_cst_43, main_v100, main_cst_44, main_v101, main_v102, main_cst_45]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1_1`'s operations write. -/
abbrev hostOps1_1_W : List (Ref sig .tc) := [main_call3_v0, main_v103]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1_2`'s operations write. -/
abbrev hostOps1_2_W : List (Ref sig .tc) := [main_cst_46, main_v104, main_v105, main_v106, main_v107]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-! ## What each item leaves unchanged -/
theorem W1_of (c : Dev nD) (r : Ref sig .tc) (h : r ∉ (hostOps0_W : List (Ref sig .tc))) : W1 m ρ c r = V₀ m ρ c r :=
  StableHlo.after_of_writes_sub hostOps0 _ hostOps0_writes h
theorem W2_of (c : Dev nD) (r : Ref sig .tc) (h : r ∉ (hostOps0_1_W : List (Ref sig .tc))) : W2 m ρ c r = W1 m ρ c r :=
  StableHlo.after_of_writes_sub hostOps0_1 _ hostOps0_1_writes h
theorem W3_of (c : Dev nD) (r : Ref sig .tc) (h : r ∉ (hostOps0_2_W : List (Ref sig .tc))) : W3 m ρ c r = W2 m ρ c r :=
  StableHlo.after_of_writes_sub hostOps0_2 _ hostOps0_2_writes h
theorem W4_of (c : Dev nD) (r : Ref sig .tc) (h : r ∉ (hostOps0_3_W : List (Ref sig .tc))) : W4 m ρ c r = W3 m ρ c r :=
  StableHlo.after_of_writes_sub hostOps0_3 _ hostOps0_3_writes h
theorem W5_of (c : Dev nD) (r : Ref sig .tc) (h : r ∉ (hostOps0_4_W : List (Ref sig .tc))) : W5 m ρ c r = W4 m ρ c r :=
  StableHlo.after_of_writes_sub hostOps0_4 _ hostOps0_4_writes h
theorem W6_of (c : Dev nD) (r : Ref sig .tc) (h : r ∉ (hostOps0_5_W : List (Ref sig .tc))) : W6 m ρ c r = W5 m ρ c r :=
  StableHlo.after_of_writes_sub hostOps0_5 _ hostOps0_5_writes h
theorem W7_of (c : Dev nD) (r : Ref sig .tc) (h : r ∉ (hostOps0_6_W : List (Ref sig .tc))) : W7 m ρ c r = W6 m ρ c r :=
  StableHlo.after_of_writes_sub hostOps0_6 _ hostOps0_6_writes h
theorem W9_of (c : Dev nD) (r : Ref sig .tc) (h : r ∉ (hostOps1_W : List (Ref sig .tc))) : W9 m ρ c r = Wx m ρ c r :=
  StableHlo.after_of_writes_sub hostOps1 _ hostOps1_writes h
theorem W10_of (c : Dev nD) (r : Ref sig .tc) (h : r ∉ (hostOps1_1_W : List (Ref sig .tc))) : W10 m ρ c r = W9 m ρ c r :=
  StableHlo.after_of_writes_sub hostOps1_1 _ hostOps1_1_writes h
theorem W11_of (c : Dev nD) (r : Ref sig .tc) (h : r ∉ (hostOps1_2_W : List (Ref sig .tc))) : W11 m ρ c r = W10 m ρ c r :=
  StableHlo.after_of_writes_sub hostOps1_2 _ hostOps1_2_writes h

/-! ## No item writes an argument -/

/-- `main_arg0` reaches the end as launched. -/
theorem W11_main_arg0 (c : Dev nD) : W11 m ρ c main_arg0 = m ((c : Thread nD τ).loc main_arg0) :=
  (W11_of m ρ c main_arg0 (by decide)).trans <| (W10_of m ρ c main_arg0 (by decide)).trans <| (W9_of m ρ c main_arg0 (by decide)).trans <|
  (Wx_of m ρ c main_arg0 (by decide)).trans <| (W7_of m ρ c main_arg0 (by decide)).trans <| (W6_of m ρ c main_arg0 (by decide)).trans <|
  (W5_of m ρ c main_arg0 (by decide)).trans <| (W4_of m ρ c main_arg0 (by decide)).trans <| (W3_of m ρ c main_arg0 (by decide)).trans <|
  (W2_of m ρ c main_arg0 (by decide)).trans <| (W1_of m ρ c main_arg0 (by decide)).trans rfl

/-- `main_arg1` reaches the end as launched. -/
theorem W11_main_arg1 (c : Dev nD) : W11 m ρ c main_arg1 = m ((c : Thread nD τ).loc main_arg1) :=
  (W11_of m ρ c main_arg1 (by decide)).trans <| (W10_of m ρ c main_arg1 (by decide)).trans <| (W9_of m ρ c main_arg1 (by decide)).trans <|
  (Wx_of m ρ c main_arg1 (by decide)).trans <| (W7_of m ρ c main_arg1 (by decide)).trans <| (W6_of m ρ c main_arg1 (by decide)).trans <|
  (W5_of m ρ c main_arg1 (by decide)).trans <| (W4_of m ρ c main_arg1 (by decide)).trans <| (W3_of m ρ c main_arg1 (by decide)).trans <|
  (W2_of m ρ c main_arg1 (by decide)).trans <| (W1_of m ρ c main_arg1 (by decide)).trans rfl

/-- `main_arg2` reaches the end as launched. -/
theorem W11_main_arg2 (c : Dev nD) : W11 m ρ c main_arg2 = m ((c : Thread nD τ).loc main_arg2) :=
  (W11_of m ρ c main_arg2 (by decide)).trans <| (W10_of m ρ c main_arg2 (by decide)).trans <| (W9_of m ρ c main_arg2 (by decide)).trans <|
  (Wx_of m ρ c main_arg2 (by decide)).trans <| (W7_of m ρ c main_arg2 (by decide)).trans <| (W6_of m ρ c main_arg2 (by decide)).trans <|
  (W5_of m ρ c main_arg2 (by decide)).trans <| (W4_of m ρ c main_arg2 (by decide)).trans <| (W3_of m ρ c main_arg2 (by decide)).trans <|
  (W2_of m ρ c main_arg2 (by decide)).trans <| (W1_of m ρ c main_arg2 (by decide)).trans rfl

/-- `main_arg3` reaches the end as launched. -/
theorem W11_main_arg3 (c : Dev nD) : W11 m ρ c main_arg3 = m ((c : Thread nD τ).loc main_arg3) :=
  (W11_of m ρ c main_arg3 (by decide)).trans <| (W10_of m ρ c main_arg3 (by decide)).trans <| (W9_of m ρ c main_arg3 (by decide)).trans <|
  (Wx_of m ρ c main_arg3 (by decide)).trans <| (W7_of m ρ c main_arg3 (by decide)).trans <| (W6_of m ρ c main_arg3 (by decide)).trans <|
  (W5_of m ρ c main_arg3 (by decide)).trans <| (W4_of m ρ c main_arg3 (by decide)).trans <| (W3_of m ρ c main_arg3 (by decide)).trans <|
  (W2_of m ρ c main_arg3 (by decide)).trans <| (W1_of m ρ c main_arg3 (by decide)).trans rfl

/-- `main_arg4` reaches the end as launched. -/
theorem W11_main_arg4 (c : Dev nD) : W11 m ρ c main_arg4 = m ((c : Thread nD τ).loc main_arg4) :=
  (W11_of m ρ c main_arg4 (by decide)).trans <| (W10_of m ρ c main_arg4 (by decide)).trans <| (W9_of m ρ c main_arg4 (by decide)).trans <|
  (Wx_of m ρ c main_arg4 (by decide)).trans <| (W7_of m ρ c main_arg4 (by decide)).trans <| (W6_of m ρ c main_arg4 (by decide)).trans <|
  (W5_of m ρ c main_arg4 (by decide)).trans <| (W4_of m ρ c main_arg4 (by decide)).trans <| (W3_of m ρ c main_arg4 (by decide)).trans <|
  (W2_of m ρ c main_arg4 (by decide)).trans <| (W1_of m ρ c main_arg4 (by decide)).trans rfl

/-- `main_arg5` reaches the end as launched. -/
theorem W11_main_arg5 (c : Dev nD) : W11 m ρ c main_arg5 = m ((c : Thread nD τ).loc main_arg5) :=
  (W11_of m ρ c main_arg5 (by decide)).trans <| (W10_of m ρ c main_arg5 (by decide)).trans <| (W9_of m ρ c main_arg5 (by decide)).trans <|
  (Wx_of m ρ c main_arg5 (by decide)).trans <| (W7_of m ρ c main_arg5 (by decide)).trans <| (W6_of m ρ c main_arg5 (by decide)).trans <|
  (W5_of m ρ c main_arg5 (by decide)).trans <| (W4_of m ρ c main_arg5 (by decide)).trans <| (W3_of m ρ c main_arg5 (by decide)).trans <|
  (W2_of m ρ c main_arg5 (by decide)).trans <| (W1_of m ρ c main_arg5 (by decide)).trans rfl

/-! ## The frame -/

/-- Every weakly fair execution of @main terminates, nothing faulting, and the six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c (Proc.devRef .tc main_arg0) (Finset.mem_filter.mpr ⟨StableHlo.devRef_mem_tcRefs main_arg0, by decide⟩)).trans (W11_main_arg0 m ρ c),
     (h c (Proc.devRef .tc main_arg1) (Finset.mem_filter.mpr ⟨StableHlo.devRef_mem_tcRefs main_arg1, by decide⟩)).trans (W11_main_arg1 m ρ c),
     (h c (Proc.devRef .tc main_arg2) (Finset.mem_filter.mpr ⟨StableHlo.devRef_mem_tcRefs main_arg2, by decide⟩)).trans (W11_main_arg2 m ρ c),
     (h c (Proc.devRef .tc main_arg3) (Finset.mem_filter.mpr ⟨StableHlo.devRef_mem_tcRefs main_arg3, by decide⟩)).trans (W11_main_arg3 m ρ c),
     (h c (Proc.devRef .tc main_arg4) (Finset.mem_filter.mpr ⟨StableHlo.devRef_mem_tcRefs main_arg4, by decide⟩)).trans (W11_main_arg4 m ρ c),
     (h c (Proc.devRef .tc main_arg5) (Finset.mem_filter.mpr ⟨StableHlo.devRef_mem_tcRefs main_arg5, by decide⟩)).trans (W11_main_arg5 m ρ c)⟩)
    (run_main m ρ)

end Cert.FrameI

end
-- ==== Proof.FB_Runs.lean ====
/-
  What the four kinds of grid point share: the two conditions the body branches on, decided over the 4 × 4 grid in closed
  form (the point t has coordinates (t / 4, t % 4): the accumulators are reset when the column coordinate is 0, that is
  t % 4 = 0, and the diagonal term is taken off when the two coordinates agree, that is t % 5 = 0), and each window's
  current staging buffer at a point.
-/
import proofs.«138601_j79577154060421_2_alg».proof.Proof.Gen.Kernel.Launch
import proofs.«138601_j79577154060421_2_alg».proof.Proof.Gen.Kernel.Skeleton
import proofs.«138601_j79577154060421_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Regions

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the accumulators: the column coordinate is 0. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-- The body takes the diagonal term off: the two coordinates agree. -/
abbrev cond2 (i : grid0.Coords) : Prop :=
  (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val % 5 = 0 :=
  (by decide +kernel : ∀ t : Fin grid0.N, cond2 (grid0.coords t) ↔ t.val % 5 = 0)

/-- Each window's current staging buffer at point `t`, as the pipeline passes it to the body, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x1 .f32 := win0_12.stage (cfg0.slots t 12)
abbrev hs12 (t : Fin cfg0.N) : (ms12 t).IsWhole := hstage0_12 ((cfg0.slots t 12).cast nbuf0_12)

/-- One staging buffer of an output window, through which its contents are stated (the choice does not matter). -/
abbrev VO : View sig .tc .vmem S1024x1 .f32 := (Memref.whole cc0_stg8_0 : Memref sig .tc .vmem S1024x1 .f32).view

end Cert.FrameB

end
-- ==== Proof.FB_RunD.lean ====
/-
  The kernel body run once at a grid point of kind D.
-/
import proofs.«138601_j79577154060421_2_alg».proof.Proof.FB_Runs

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind D (accumulators carried, diagonal term absent): on whole staging buffers, the eight
    inputs at their contents and the five accumulators at what the point before left, it runs to the end, the inputs as they were and
    each accumulator's buffer with the body's stores written, listed last first. -/
noncomputable def kernelRun_D (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo0 ∗ owns (c : Thread nD τ) arg11 fullShare xo1 ∗ owns (c : Thread nD τ) arg12 fullShare xo2 ∗ owns (c : Thread nD τ) arg13 fullShare xo3 ∗ owns (c : Thread nD τ) arg14 fullShare xo4 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameB

end
-- ==== Proof.FB_RunC.lean ====
/-
  The kernel body run once at a grid point of kind C.
-/
import proofs.«138601_j79577154060421_2_alg».proof.Proof.FB_RunD

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind C (accumulators carried, diagonal term taken off): on whole staging buffers, the eight
    inputs at their contents and the five accumulators at what the point before left, it runs to the end, the inputs as they were and
    each accumulator's buffer with the body's stores written, listed last first. -/
noncomputable def kernelRun_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo0 ∗ owns (c : Thread nD τ) arg11 fullShare xo1 ∗ owns (c : Thread nD τ) arg12 fullShare xo2 ∗ owns (c : Thread nD τ) arg13 fullShare xo3 ∗ owns (c : Thread nD τ) arg14 fullShare xo4 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameB

end
-- ==== Proof.FB_RunB.lean ====
/-
  The kernel body run once at a grid point of kind B.
-/
import proofs.«138601_j79577154060421_2_alg».proof.Proof.FB_RunC

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind B (accumulators reset, diagonal term absent): on whole staging buffers, the eight
    inputs at their contents and the five accumulators at anything, it runs to the end, the inputs as they were and
    each accumulator's buffer with the body's stores written, listed last first. -/
noncomputable def kernelRun_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameB

end
-- ==== Proof.FB_RunA.lean ====
/-
  The kernel body run once at a grid point of kind A.
-/
import proofs.«138601_j79577154060421_2_alg».proof.Proof.FB_RunB

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of kind A (accumulators reset, diagonal term taken off): on whole staging buffers, the eight
    inputs at their contents and the five accumulators at anything, it runs to the end, the inputs as they were and
    each accumulator's buffer with the body's stores written, listed last first. -/
noncomputable def kernelRun_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i)
    (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    { L : List (View.Piece (Elt F) S1024x1 .f32) × List (View.Piece (Elt F) S1024x1 .f32) × List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end Cert.FrameB

end
-- ==== Proof.FB_Frame.lean ====
/-
  The pipeline's proof data for the pairwise kernel and its body obligation.

  After the body at point t each input window's staging buffer holds its block of the array the region found, and each of the
  five accumulator windows holds what the point's kind of run leaves: at a point that resets (t % 4 = 0) a function of the input
  blocks alone, otherwise of the input blocks and of what the point before left — between two such points the buffer is not
  written back, since an accumulator is written back only after the last column tile (t % 4 = 3).  The array of normalised features is
  handed to the kernel through two windows (its rows' block and its columns' block): the two windows hold it at the two halves
  of the full share.
-/
import proofs.«138601_j79577154060421_2_alg».proof.Proof.FB_RunA

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of run leaves in each accumulator's buffer -/

theorem cover_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1 S1024x1.size (by sl_kernel_rfl) y

/-- Accumulator 0 after a run of kind A: its stores read back. -/
def out_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1)

theorem cover_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1 S1024x1.size (by sl_kernel_rfl) y

/-- Accumulator 1 after a run of kind A: its stores read back. -/
def out_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1)

theorem cover_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1 S1024x1.size (by sl_kernel_rfl) y

/-- Accumulator 2 after a run of kind A: its stores read back. -/
def out_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1)

theorem cover_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1 S1024x1.size (by sl_kernel_rfl) y

/-- Accumulator 3 after a run of kind A: its stores read back. -/
def out_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1)

theorem cover_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2 S1024x1.size (by sl_kernel_rfl) y

/-- Accumulator 4 after a run of kind A: its stores read back. -/
def out_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_A c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2)

theorem cover_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1 S1024x1.size (by sl_kernel_rfl) y

/-- Accumulator 0 after a run of kind B: its stores read back. -/
def out_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.1)

theorem cover_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1 S1024x1.size (by sl_kernel_rfl) y

/-- Accumulator 1 after a run of kind B: its stores read back. -/
def out_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.1)

theorem cover_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1 S1024x1.size (by sl_kernel_rfl) y

/-- Accumulator 2 after a run of kind B: its stores read back. -/
def out_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.1)

theorem cover_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1 S1024x1.size (by sl_kernel_rfl) y

/-- Accumulator 3 after a run of kind B: its stores read back. -/
def out_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.1)

theorem cover_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2 S1024x1.size (by sl_kernel_rfl) y

/-- Accumulator 4 after a run of kind B: its stores read back. -/
def out_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) : Vec F S1024x1 .f32 :=
  VO.read (Elt F) (VO.writes (Elt F) VO.junk (kernelRun_B c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7).1.2.2.2.2)

theorem cover_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1 S1024x1.size (by sl_kernel_rfl) y

/-- Accumulator 0 after a run of kind C: its stores read back. -/
def out_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1)

theorem cover_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1 S1024x1.size (by sl_kernel_rfl) y

/-- Accumulator 1 after a run of kind C: its stores read back. -/
def out_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1)

theorem cover_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1 S1024x1.size (by sl_kernel_rfl) y

/-- Accumulator 2 after a run of kind C: its stores read back. -/
def out_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1)

theorem cover_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1 S1024x1.size (by sl_kernel_rfl) y

/-- Accumulator 3 after a run of kind C: its stores read back. -/
def out_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1)

theorem cover_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2 S1024x1.size (by sl_kernel_rfl) y

/-- Accumulator 4 after a run of kind C: its stores read back. -/
def out_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_C c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2)

theorem cover_D_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1 S1024x1.size (by sl_kernel_rfl) y

/-- Accumulator 0 after a run of kind D: its stores read back. -/
def out_D_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.1)

theorem cover_D_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1 S1024x1.size (by sl_kernel_rfl) y

/-- Accumulator 1 after a run of kind D: its stores read back. -/
def out_D_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.1)

theorem cover_D_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1 S1024x1.size (by sl_kernel_rfl) y

/-- Accumulator 2 after a run of kind D: its stores read back. -/
def out_D_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.1)

theorem cover_D_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1 S1024x1.size (by sl_kernel_rfl) y

/-- Accumulator 3 after a run of kind D: its stores read back. -/
def out_D_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.1)

theorem cover_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) (y : S1024x1.Idx) :
    ∃ pc ∈ (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2, y ∈ pc.1.set :=
  View.cover_of_tiledL (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2 S1024x1.size (by sl_kernel_rfl) y

/-- Accumulator 4 after a run of kind D: its stores read back. -/
def out_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) : Vec F S1024x1 .f32 :=
  VO.read (Elt F) (VO.writes (Elt F) VO.junk (kernelRun_D c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4).1.2.2.2.2)

/-! ## @main up to the region -/

/-- Core `c`'s buffers at launch, as the host operations' valuation; -/
abbrev V₀ (c : Dev nD) : Valuation τ sig (Elt F) := fun b => (s₀ m ρ).mem ((c : Dev nD), b)
/-- and when the region is entered: the seven stretches of host operations before it have run. -/
abbrev Vpre (c : Dev nD) : Valuation τ sig (Elt F) :=
  StableHlo.after hostOps0_6 (StableHlo.after hostOps0_5 (StableHlo.after hostOps0_4 (StableHlo.after hostOps0_3
    (StableHlo.after hostOps0_2 (StableHlo.after hostOps0_1 (StableHlo.after hostOps0 (V₀ m ρ c)))))))
abbrev V (c : Dev nD) (b : Ref sig .tc) : Buf (Elt F) ((c : Thread nD τ).loc b) := Vpre m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the accumulators hold after each point -/

/-- The five accumulator blocks. -/
abbrev Acc5 (F : FTy → Type) [FloatOps F] : Type :=
  Vec F S1024x1 .f32 × Vec F S1024x1 .f32 × Vec F S1024x1 .f32 × Vec F S1024x1 .f32 × Vec F S1024x1 .f32

/-- One point: the kind of run the closed forms select, at the point's buffers and input blocks, over what the point before
    left (which a point that resets does not read). -/
def stepAt (c : Dev nD) (t : Fin cfg0.N) (prev : Acc5 F) : Acc5 F :=
  if h1 : t.val % 4 = 0 then
    if h2 : t.val % 5 = 0 then
      (out_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t))
    else
      (out_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t))
  else
    if h2 : t.val % 5 = 0 then
      (out_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_C_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2)
    else
      (out_D_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2,
      out_D_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) prev.1 prev.2.1 prev.2.2.1 prev.2.2.2.1 prev.2.2.2.2)

/-- The accumulation over the points, in the grid's order. -/
def outsAt (c : Dev nD) : (n : ℕ) → n < cfg0.N → Acc5 F
  | 0, hn => stepAt m ρ c ⟨0, hn⟩ (VO.read (Elt F) VO.junk, VO.read (Elt F) VO.junk, VO.read (Elt F) VO.junk, VO.read (Elt F) VO.junk, VO.read (Elt F) VO.junk)
  | n + 1, hn => stepAt m ρ c ⟨n + 1, hn⟩ (outsAt c n (Nat.lt_of_succ_lt hn))

/-- The point before `t`. -/
abbrev pred (t : Fin cfg0.N) : t.val - 1 < cfg0.N := Nat.lt_of_le_of_lt (Nat.sub_le _ _) t.isLt

theorem outsAt_A (c : Dev nD) (t : Fin cfg0.N) (h1 : t.val % 4 = 0) (h2 : t.val % 5 = 0) :
    outsAt m ρ c t.val t.isLt =
      (out_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t),
      out_A_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t)) := by
  obtain ⟨n, hn⟩ := t
  cases n with
  | zero => show stepAt m ρ c ⟨0, hn⟩ _ = _; unfold stepAt; rw [dif_pos h1, dif_pos h2]
  | succ n => show stepAt m ρ c ⟨n + 1, hn⟩ _ = _; unfold stepAt; rw [dif_pos h1, dif_pos h2]

theorem outsAt_B (c : Dev nD) (t : Fin cfg0.N) (h1 : t.val % 4 = 0) (h2 : ¬t.val % 5 = 0) :
    outsAt m ρ c t.val t.isLt =
      (out_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t),
      out_B_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t)) := by
  obtain ⟨n, hn⟩ := t
  cases n with
  | zero => show stepAt m ρ c ⟨0, hn⟩ _ = _; unfold stepAt; rw [dif_pos h1, dif_neg h2]
  | succ n => show stepAt m ρ c ⟨n + 1, hn⟩ _ = _; unfold stepAt; rw [dif_pos h1, dif_neg h2]

theorem outsAt_C (c : Dev nD) (t : Fin cfg0.N) (h1 : ¬t.val % 4 = 0) (h2 : t.val % 5 = 0) :
    outsAt m ρ c t.val t.isLt =
      (out_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_C_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2) := by
  obtain ⟨n, hn⟩ := t
  cases n with
  | zero => exact absurd (Nat.zero_mod _) h1
  | succ n => show stepAt m ρ c ⟨n + 1, hn⟩ _ = _; unfold stepAt; rw [dif_neg h1, dif_pos h2]; rfl

theorem outsAt_D (c : Dev nD) (t : Fin cfg0.N) (h1 : ¬t.val % 4 = 0) (h2 : ¬t.val % 5 = 0) :
    outsAt m ρ c t.val t.isLt =
      (out_D_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2,
      out_D_4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2) := by
  obtain ⟨n, hn⟩ := t
  cases n with
  | zero => exact absurd (Nat.zero_mod _) h1
  | succ n => show stepAt m ρ c ⟨n + 1, hn⟩ _ = _; unfold stepAt; rw [dif_neg h1, dif_neg h2]; rfl

/-! ## The pipeline's proof data -/

/-- The proof data on core `c`: the arrays as the region finds them; after the body each input's buffer at its block and
    the accumulators' at `outsAt`; the class's invariant; nothing owed; the full share, but for the array of normalised
    features, which its two windows hold at the two halves. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => (outsAt m ρ c t.val t.isLt).1
    | ⟨9, _⟩ => (outsAt m ρ c t.val t.isLt).2.1
    | ⟨10, _⟩ => (outsAt m ρ c t.val t.isLt).2.2.1
    | ⟨11, _⟩ => (outsAt m ρ c t.val t.isLt).2.2.2.1
    | ⟨12, _⟩ => (outsAt m ρ c t.val t.isLt).2.2.2.2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m ρ 0 c).A w = V m ρ c (Pipeline.arrRef spec0 w) := by
  dsimp only [dats]
theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = iblk m ρ c 6 t := by dsimp only [dats]
theorem after_7 (c : Dev nD) (t : Fin cfg0.N) : (dats m ρ 0 c).after 7 t = iblk m ρ c 7 t := by dsimp only [dats]
theorem after_8 (c : Dev nD) (t : Fin cfg0.N) : (dats m ρ 0 c).after 8 t = (outsAt m ρ c t.val t.isLt).1 := by dsimp only [dats]
theorem after_9 (c : Dev nD) (t : Fin cfg0.N) : (dats m ρ 0 c).after 9 t = (outsAt m ρ c t.val t.isLt).2.1 := by dsimp only [dats]
theorem after_10 (c : Dev nD) (t : Fin cfg0.N) : (dats m ρ 0 c).after 10 t = (outsAt m ρ c t.val t.isLt).2.2.1 := by dsimp only [dats]
theorem after_11 (c : Dev nD) (t : Fin cfg0.N) : (dats m ρ 0 c).after 11 t = (outsAt m ρ c t.val t.isLt).2.2.2.1 := by dsimp only [dats]
theorem after_12 (c : Dev nD) (t : Fin cfg0.N) : (dats m ρ 0 c).after 12 t = (outsAt m ρ c t.val t.isLt).2.2.2.2 := by dsimp only [dats]

/-- Each input's current staging buffer holds its block at every point, fetched there or not. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m ρ 0 c).before 6 t d = iblk m ρ c 6 t :=
  ((dats m ρ 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m ρ 0 c).before 7 t d = iblk m ρ c 7 t :=
  ((dats m ρ 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- At a point that does not reset, an accumulator's current staging buffer holds what the body left at the point before:
    the buffer was not written back between. -/
theorem before_8 (c : Dev nD) (t : Fin cfg0.N) (h1 : ¬t.val % 4 = 0) (d) :
    (dats m ρ 0 c).before 8 t d = (outsAt m ρ c (t.val - 1) (pred t)).1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
theorem before_9 (c : Dev nD) (t : Fin cfg0.N) (h1 : ¬t.val % 4 = 0) (d) :
    (dats m ρ 0 c).before 9 t d = (outsAt m ρ c (t.val - 1) (pred t)).2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
theorem before_10 (c : Dev nD) (t : Fin cfg0.N) (h1 : ¬t.val % 4 = 0) (d) :
    (dats m ρ 0 c).before 10 t d = (outsAt m ρ c (t.val - 1) (pred t)).2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
theorem before_11 (c : Dev nD) (t : Fin cfg0.N) (h1 : ¬t.val % 4 = 0) (d) :
    (dats m ρ 0 c).before 11 t d = (outsAt m ρ c (t.val - 1) (pred t)).2.2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (c : Dev nD) (t : Fin cfg0.N) (h1 : ¬t.val % 4 = 0) (d) :
    (dats m ρ 0 c).before 12 t d = (outsAt m ρ c (t.val - 1) (pred t)).2.2.2.2 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d))
    ∗ (∃ d, owns (c : Thread nD τ) (ms7 t) fullShare ((dats m ρ 0 c).before 7 t d))
    ∗ (∃ d, owns (c : Thread nD τ) (ms8 t) fullShare ((dats m ρ 0 c).before 8 t d))
    ∗ (∃ d, owns (c : Thread nD τ) (ms9 t) fullShare ((dats m ρ 0 c).before 9 t d))
    ∗ (∃ d, owns (c : Thread nD τ) (ms10 t) fullShare ((dats m ρ 0 c).before 10 t d))
    ∗ (∃ d, owns (c : Thread nD τ) (ms11 t) fullShare ((dats m ρ 0 c).before 11 t d))
    ∗ (∃ d, owns (c : Thread nD τ) (ms12 t) fullShare ((dats m ρ 0 c).before 12 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t)
    ∗ owns (c : Thread nD τ) (ms7 t) fullShare ((dats m ρ 0 c).after 7 t)
    ∗ owns (c : Thread nD τ) (ms8 t) fullShare ((dats m ρ 0 c).after 8 t)
    ∗ owns (c : Thread nD τ) (ms9 t) fullShare ((dats m ρ 0 c).after 9 t)
    ∗ owns (c : Thread nD τ) (ms10 t) fullShare ((dats m ρ 0 c).after 10 t)
    ∗ owns (c : Thread nD τ) (ms11 t) fullShare ((dats m ρ 0 c).after 11 t)
    ∗ owns (c : Thread nD τ) (ms12 t) fullShare ((dats m ρ 0 c).after 12 t))

set_option maxHeartbeats 4000000 in
/-- The body at any point: the inputs' buffers hold their blocks; the closed forms say which kind the point is; an accumulator
    a point reads before storing holds what the point before left; so that kind's run applies, the invariant passing through
    unread and nothing owed throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5, before_6, before_7]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6, after_7, after_8, after_9, after_10, after_11, after_12]
  by_cases h1 : t.val % 4 = 0 <;> by_cases h2 : t.val % 5 = 0
  · rw [outsAt_A m ρ c t h1 h2]
    try dsimp only
    unfold out_A_0 out_A_1 out_A_2 out_A_3 out_A_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_A c (grid0.coords t) _ _ _ _ _ _ _ _ _ _ _ _ _ _ _ _ _ _ _ _ _ _ _ _ _ _ ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_0 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_A_1 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_A_2 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_A_3 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_A_4 c _ _ _ _ _ _ _ _ _ _ _ _ _ _ _ _ _ _ _ _ _ _ _ _ _ _ _ _ _ _ _ _ _ _ _ _ _)
  · rw [outsAt_B m ρ c t h1 h2]
    try dsimp only
    unfold out_B_0 out_B_1 out_B_2 out_B_3 out_B_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_B c (grid0.coords t) _ _ _ _ _ _ _ _ _ _ _ _ _ _ _ _ _ _ _ _ _ _ _ _ _ _ ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_0 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_B_1 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_B_2 c _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_B_3 c _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_B_4 c _ _ _ _ _ _ _ _ _ _ _ _ _ _ _ _ _ _ _ _ _ _ _ _ _ _ _ _ _ _ _ _ _ _ _ _ _)
  · rw [outsAt_C m ρ c t h1 h2]
    simp only [before_8 m ρ c t h1, before_9 m ρ c t h1, before_10 m ρ c t h1, before_11 m ρ c t h1, before_12 m ρ c t h1]
    try dsimp only
    unfold out_C_0 out_C_1 out_C_2 out_C_3 out_C_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_C c (grid0.coords t) _ _ _ _ _ _ _ _ _ _ _ _ _ _ _ _ _ _ _ _ _ _ _ _ _ _ (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) _ _ _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_C_0 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_C_1 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_C_2 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_C_3 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_C_4 c _ _ _ _ _ _ _ _ _ _ _ _ _ _ _ _ _ _ _ _ _ _ _ _ _ _ _ _ _ _ _ _ _ _ _ _ _ _ _ _ _ _)
  · rw [outsAt_D m ρ c t h1 h2]
    simp only [before_8 m ρ c t h1, before_9 m ρ c t h1, before_10 m ρ c t h1, before_11 m ρ c t h1, before_12 m ρ c t h1]
    try dsimp only
    unfold out_D_0 out_D_1 out_D_2 out_D_3 out_D_4
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun_D c (grid0.coords t) _ _ _ _ _ _ _ _ _ _ _ _ _ _ _ _ _ _ _ _ _ _ _ _ _ _ (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) _ _ _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_D_0 c _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_D_1 c _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_D_2 c _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_D_3 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_D_4 c _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.FrameB

end
-- ==== Proof.FB_Arrays.lean ====
/-
  The windows' arrays of the pairwise kernel against the distinct buffers behind them.

  The region has thirteen windows.  The first two — the rows' block and the columns' block of the normalised features —
  are windows on one array; the other eleven arrays are distinct from it and from one another.  The launch hands the
  region each distinct buffer whole at the full share; the pipeline's proof data holds window by window, the shared array
  at the left half of the full share through the first window and at the right half through the second, every other
  array at the full share.  The two accounts are one resource: a points-to at the full share is the two points-tos at its
  halves, and every array is a whole buffer.
-/
import proofs.«138601_j79577154060421_2_alg».proof.Proof.FB_Frame

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The distinct buffers behind the windows' arrays, and the windows' arrays -/

/-- The rows' window and the columns' window are windows on one array. -/
theorem arrRef_zero_one : Pipeline.arrRef spec0 0 = Pipeline.arrRef spec0 1 := rfl

/-- The other eleven arrays are pairwise distinct, and distinct from it. -/
theorem arrRef_inj_but_zero :
    ∀ a b : Fin 13, a ≠ 0 → b ≠ 0 → Pipeline.arrRef spec0 a = Pipeline.arrRef spec0 b → a = b := by decide

theorem arrRef_injOn : Set.InjOn (Pipeline.arrRef spec0) ((Finset.univ.erase (0 : Fin 13) : Finset (Fin 13)) : Set (Fin 13)) :=
  fun a ha b hb e => arrRef_inj_but_zero a b (Finset.ne_of_mem_erase (Finset.mem_coe.mp ha))
    (Finset.ne_of_mem_erase (Finset.mem_coe.mp hb)) e

/-- Every array is the array of a window other than the first. -/
theorem image_arrRef : (Finset.univ : Finset (Fin 13)).image (Pipeline.arrRef spec0)
    = (Finset.univ.erase (0 : Fin 13)).image (Pipeline.arrRef spec0) := by
  ext b
  simp only [Finset.mem_image, Finset.mem_univ, true_and, Finset.mem_erase, ne_eq, and_true]
  constructor
  · rintro ⟨w, rfl⟩
    by_cases hw : w = 0
    · subst hw
      exact ⟨1, by decide, arrRef_zero_one.symm⟩
    · exact ⟨w, hw, rfl⟩
  · rintro ⟨w, -, rfl⟩
    exact ⟨w, rfl⟩

/-- For proof data that holds the shared array at the two halves of the full share through its two windows, and every
    other array at the full share: the distinct buffers, each whole at the full share, are the windows' arrays. -/
theorem arrays_eq_of_shares (c : Dev nD) (dat : Dat τ (Elt F) Unit ℕ (UR sig nD τ) ℕ cfg0 c)
    (hs0 : dat.share 0 = fullShare.left) (hs1 : dat.share 1 = fullShare.right)
    (hs : ∀ w : Fin cfg0.W, w ≠ 0 → w ≠ 1 → dat.share w = fullShare)
    (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄) = dat.arrays G := by
  classical
  let Φ : Fin cfg0.W → sProp 𝕄 := fun w =>
    (cfg0.win w).arr.view.loc (c : Thread nD τ) ↦[(cfg0.win w).arr.view.set]{dat.share w} G w
  let Ψ : Fin cfg0.W → sProp 𝕄 := fun w =>
    ((c : Thread nD τ).loc (Pipeline.arrRef spec0 w)) ↦{fullShare} Vg (Pipeline.arrRef spec0 w)
  have h1mem : (1 : Fin 13) ∈ Finset.univ.erase (0 : Fin 13) := by decide
  have hrest : bigSep ((Finset.univ.erase (0 : Fin 13)).erase 1) Ψ = bigSep ((Finset.univ.erase (0 : Fin 13)).erase 1) Φ :=
    bigSep_congr fun w hw => by
      have h1 : w ≠ 1 := Finset.ne_of_mem_erase hw
      have h0 : w ≠ 0 := Finset.ne_of_mem_erase (Finset.mem_of_mem_erase hw)
      show (((c : Thread nD τ).loc (Pipeline.arrRef spec0 w)) ↦{fullShare} Vg (Pipeline.arrRef spec0 w) : sProp 𝕄)
        = (cfg0.win w).arr.view.loc (c : Thread nD τ) ↦[(cfg0.win w).arr.view.set]{dat.share w} G w
      rw [(arr_whole0 w).set_eq_univ, hs w h0 h1, hG w]
  have e01 : Ψ 1 = iprop(Φ 0 ∗ Φ 1) := by
    show (((c : Thread nD τ).loc (Pipeline.arrRef spec0 1)) ↦{fullShare} Vg (Pipeline.arrRef spec0 1) : sProp 𝕄)
      = iprop(((cfg0.win 0).arr.view.loc (c : Thread nD τ) ↦[(cfg0.win 0).arr.view.set]{dat.share 0} G 0)
          ∗ ((cfg0.win 1).arr.view.loc (c : Thread nD τ) ↦[(cfg0.win 1).arr.view.set]{dat.share 1} G 1))
    rw [(arr_whole0 0).set_eq_univ, hs0, hs1, hG 0, hG 1]
    try rw [(arr_whole0 1).set_eq_univ]
    show (((c : Thread nD τ).loc (Pipeline.arrRef spec0 1)) ↦{fullShare} Vg (Pipeline.arrRef spec0 1) : sProp 𝕄)
      = iprop((((c : Thread nD τ).loc (Pipeline.arrRef spec0 1)) ↦{fullShare.left} Vg (Pipeline.arrRef spec0 1))
          ∗ (((c : Thread nD τ).loc (Pipeline.arrRef spec0 1)) ↦{fullShare.right} Vg (Pipeline.arrRef spec0 1)))
    exact Entails.antisymm (pointsTo_share (PosShare.mem_left_op_right fullShare)).1
      (pointsTo_share (PosShare.mem_left_op_right fullShare)).2
  calc (Pipeline.arrBufs (Ix := Unit) (Name := ℕ) (U := UR sig nD τ) (Lvl := ℕ) spec0 c Vg : sProp 𝕄)
      = bigSep (Finset.univ.erase (0 : Fin 13)) Ψ := by
        unfold Pipeline.arrBufs
        rw [image_arrRef]
        exact bigSep_image_of_injOn arrRef_injOn _
    _ = iprop(Ψ 1 ∗ bigSep ((Finset.univ.erase (0 : Fin 13)).erase 1) Ψ) := bigSep_erase h1mem
    _ = iprop((Φ 0 ∗ Φ 1) ∗ bigSep ((Finset.univ.erase (0 : Fin 13)).erase 1) Φ) := by rw [e01, hrest]
    _ = iprop(Φ 0 ∗ (Φ 1 ∗ bigSep ((Finset.univ.erase (0 : Fin 13)).erase 1) Φ)) := equiv_iff.mp ⟨sep_assoc, sep_assoc'⟩
    _ = iprop(Φ 0 ∗ bigSep (Finset.univ.erase (0 : Fin 13)) Φ) := by rw [bigSep_erase (Φ := Φ) h1mem]; rfl
    _ = bigSep Finset.univ Φ := (bigSep_univ_split (0 : Fin 13)).symm
    _ = dat.arrays G := rfl

variable (m : (ℓ : Loc nD τ sig) → Buf (Elt F) ℓ) (ρ : Dev nD → PrngReg)

/-! ## At this kernel's proof data -/

theorem share_zero (c : Dev nD) : (dats m ρ 0 c).share 0 = fullShare.left := rfl

theorem share_one (c : Dev nD) : (dats m ρ 0 c).share 1 = fullShare.right := rfl

theorem share_rest (c : Dev nD) (w : Fin cfg0.W) (h0 : w ≠ 0) (h1 : w ≠ 1) : (dats m ρ 0 c).share w = fullShare := by
  fin_cases w
  · exact absurd rfl h0
  · exact absurd rfl h1
  all_goals rfl

/-- The distinct buffers behind the arrays, each whole at the full share at contents Vg, are the proof data's arrays at
    contents G, when G is Vg window by window. -/
theorem arrays_eq (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      = (dats m ρ 0 c).arrays G :=
  arrays_eq_of_shares c (dats m ρ 0 c) (share_zero m ρ c) (share_one m ρ c) (share_rest m ρ c) Vg G hG

theorem arrays_of_bufs (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      ⊢ (dats m ρ 0 c).arrays G := by
  rw [arrays_eq m ρ c Vg G hG]

theorem bufs_of_arrays (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (dats m ρ 0 c).arrays G
      ⊢ (Pipeline.arrBufs (Ix := Unit) (Name := ℕ) (U := UR sig nD τ) (Lvl := ℕ) spec0 c Vg : sProp 𝕄) := by
  rw [arrays_eq m ρ c Vg G hG]

theorem arrays_iff (c : Dev nD) (Vg : (b : Ref sig .tc) → Buf (Elt F) ((c : Thread nD τ).loc b))
    (G : (w : Fin cfg0.W) → Buf (Elt F) ((cfg0.win w).arr.view.loc (c : Thread nD τ)))
    (hG : ∀ w, G w = Vg (Pipeline.arrRef spec0 w)) :
    (Pipeline.arrBufs (Ix := Unit) (Name := ℕ) (U := UR sig nD τ) (Lvl := ℕ) spec0 c Vg : sProp 𝕄)
      ⊣⊢ (dats m ρ 0 c).arrays G :=
  ⟨arrays_of_bufs m ρ c Vg G hG, bufs_of_arrays m ρ c Vg G hG⟩

end Cert.FrameB

end
-- ==== Proof.FB_Launch.lean ====
/-
  The run of the whole program: @main as its host stretches and the kernel region, in order.

  Between two items each core holds every unscoped buffer whole at a valuation — the launch contents, then each stretch of
  host operations applied, then, after the region, the five accumulator arrays at what the pipeline wrote back — beside what
  the core owes (nothing) and its generator register.  The region takes the windows' arrays out of the buffers (the array of
  normalised features, handed to two windows, split into the two halves of its share), leaves every other buffer alone, and
  puts the arrays back at their final contents.
-/
import proofs.«138601_j79577154060421_2_alg».proof.Proof.FB_Arrays

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every item: what the core owes, and its generator register. -/
abbrev R (c : Dev nD) : sProp 𝕄 :=
  iprop((∃ W, owes (c : Thread nD τ) (0 : CellTallies nD τ sig Unit) W) ∗ ∃ r, prngReg c r)

/-! ## The buffers' contents between items -/
abbrev W1 (c : Dev nD) : Valuation τ sig (Elt F) := StableHlo.after hostOps0 (V₀ m ρ c)
abbrev W2 (c : Dev nD) : Valuation τ sig (Elt F) := StableHlo.after hostOps0_1 (W1 m ρ c)
abbrev W3 (c : Dev nD) : Valuation τ sig (Elt F) := StableHlo.after hostOps0_2 (W2 m ρ c)
abbrev W4 (c : Dev nD) : Valuation τ sig (Elt F) := StableHlo.after hostOps0_3 (W3 m ρ c)
abbrev W5 (c : Dev nD) : Valuation τ sig (Elt F) := StableHlo.after hostOps0_4 (W4 m ρ c)
abbrev W6 (c : Dev nD) : Valuation τ sig (Elt F) := StableHlo.after hostOps0_5 (W5 m ρ c)
abbrev W7 (c : Dev nD) : Valuation τ sig (Elt F) := StableHlo.after hostOps0_6 (W6 m ρ c)

/-- An array's contents after the region, as the library computes them from the proof data. -/
def finalA (c : Dev nD) (w : Fin cfg0.W) : Buf (Elt F) ((cfg0.win w).arr.view.loc (c : Thread nD τ)) := (dats m ρ 0 c).arrAt w cfg0.N

/-- After the region: the five accumulator arrays at their final contents, every other buffer as the region found it. -/
abbrev Wx (c : Dev nD) : Valuation τ sig (Elt F) :=
  Function.update (Function.update (Function.update (Function.update (Function.update (W7 m ρ c)
    main_v85_0 (finalA m ρ c 8)) main_v85_1 (finalA m ρ c 9)) main_v85_2 (finalA m ρ c 10)) main_v85_3 (finalA m ρ c 11)) main_v85_4 (finalA m ρ c 12)
abbrev W9 (c : Dev nD) : Valuation τ sig (Elt F) := StableHlo.after hostOps1 (Wx m ρ c)
abbrev W10 (c : Dev nD) : Valuation τ sig (Elt F) := StableHlo.after hostOps1_1 (W9 m ρ c)
abbrev W11 (c : Dev nD) : Valuation τ sig (Elt F) := StableHlo.after hostOps1_2 (W10 m ρ c)

/-! ## The items as segments -/

/-- A stretch of host operations over the unscoped buffers from a valuation. -/
def hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := UR sig nD τ) (Lvl := ℕ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The region -/

theorem arr_unscoped (w : Fin cfg0.W) : (Pipeline.arrRef spec0 w).isScoped = false := winFacts₀0.arr_unscoped w

/-- A buffer that is none of the five accumulator arrays is not touched by the region. -/
theorem Wx_of (c : Dev nD) (r : Ref sig .tc) (h : r ∉ ([main_v85_0, main_v85_1, main_v85_2, main_v85_3, main_v85_4] : List (Ref sig .tc))) :
    Wx m ρ c r = W7 m ρ c r := by
  simp only [List.mem_cons, List.mem_nil_iff, not_or, or_false] at h
  obtain ⟨h0, h1, h2, h3, h4⟩ := h
  simp only [Wx, Function.update_of_ne (StableHlo.devRef_ne_of_ne h4 : (Proc.devRef .tc r : DevRef τ sig) ≠ Proc.devRef .tc main_v85_4),
    Function.update_of_ne (StableHlo.devRef_ne_of_ne h3 : (Proc.devRef .tc r : DevRef τ sig) ≠ Proc.devRef .tc main_v85_3),
    Function.update_of_ne (StableHlo.devRef_ne_of_ne h2 : (Proc.devRef .tc r : DevRef τ sig) ≠ Proc.devRef .tc main_v85_2),
    Function.update_of_ne (StableHlo.devRef_ne_of_ne h1 : (Proc.devRef .tc r : DevRef τ sig) ≠ Proc.devRef .tc main_v85_1),
    Function.update_of_ne (StableHlo.devRef_ne_of_ne h0 : (Proc.devRef .tc r : DevRef τ sig) ≠ Proc.devRef .tc main_v85_0)]
/-- Accumulator array 0 after the region. -/
theorem Wx_out0 (c : Dev nD) : Wx m ρ c main_v85_0 = finalA m ρ c 8 := by
  simp only [Wx, Function.update_of_ne (StableHlo.devRef_ne_of_ne (by decide : main_v85_0 ≠ main_v85_4) : (Proc.devRef .tc main_v85_0 : DevRef τ sig) ≠ Proc.devRef .tc main_v85_4),
    Function.update_of_ne (StableHlo.devRef_ne_of_ne (by decide : main_v85_0 ≠ main_v85_3) : (Proc.devRef .tc main_v85_0 : DevRef τ sig) ≠ Proc.devRef .tc main_v85_3),
    Function.update_of_ne (StableHlo.devRef_ne_of_ne (by decide : main_v85_0 ≠ main_v85_2) : (Proc.devRef .tc main_v85_0 : DevRef τ sig) ≠ Proc.devRef .tc main_v85_2),
    Function.update_of_ne (StableHlo.devRef_ne_of_ne (by decide : main_v85_0 ≠ main_v85_1) : (Proc.devRef .tc main_v85_0 : DevRef τ sig) ≠ Proc.devRef .tc main_v85_1),
    Function.update_self]
/-- Accumulator array 1 after the region. -/
theorem Wx_out1 (c : Dev nD) : Wx m ρ c main_v85_1 = finalA m ρ c 9 := by
  simp only [Wx, Function.update_of_ne (StableHlo.devRef_ne_of_ne (by decide : main_v85_1 ≠ main_v85_4) : (Proc.devRef .tc main_v85_1 : DevRef τ sig) ≠ Proc.devRef .tc main_v85_4),
    Function.update_of_ne (StableHlo.devRef_ne_of_ne (by decide : main_v85_1 ≠ main_v85_3) : (Proc.devRef .tc main_v85_1 : DevRef τ sig) ≠ Proc.devRef .tc main_v85_3),
    Function.update_of_ne (StableHlo.devRef_ne_of_ne (by decide : main_v85_1 ≠ main_v85_2) : (Proc.devRef .tc main_v85_1 : DevRef τ sig) ≠ Proc.devRef .tc main_v85_2),
    Function.update_self]
/-- Accumulator array 2 after the region. -/
theorem Wx_out2 (c : Dev nD) : Wx m ρ c main_v85_2 = finalA m ρ c 10 := by
  simp only [Wx, Function.update_of_ne (StableHlo.devRef_ne_of_ne (by decide : main_v85_2 ≠ main_v85_4) : (Proc.devRef .tc main_v85_2 : DevRef τ sig) ≠ Proc.devRef .tc main_v85_4),
    Function.update_of_ne (StableHlo.devRef_ne_of_ne (by decide : main_v85_2 ≠ main_v85_3) : (Proc.devRef .tc main_v85_2 : DevRef τ sig) ≠ Proc.devRef .tc main_v85_3),
    Function.update_self]
/-- Accumulator array 3 after the region. -/
theorem Wx_out3 (c : Dev nD) : Wx m ρ c main_v85_3 = finalA m ρ c 11 := by
  simp only [Wx, Function.update_of_ne (StableHlo.devRef_ne_of_ne (by decide : main_v85_3 ≠ main_v85_4) : (Proc.devRef .tc main_v85_3 : DevRef τ sig) ≠ Proc.devRef .tc main_v85_4),
    Function.update_self]
/-- Accumulator array 4 after the region. -/
theorem Wx_out4 (c : Dev nD) : Wx m ρ c main_v85_4 = finalA m ρ c 12 := by
  simp only [Wx, Function.update_self]

set_option maxHeartbeats 4000000 in
/-- What the region leaves in the arrays is what the valuation after it holds at their buffers. -/
theorem finalA_Wx (c : Dev nD) : ∀ w : Fin cfg0.W, finalA m ρ c w = Wx m ρ c (Pipeline.arrRef spec0 w)
  | ⟨0, _⟩ => show finalA m ρ c 0 = Wx m ρ c main_v78 from
      ((dats m ρ 0 c).arrAt_in 0 rfl _).trans ((show (dats m ρ 0 c).A 0 = W7 m ρ c main_v78 from A_eq m ρ c 0).trans (Wx_of m ρ c main_v78 (by decide)).symm)
  | ⟨1, _⟩ => show finalA m ρ c 1 = Wx m ρ c main_v78 from
      ((dats m ρ 0 c).arrAt_in 1 rfl _).trans ((show (dats m ρ 0 c).A 1 = W7 m ρ c main_v78 from A_eq m ρ c 1).trans (Wx_of m ρ c main_v78 (by decide)).symm)
  | ⟨2, _⟩ => show finalA m ρ c 2 = Wx m ρ c main_v79 from
      ((dats m ρ 0 c).arrAt_in 2 rfl _).trans ((show (dats m ρ 0 c).A 2 = W7 m ρ c main_v79 from A_eq m ρ c 2).trans (Wx_of m ρ c main_v79 (by decide)).symm)
  | ⟨3, _⟩ => show finalA m ρ c 3 = Wx m ρ c main_v80 from
      ((dats m ρ 0 c).arrAt_in 3 rfl _).trans ((show (dats m ρ 0 c).A 3 = W7 m ρ c main_v80 from A_eq m ρ c 3).trans (Wx_of m ρ c main_v80 (by decide)).symm)
  | ⟨4, _⟩ => show finalA m ρ c 4 = Wx m ρ c main_v81 from
      ((dats m ρ 0 c).arrAt_in 4 rfl _).trans ((show (dats m ρ 0 c).A 4 = W7 m ρ c main_v81 from A_eq m ρ c 4).trans (Wx_of m ρ c main_v81 (by decide)).symm)
  | ⟨5, _⟩ => show finalA m ρ c 5 = Wx m ρ c main_v82 from
      ((dats m ρ 0 c).arrAt_in 5 rfl _).trans ((show (dats m ρ 0 c).A 5 = W7 m ρ c main_v82 from A_eq m ρ c 5).trans (Wx_of m ρ c main_v82 (by decide)).symm)
  | ⟨6, _⟩ => show finalA m ρ c 6 = Wx m ρ c main_v83 from
      ((dats m ρ 0 c).arrAt_in 6 rfl _).trans ((show (dats m ρ 0 c).A 6 = W7 m ρ c main_v83 from A_eq m ρ c 6).trans (Wx_of m ρ c main_v83 (by decide)).symm)
  | ⟨7, _⟩ => show finalA m ρ c 7 = Wx m ρ c main_v84 from
      ((dats m ρ 0 c).arrAt_in 7 rfl _).trans ((show (dats m ρ 0 c).A 7 = W7 m ρ c main_v84 from A_eq m ρ c 7).trans (Wx_of m ρ c main_v84 (by decide)).symm)
  | ⟨8, _⟩ => (Wx_out0 m ρ c).symm
  | ⟨9, _⟩ => (Wx_out1 m ρ c).symm
  | ⟨10, _⟩ => (Wx_out2 m ρ c).symm
  | ⟨11, _⟩ => (Wx_out3 m ρ c).symm
  | ⟨12, _⟩ => (Wx_out4 m ρ c).symm

/-- A buffer that is no window's array is not touched by the region. -/
theorem Wx_rest (c : Dev nD) (b : Ref sig .tc) (hb : b ∉ Finset.univ.image (Pipeline.arrRef spec0)) : Wx m ρ c b = W7 m ρ c b :=
  Wx_of m ρ c b (by
    simp only [List.mem_cons, List.mem_nil_iff, not_or, or_false]
    exact ⟨fun e => hb (Finset.mem_image.mpr ⟨8, Finset.mem_univ _, e.symm⟩), fun e => hb (Finset.mem_image.mpr ⟨9, Finset.mem_univ _, e.symm⟩),
      fun e => hb (Finset.mem_image.mpr ⟨10, Finset.mem_univ _, e.symm⟩), fun e => hb (Finset.mem_image.mpr ⟨11, Finset.mem_univ _, e.symm⟩),
      fun e => hb (Finset.mem_image.mpr ⟨12, Finset.mem_univ _, e.symm⟩)⟩)

/-- The buffers the region does not stage, before and after it. -/
theorem rest_eq (c : Dev nD) :
    (Pipeline.unscopedRest (Ix := Unit) (Name := ℕ) (U := UR sig nD τ) (Lvl := ℕ) spec0 c (fun b => Wx m ρ c b) : sProp 𝕄)
      = Pipeline.unscopedRest spec0 c (V m ρ c) := by
  unfold Pipeline.unscopedRest
  exact BI.bigSep_congr fun b hb => by
    show (((c : Thread nD τ).loc b) ↦{fullShare} Wx m ρ c b : sProp 𝕄) = _
    rw [Wx_rest m ρ c b (Finset.mem_sdiff.mp hb).2]

/-- ENTRY: the unscoped buffers as the host stretches left them are the windows' arrays and the rest. -/
theorem entry_split (c : Dev nD) :
    (unscopedBufs c (V m ρ c) : sProp 𝕄) ⊢ iprop((dats m ρ 0 c).arrays ((dats m ρ 0 c).arrAt · 0)
      ∗ Pipeline.unscopedRest (Ix := Unit) (Name := ℕ) (U := UR sig nD τ) (Lvl := ℕ) spec0 c (V m ρ c)) := by
  rw [Pipeline.unscopedBufs_split₀ cfgs 0 (arr_unscoped) c (V m ρ c)]
  exact sep_mono (arrays_iff m ρ c (V m ρ c) (fun w => (dats m ρ 0 c).arrAt w 0) (fun w => A_eq m ρ c w)).1 .rfl

/-- EXIT: the windows' arrays at their final contents and the rest are the unscoped buffers at the valuation after the region. -/
theorem exit_join (c : Dev nD) :
    iprop((dats m ρ 0 c).arrays (finalA m ρ c)
      ∗ Pipeline.unscopedRest (Ix := Unit) (Name := ℕ) (U := UR sig nD τ) (Lvl := ℕ) spec0 c (V m ρ c))
      ⊢ (unscopedBufs c (fun b => Wx m ρ c b) : sProp 𝕄) := by
  rw [Pipeline.unscopedBufs_split₀ cfgs 0 (arr_unscoped) c (fun b => Wx m ρ c b), rest_eq]
  exact sep_mono (arrays_iff m ρ c (fun b => Wx m ρ c b) (finalA m ρ c) (finalA_Wx m ρ c)).2 .rfl

set_option backward.isDefEq.respectTransparency.types false in
/-- THE REGION: the layout decided for windows that may share an array, no semaphore of its own, the body obligation; entered
    from the buffers after the host stretches before it, left with the accumulator arrays at their final contents. -/
def reg0 : Pipeline.RegionSeg (pcfgs (F := F)) adm (dats m ρ) () defs₀ Variants.none L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (Wx m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [show StableHlo.held (c : Thread nD τ) (Pipeline.ucRefs τ sig) (W7 m ρ c) = unscopedBufs c (V m ρ c) from (Pipeline.unscopedBufs_held c _).symm]
    iintro ⟨⟨Hub, HR⟩, -, -⟩
    icases HR with ⟨HO, Hp⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (Wx m ρ c) = unscopedBufs c (fun b => Wx m ρ c b) from (Pipeline.unscopedBufs_held c _).symm]
    iintro ⟨Ha, HO, Hp, Hrest⟩
    imodintro
    isplitl [Ha Hrest]
    · iapply (exit_join m ρ c)
      isplitl [Ha]; · iexact Ha
      iexact Hrest
    · isplitl [HO]
      · unfold Pipeline.Dat.owesAt Pipeline.owesWithin
        icases HO with ⟨%W, -, HO⟩; iexists W; iexact HO
      · iexact Hp

/-- @main as the list of its items. -/
abbrev segs : List (Pipeline.Seg (pcfgs (F := F)) adm (dats m ρ) () defs₀ Variants.none L lv) :=
  [.host (hseg hostOps0 hostOps0_sub hostOps0_fresh (V₀ m ρ)),
   .host (hseg hostOps0_1 hostOps0_1_sub hostOps0_1_fresh (W1 m ρ)),
   .host (hseg hostOps0_2 hostOps0_2_sub hostOps0_2_fresh (W2 m ρ)),
   .host (hseg hostOps0_3 hostOps0_3_sub hostOps0_3_fresh (W3 m ρ)),
   .host (hseg hostOps0_4 hostOps0_4_sub hostOps0_4_fresh (W4 m ρ)),
   .host (hseg hostOps0_5 hostOps0_5_sub hostOps0_5_fresh (W5 m ρ)),
   .host (hseg hostOps0_6 hostOps0_6_sub hostOps0_6_fresh (W6 m ρ)),
   .region (reg0 m ρ),
   .host (hseg hostOps1 hostOps1_sub hostOps1_fresh (Wx m ρ)),
   .host (hseg hostOps1_1 hostOps1_1_sub hostOps1_1_fresh (W9 m ρ)),
   .host (hseg hostOps1_2 hostOps1_2_sub hostOps1_2_fresh (W10 m ρ))]

/-- The physical post: every unscoped buffer at the last valuation. -/
def QC : PUnit × MemSt nD τ sig (Elt F) → Prop := fun r =>
  ∀ c : Dev nD, ∀ b ∈ Pipeline.ucRefs τ sig, r.2.mem ((c : Thread nD τ).1, b) = W11 m ρ c b

set_option backward.isDefEq.respectTransparency.types false in
set_option maxHeartbeats 2000000 in
/-- At the compiled mesh, for any values, from any memory with zero counters: every weakly fair execution of @main on the
    TensorCores terminates, nothing faulting, and every final state has every unscoped buffer at the last valuation. -/
theorem run_main : θ_run defs (onTc (τ := τ) (main (F := F))) ⟨m, fun _ => 0, ρ⟩ (QC m ρ) :=
  Pipeline.θ_run_regions_kit (pcfgs (F := F)) adm (dats m ρ) () cellOf_inj emb₁ defs₀ Variants.none L lv m ρ main (segs m ρ)
    (fun c Q => by
      rewrite [main_chain c, Pipeline.Seg.run_eq_chain,
        show (segs m ρ).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1, StableHlo.seq hostOps1_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ (∃ W, owes (c : Thread nD τ) (0 : CellTallies nD τ sig Unit) W) ∗ ∃ r, prngReg c r)
          ⊢ (iprop((StableHlo.held (c : Thread nD τ) (Pipeline.ucRefs τ sig) (W11 m ρ c) ∗ ∃ r, prngReg c r) ∗ ∃ W, owes (c : Thread nD τ) (0 : CellTallies nD τ sig Unit) W) : sProp 𝕄) from by
        iintro ⟨Hh, HO, Hp⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem ((c : Thread nD τ).1, b) = W11 m ρ c b)
    (hfin := fun c s' => by
      show iprop((StableHlo.held (c : Thread nD τ) (Pipeline.ucRefs τ sig) (W11 m ρ c) ∗ ∃ r, prngReg c r) ∗ SI s') ⊢ _
      unfold StableHlo.held
      iintro ⟨⟨Hh, -⟩, HSI⟩
      ihave Hr := (pointsTo_read_all (Pipeline.ucRefs τ sig) (fun b => ((c : Thread nD τ).1, b)) (W11 m ρ c) s') $$ [Hh HSI]
      · isplitl [Hh] <;> iassumption
      icases Hr with ⟨%h, HSI⟩
      imodintro
      isplitr; · ipureintro; exact h
      iexact HSI)
    (hQ := fun _ h => h)

end Cert.FrameB

end
-- ==== Proof.FB_Args.lean ====
/-
  No item of @main writes an argument array: each host stretch writes only the results of its own operations, and the region
  only the five accumulator arrays.  So every argument holds at the end what it held at launch.
-/
import proofs.«138601_j79577154060421_2_alg».proof.Proof.FB_Launch

set_option maxRecDepth 16384

noncomputable section

namespace Cert.FrameB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hostOps0_W : List (Ref sig .tc) := [main_v0, main_v1, main_cst, main_v2, main_v3, main_cst_0, main_v4, main_v5, main_v6, main_cst_1, main_v7, main_v8]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_1`'s operations write. -/
abbrev hostOps0_1_W : List (Ref sig .tc) := [main_v9]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_2`'s operations write. -/
abbrev hostOps0_2_W : List (Ref sig .tc) := [main_cst_2, main_v10, main_cst_3, main_v11, main_v12, main_v13, main_cst_4, main_v14, main_v15, main_cst_5, main_v16, main_v17, main_v18, main_cst_6, main_v19, main_v20]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_3`'s operations write. -/
abbrev hostOps0_3_W : List (Ref sig .tc) := [main_v21]
set_option maxHeartbeats 4000000 in
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_4`'s operations write. -/
abbrev hostOps0_4_W : List (Ref sig .tc) := [main_cst_7, main_v22, main_cst_8, main_v23, main_cst_9, main_v24, main_cst_10, main_v25, main_v26, main_cst_11, main_v27, main_cst_12, main_v28, main_v29, main_v30, main_cst_13, main_v31, main_cst_14, main_v32, main_v33, main_v34, main_v35, main_cst_15, main_v36, main_cst_16, main_v37, main_v38, main_cst_17, main_v39, main_cst_18, main_v40, main_v41, main_cst_19, main_v42, main_cst_20, main_v43, main_v44, main_v45, main_v46, main_cst_21, main_v47, main_v48, main_cst_22, main_v49, main_cst_23, main_v50, main_cst_24, main_v51, main_v52, main_v53, main_cst_25, main_v54, main_cst_26, main_v55, main_v56, main_v57, main_v58, main_cst_27, main_v59, main_cst_28, main_v60, main_v61, main_cst_29, main_v62, main_cst_30, main_v63, main_v64, main_cst_31, main_v65, main_cst_32, main_v66, main_v67, main_v68, main_v69, main_cst_33, main_v70, main_v71, main_cst_34, main_v72, main_v73, main_cst_35, main_v74]
set_option maxHeartbeats 4000000 in
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_5`'s operations write. -/
abbrev hostOps0_5_W : List (Ref sig .tc) := [main_call2_v0, main_call2_cst, main_call2_v1, main_call2_v2, main_v75]
set_option maxHeartbeats 4000000 in
theorem hostOps0_5_writes : (hostOps0_5 : List (HloOp τ sig (Elt F))).Forall fun op => op.writes ⊆ (hostOps0_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps0_6`'s operations write. -/
abbrev hostOps0_6_W : List (Ref sig .tc) := [main_v76, main_v77, main_v78, main_v79, main_v80, main_v81, main_v82, main_v83, main_v84]
set_option maxHeartbeats 4000000 in
theorem hostOps0_6_writes : (hostOps0_6 : List (HloOp τ sig (Elt F))).Forall fun op => op.writes ⊆ (hostOps0_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1`'s operations write. -/
abbrev hostOps1_W : List (Ref sig .tc) := [main_cst_36, main_v86, main_v87, main_v88, main_v89, main_v90, main_cst_37, main_v91, main_v92, main_v93, main_cst_38, main_v94, main_cst_39, main_v95, main_v96, main_cst_40, main_v97, main_cst_41, main_v98, main_cst_42, main_v99, main_cst_43, main_v100, main_cst_44, main_v101, main_v102, main_cst_45]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1_1`'s operations write. -/
abbrev hostOps1_1_W : List (Ref sig .tc) := [main_call3_v0, main_v103]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-- The references `hostOps1_2`'s operations write. -/
abbrev hostOps1_2_W : List (Ref sig .tc) := [main_cst_46, main_v104, main_v105, main_v106, main_v107]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' constructor
  all_goals exact List.mem_map_of_mem (by decide)

/-! ## What each item leaves unchanged -/
theorem W1_of (c : Dev nD) (r : Ref sig .tc) (h : r ∉ (hostOps0_W : List (Ref sig .tc))) : W1 m ρ c r = V₀ m ρ c r :=
  StableHlo.after_of_writes_sub hostOps0 _ hostOps0_writes h
theorem W2_of (c : Dev nD) (r : Ref sig .tc) (h : r ∉ (hostOps0_1_W : List (Ref sig .tc))) : W2 m ρ c r = W1 m ρ c r :=
  StableHlo.after_of_writes_sub hostOps0_1 _ hostOps0_1_writes h
theorem W3_of (c : Dev nD) (r : Ref sig .tc) (h : r ∉ (hostOps0_2_W : List (Ref sig .tc))) : W3 m ρ c r = W2 m ρ c r :=
  StableHlo.after_of_writes_sub hostOps0_2 _ hostOps0_2_writes h
theorem W4_of (c : Dev nD) (r : Ref sig .tc) (h : r ∉ (hostOps0_3_W : List (Ref sig .tc))) : W4 m ρ c r = W3 m ρ c r :=
  StableHlo.after_of_writes_sub hostOps0_3 _ hostOps0_3_writes h
theorem W5_of (c : Dev nD) (r : Ref sig .tc) (h : r ∉ (hostOps0_4_W : List (Ref sig .tc))) : W5 m ρ c r = W4 m ρ c r :=
  StableHlo.after_of_writes_sub hostOps0_4 _ hostOps0_4_writes h
theorem W6_of (c : Dev nD) (r : Ref sig .tc) (h : r ∉ (hostOps0_5_W : List (Ref sig .tc))) : W6 m ρ c r = W5 m ρ c r :=
  StableHlo.after_of_writes_sub hostOps0_5 _ hostOps0_5_writes h
theorem W7_of (c : Dev nD) (r : Ref sig .tc) (h : r ∉ (hostOps0_6_W : List (Ref sig .tc))) : W7 m ρ c r = W6 m ρ c r :=
  StableHlo.after_of_writes_sub hostOps0_6 _ hostOps0_6_writes h
theorem W9_of (c : Dev nD) (r : Ref sig .tc) (h : r ∉ (hostOps1_W : List (Ref sig .tc))) : W9 m ρ c r = Wx m ρ c r :=
  StableHlo.after_of_writes_sub hostOps1 _ hostOps1_writes h
theorem W10_of (c : Dev nD) (r : Ref sig .tc) (h : r ∉ (hostOps1_1_W : List (Ref sig .tc))) : W10 m ρ c r = W9 m ρ c r :=
  StableHlo.after_of_writes_sub hostOps1_1 _ hostOps1_1_writes h
theorem W11_of (c : Dev nD) (r : Ref sig .tc) (h : r ∉ (hostOps1_2_W : List (Ref sig .tc))) : W11 m ρ c r = W10 m ρ c r :=
  StableHlo.after_of_writes_sub hostOps1_2 _ hostOps1_2_writes h

/-! ## No item writes an argument -/

/-- `main_arg0` reaches the end as launched. -/
theorem W11_main_arg0 (c : Dev nD) : W11 m ρ c main_arg0 = m ((c : Thread nD τ).loc main_arg0) :=
  (W11_of m ρ c main_arg0 (by decide)).trans <| (W10_of m ρ c main_arg0 (by decide)).trans <| (W9_of m ρ c main_arg0 (by decide)).trans <|
  (Wx_of m ρ c main_arg0 (by decide)).trans <| (W7_of m ρ c main_arg0 (by decide)).trans <| (W6_of m ρ c main_arg0 (by decide)).trans <|
  (W5_of m ρ c main_arg0 (by decide)).trans <| (W4_of m ρ c main_arg0 (by decide)).trans <| (W3_of m ρ c main_arg0 (by decide)).trans <|
  (W2_of m ρ c main_arg0 (by decide)).trans <| (W1_of m ρ c main_arg0 (by decide)).trans rfl

/-- `main_arg1` reaches the end as launched. -/
theorem W11_main_arg1 (c : Dev nD) : W11 m ρ c main_arg1 = m ((c : Thread nD τ).loc main_arg1) :=
  (W11_of m ρ c main_arg1 (by decide)).trans <| (W10_of m ρ c main_arg1 (by decide)).trans <| (W9_of m ρ c main_arg1 (by decide)).trans <|
  (Wx_of m ρ c main_arg1 (by decide)).trans <| (W7_of m ρ c main_arg1 (by decide)).trans <| (W6_of m ρ c main_arg1 (by decide)).trans <|
  (W5_of m ρ c main_arg1 (by decide)).trans <| (W4_of m ρ c main_arg1 (by decide)).trans <| (W3_of m ρ c main_arg1 (by decide)).trans <|
  (W2_of m ρ c main_arg1 (by decide)).trans <| (W1_of m ρ c main_arg1 (by decide)).trans rfl

/-- `main_arg2` reaches the end as launched. -/
theorem W11_main_arg2 (c : Dev nD) : W11 m ρ c main_arg2 = m ((c : Thread nD τ).loc main_arg2) :=
  (W11_of m ρ c main_arg2 (by decide)).trans <| (W10_of m ρ c main_arg2 (by decide)).trans <| (W9_of m ρ c main_arg2 (by decide)).trans <|
  (Wx_of m ρ c main_arg2 (by decide)).trans <| (W7_of m ρ c main_arg2 (by decide)).trans <| (W6_of m ρ c main_arg2 (by decide)).trans <|
  (W5_of m ρ c main_arg2 (by decide)).trans <| (W4_of m ρ c main_arg2 (by decide)).trans <| (W3_of m ρ c main_arg2 (by decide)).trans <|
  (W2_of m ρ c main_arg2 (by decide)).trans <| (W1_of m ρ c main_arg2 (by decide)).trans rfl

/-- `main_arg3` reaches the end as launched. -/
theorem W11_main_arg3 (c : Dev nD) : W11 m ρ c main_arg3 = m ((c : Thread nD τ).loc main_arg3) :=
  (W11_of m ρ c main_arg3 (by decide)).trans <| (W10_of m ρ c main_arg3 (by decide)).trans <| (W9_of m ρ c main_arg3 (by decide)).trans <|
  (Wx_of m ρ c main_arg3 (by decide)).trans <| (W7_of m ρ c main_arg3 (by decide)).trans <| (W6_of m ρ c main_arg3 (by decide)).trans <|
  (W5_of m ρ c main_arg3 (by decide)).trans <| (W4_of m ρ c main_arg3 (by decide)).trans <| (W3_of m ρ c main_arg3 (by decide)).trans <|
  (W2_of m ρ c main_arg3 (by decide)).trans <| (W1_of m ρ c main_arg3 (by decide)).trans rfl

/-- `main_arg4` reaches the end as launched. -/
theorem W11_main_arg4 (c : Dev nD) : W11 m ρ c main_arg4 = m ((c : Thread nD τ).loc main_arg4) :=
  (W11_of m ρ c main_arg4 (by decide)).trans <| (W10_of m ρ c main_arg4 (by decide)).trans <| (W9_of m ρ c main_arg4 (by decide)).trans <|
  (Wx_of m ρ c main_arg4 (by decide)).trans <| (W7_of m ρ c main_arg4 (by decide)).trans <| (W6_of m ρ c main_arg4 (by decide)).trans <|
  (W5_of m ρ c main_arg4 (by decide)).trans <| (W4_of m ρ c main_arg4 (by decide)).trans <| (W3_of m ρ c main_arg4 (by decide)).trans <|
  (W2_of m ρ c main_arg4 (by decide)).trans <| (W1_of m ρ c main_arg4 (by decide)).trans rfl

/-- `main_arg5` reaches the end as launched. -/
theorem W11_main_arg5 (c : Dev nD) : W11 m ρ c main_arg5 = m ((c : Thread nD τ).loc main_arg5) :=
  (W11_of m ρ c main_arg5 (by decide)).trans <| (W10_of m ρ c main_arg5 (by decide)).trans <| (W9_of m ρ c main_arg5 (by decide)).trans <|
  (Wx_of m ρ c main_arg5 (by decide)).trans <| (W7_of m ρ c main_arg5 (by decide)).trans <| (W6_of m ρ c main_arg5 (by decide)).trans <|
  (W5_of m ρ c main_arg5 (by decide)).trans <| (W4_of m ρ c main_arg5 (by decide)).trans <| (W3_of m ρ c main_arg5 (by decide)).trans <|
  (W2_of m ρ c main_arg5 (by decide)).trans <| (W1_of m ρ c main_arg5 (by decide)).trans rfl

/-! ## The frame -/

/-- Every weakly fair execution of @main terminates, nothing faulting, and the six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c (Proc.devRef .tc main_arg0) (Finset.mem_filter.mpr ⟨StableHlo.devRef_mem_tcRefs main_arg0, by decide⟩)).trans (W11_main_arg0 m ρ c),
     (h c (Proc.devRef .tc main_arg1) (Finset.mem_filter.mpr ⟨StableHlo.devRef_mem_tcRefs main_arg1, by decide⟩)).trans (W11_main_arg1 m ρ c),
     (h c (Proc.devRef .tc main_arg2) (Finset.mem_filter.mpr ⟨StableHlo.devRef_mem_tcRefs main_arg2, by decide⟩)).trans (W11_main_arg2 m ρ c),
     (h c (Proc.devRef .tc main_arg3) (Finset.mem_filter.mpr ⟨StableHlo.devRef_mem_tcRefs main_arg3, by decide⟩)).trans (W11_main_arg3 m ρ c),
     (h c (Proc.devRef .tc main_arg4) (Finset.mem_filter.mpr ⟨StableHlo.devRef_mem_tcRefs main_arg4, by decide⟩)).trans (W11_main_arg4 m ρ c),
     (h c (Proc.devRef .tc main_arg5) (Finset.mem_filter.mpr ⟨StableHlo.devRef_mem_tcRefs main_arg5, by decide⟩)).trans (W11_main_arg5 m ρ c)⟩)
    (run_main m ρ)

end Cert.FrameB

end
-- ==== Proof.Claims.lean ====
/-
  The three frames and the one entry of the idealisation's ledger.

  Each kernel program's frame is its whole run read at the six argument arrays; the reference has no kernel, and its frame is its
  run with the result dropped.  The ledger's entry says that the logit scale, the word for 10, is read at the ideal values as the
  exact reciprocal of the reference's divisor word — which is what the table of named constants gives it.
-/
import proofs.«138601_j79577154060421_2_alg».proof.Defs
import proofs.«138601_j79577154060421_2_alg».proof.Proof.FI_Args
import proofs.«138601_j79577154060421_2_alg».proof.Proof.FB_Args
import proofs.«138601_j79577154060421_2_alg».proof.Proof.RunP
import proofs.«138601_j79577154060421_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.FrameB.frame (F := Bits) m ρ

theorem frame_ki : Cert.frame_KernelIdeal := fun m ρ _ => Cert.FrameI.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal :=
  IdealRules.named_const.statement Cert.KernelIdeal.κ "inv_temp" .f32 0x41200000#32 ((134217728 / 13421773 : ℝ) : EReal) rfl

end Cert.Proof.Claims

end
-- ==== Proof.RefRun.lean ====
/-
  The reference program's run and its operations read one at a time, for the modules that compare the reference with the
  specification.
-/
import proofs.«138601_j79577154060421_2_alg».proof.Proof.ReadP
-- ==== Proof.Spec.lean ====
/-
  The quantities both programs compute, as functions of the argument arrays, in the form the two sides are compared in.

  For features x (4096 rows of 512 reals, no row zero) the rows are normalised, f i = x i / ‖x i‖, and the logit of a pair
  is (f i · f j) · c with c the exact reciprocal of the single-precision word for 0.1.  Per row i, over the other rows j ≠ i:
    se i = Σ_{j ≠ i} exp (logit i j),   sp i = Σ_{j ≠ i, same id} logit i j,   pc i = #{j ≠ i, same id},
  each written as the sum over all j minus the diagonal term, which is how the tiled program forms it.  The row's
  mean log-probability of its positives is (sp i − pc i · log (se i + ε)) / (pc i + ε); the supervised-contrastive term sums it over
  the rows.  The ranking term sums, over ordered pairs with equal id and g i > g j + 1e-6, the hinge max (margin − (p i − p j), 0),
  and counts those pairs.  These sums are taken in the extended reals, where addition is commutative and associative without
  any finiteness, so only the per-row quantities need real arithmetic.
-/
import Mathlib
import Idealize.ShloMosaic.PureOps.Ideal

noncomputable section

namespace Cert.Spec

open Idealize.ShloMosaic

/-- The single-precision words the programs carry, as extended reals. -/
abbrev wEps8 : EReal := Ideal.ofBits .f32 0x322BCC77#32
abbrev wEps6 : EReal := Ideal.ofBits .f32 0x358637BD#32
abbrev wMargin : EReal := Ideal.ofBits .f32 0x3DCCCCCD#32

/-- The logit scale: the exact reciprocal of the word 0x3DCCCCCD = 13421773 / 2^27. -/
def cK : ℝ := 134217728 / 13421773

section Rows

variable (x : Fin 4096 → Fin 512 → ℝ) (id : Fin 4096 → BitVec 32)

/-- The Euclidean norm of row i. -/
def nr (i : Fin 4096) : ℝ := Real.sqrt (∑ k, x i k * x i k)
/-- Row i normalised. -/
def fr (i : Fin 4096) (k : Fin 512) : ℝ := x i k / nr x i
/-- The logit of the pair (i, j). -/
def lg (i j : Fin 4096) : ℝ := (∑ k, fr x i k * fr x j k) * cK
/-- 1 when rows i and j carry the same id, else 0. -/
def sm (i j : Fin 4096) : ℝ := if id i = id j then 1 else 0
/-- Σ_{j ≠ i} exp (logit i j). -/
def se (i : Fin 4096) : ℝ := (∑ j, Real.exp (lg x i j)) - Real.exp (lg x i i)
/-- Σ_{j ≠ i, same id} logit i j. -/
def sp (i : Fin 4096) : ℝ := (∑ j, sm id i j * lg x i j) - lg x i i
/-- The number of j ≠ i with the same id. -/
def pc (i : Fin 4096) : ℝ := (∑ j, sm id i j) - 1
/-- Row i's mean log-probability of its positives, as the extended real both programs form. -/
def rowSup (i : Fin 4096) : EReal :=
  Ideal.div (((sp x id i : ℝ) : EReal) - ((pc id i : ℝ) : EReal) * Ideal.log (((se x i : ℝ) : EReal) + wEps8))
    (((pc id i : ℝ) : EReal) + wEps8)
/-- The sum over the rows. -/
def supSum : EReal := ∑ i, rowSup x id i

end Rows

section Pairs

variable (id : Fin 4096 → BitVec 32) (g p : Fin 4096 → EReal)

/-- 1 on the ordered pairs that are ranked: equal id and g i above g j by more than the tolerance. -/
def mk (i j : Fin 4096) : EReal := if id i = id j ∧ g j + wEps6 < g i then 1 else 0
/-- The hinge of the pair. -/
def hinge (i j : Fin 4096) : EReal := max (wMargin - (p i - p j)) 0
/-- The summed hinge over the ranked pairs, and their number. -/
def rankLoss : EReal := ∑ i, ∑ j, hinge p i j * mk id g i j
def rankCnt : EReal := ∑ i, ∑ j, mk id g i j

end Pairs

end Cert.Spec

end
-- ==== Proof.RefBase.lean ====
/-
  Small facts the comparison of the reference program with the specification rests on, none of them about a program:
  coercion of finite real sums into the extended reals, the values of the single-precision words the programs carry,
  one-bit words read as 0 / 1, sums over index sets of rank one, and the three row identities
    Σ_j e_j (1 - δ_ij) = Σ_j e_j - e_i,   Σ_j (s_j - δ_ij) = Σ_j s_j - 1,
    Σ_j (s_j - δ_ij)(l_j - L) = (Σ_j s_j l_j - l_i) - (Σ_j s_j - 1) L
  over the reals.
-/
import Mathlib
import Idealize.ShloMosaic.PureOps.Ideal.Laws
import Idealize.ShloMosaic.Lib.ValueIdx
import proofs.«138601_j79577154060421_2_alg».proof.Proof.Spec

noncomputable section

namespace Cert.RefSide

open Idealize.ShloMosaic

/-- A finite sum of reals, coerced, is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The word 0x3DCCCCCD is 13421773 / 2^27. -/
theorem word_tenth : Ideal.ofBits .f32 0x3DCCCCCD#32 = ((13421773 / 134217728 : ℝ) : EReal) := by
  simp [Ideal.ofBits, Ideal.ieee, -EReal.coe_mul]; norm_num

/-- The word 0x322BCC77 is 11258999 / 2^50. -/
theorem word_eps8 : Ideal.ofBits .f32 0x322BCC77#32 = ((11258999 / 1125899906842624 : ℝ) : EReal) := by
  simp [Ideal.ofBits, Ideal.ieee, -EReal.coe_mul]; norm_num

/-- The real the word 0x322BCC77 denotes. -/
def e8 : ℝ := 11258999 / 1125899906842624
theorem e8_pos : 0 < e8 := by unfold e8; norm_num
theorem wEps8_eq : Cert.Spec.wEps8 = ((e8 : ℝ) : EReal) := word_eps8

/-- Dividing by the word 0x3DCCCCCD is multiplying by its exact reciprocal. -/
theorem div_word (z : EReal) :
    Ideal.div z (Ideal.ofBits .f32 0x3DCCCCCD#32) = z * ((Cert.Spec.cK : ℝ) : EReal) := by
  rw [word_tenth, Ideal.div_coe (by norm_num)]
  have h : (1 / (13421773 / 134217728 : ℝ)) = Cert.Spec.cK := by unfold Cert.Spec.cK; norm_num
  rw [h]

/-- A one-bit word converted to a float is 1 or 0. -/
theorem uitofp_ofBool (c : Bool) :
    (FloatOps.uitofp (F := Ideal) .f32 (BitVec.ofBool c) : EReal) = (((if c then 1 else 0 : ℝ)) : EReal) := by
  show (((BitVec.ofBool c).toNat : ℝ) : EReal) = _
  cases c <;> simp

/-- The conjunction of two one-bit words. -/
theorem andi_ofBool (a b : Bool) : IntOp.andi (BitVec.ofBool a) (BitVec.ofBool b) = BitVec.ofBool (a && b) := by
  cases a <;> cases b <;> rfl

/-- Two row numbers below 4096 are equal as 32-bit words exactly when they are equal. -/
theorem iota_eq (i j : Fin 4096) :
    (IntOp.addi (BitVec.ofNat 32 i.val) 0#32 == BitVec.ofNat 32 j.val) = decide (i = j) := by
  have hi := i.isLt
  have hj := j.isLt
  rw [IntOp.addi, BitVec.add_zero]
  by_cases h : i = j
  · subst h; simp
  · have hne : BitVec.ofNat 32 i.val ≠ BitVec.ofNat 32 j.val := by
      intro e
      have := congrArg BitVec.toNat e
      simp only [BitVec.toNat_ofNat] at this
      exact h (Fin.ext (by omega))
    simp [h, hne]

/-- A rank-one index set is its coordinate range … -/
def idxEquiv1 {n : Nat} : (⟨1, ![n]⟩ : Shape).Idx ≃ Fin n where
  toFun i := i 0
  invFun a := ValueIdx.ix1 a
  left_inv i := (ValueIdx.eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

section RowIdentities
variable {ι : Type*} [Fintype ι] [DecidableEq ι]

/-- Σ_j e_j (1 - δ_ij) = Σ_j e_j - e_i. -/
theorem sum_mul_one_sub_delta (e : ι → ℝ) (i : ι) :
    ∑ j, e j * (1 - (if i = j then 1 else 0)) = (∑ j, e j) - e i := by
  simp [mul_sub, Finset.sum_sub_distrib]

/-- Σ_j (s_j - δ_ij) = Σ_j s_j - 1. -/
theorem sum_sub_delta (s : ι → ℝ) (i : ι) :
    ∑ j, (s j - (if i = j then 1 else 0)) = (∑ j, s j) - 1 := by
  simp [Finset.sum_sub_distrib]

/-- Σ_j (s_j - δ_ij)(l_j - L) = (Σ_j s_j l_j - l_i) - (Σ_j s_j - 1) L. -/
theorem sum_mask_mul (s l : ι → ℝ) (L : ℝ) (i : ι) :
    ∑ j, (s j - (if i = j then 1 else 0)) * (l j - L)
      = ((∑ j, s j * l j) - l i) - ((∑ j, s j) - 1) * L := by
  have h : ∀ j, (s j - (if i = j then 1 else 0)) * (l j - L)
      = s j * l j - (if i = j then 1 else 0) * l j - (s j - (if i = j then 1 else 0)) * L := fun j => by ring
  simp only [h, Finset.sum_sub_distrib, ← Finset.sum_mul, ite_mul, one_mul, zero_mul, Finset.sum_ite_eq,
    Finset.mem_univ, if_true]

end RowIdentities

end Cert.RefSide

end
-- ==== Proof.RefFeat.lean ====
/-
  The reference's normalised rows and its logits are the specification's.  Row i's norm is the square root of a positive
  sum of squares, so the quotient x i k / ‖x i‖ is a real; the product of the normalised matrix with its transpose is, at
  (i, j), the sum over k of f i k · f j k; and dividing by the word for 0.1 multiplies by the exact reciprocal.
-/
import proofs.«138601_j79577154060421_2_alg».proof.Proof.RefRun
import proofs.«138601_j79577154060421_2_alg».proof.Proof.RefBase

noncomputable section

namespace Cert.RefSide

open Cert.ReferenceIdeal Idealize.ShloMosaic Idealize.ShloMosaic.ValueIdx

variable (a4 : (⟨S4096x512, .f32⟩ : BufTy).Contents (Elt Ideal)) (x : Fin 4096 → Fin 512 → ℝ)

/-- The row-sum of squares of row i, read under the broadcasts of the norm, runs over the entries (i, k'). -/
theorem idx_norm (i : Fin 4096) (k k' : Fin 512) :
    ReadP.idx_main_call2_v1 (ReadP.idx_main_call2_v2 (ReadP.idx_main_v76 (ix2 i k))) k' = ix2 i k' := by
  funext a; match a with | ⟨0, _⟩ => rfl | ⟨1, _⟩ => rfl

/-- The left factor of the product at (i, j) is entry (i, k) … -/
theorem idx_l (i j : Fin 4096) (k : Fin 512) : ReadP.lidx_main_v79 (ix2 i j) k = ix2 i k := by
  funext a; match a with | ⟨0, _⟩ => rfl | ⟨1, _⟩ => rfl

/-- … and the right factor, read through the transpose, entry (j, k). -/
theorem idx_r (i j : Fin 4096) (k : Fin 512) : ReadP.idx_main_v78 (ReadP.ridx_main_v79 (ix2 i j) k) = ix2 j k := by
  funext a; match a with | ⟨0, _⟩ => rfl | ⟨1, _⟩ => rfl

/-- The normalised entry (i, k) is the real x i k / ‖x i‖. -/
theorem ref_f (hx : ∀ i k, a4 (ix2 i k) = ((x i k : ℝ) : EReal)) (hpos : ∀ i, 0 < ∑ k, x i k * x i k)
    (i : Fin 4096) (k : Fin 512) :
    ReadP.val_main_v77 (F := Ideal) a4 (ix2 i k) = ((Cert.Spec.fr x i k : ℝ) : EReal) := by
  rw [ReadP.val_main_v77_apply, ReadP.val_main_v76_apply, ReadP.val_main_v75_apply, ReadP.val_main_call2_v2_apply,
    ReadP.val_main_call2_v1_apply, ReadP.val_main_call2_cst_apply]
  simp only [ReadP.val_main_call2_v0_apply, idx_norm, hx, Ideal.hostDivf_def, Ideal.hostUnary_sqrt_def, Ideal.mulf_def,
    Ideal.ofBits_def, Ideal.ofBits_zero_f32, zero_add, ← EReal.coe_mul, ← coe_sum]
  have hn : Real.sqrt (∑ k, x i k * x i k) ≠ 0 := (Real.sqrt_pos.mpr (hpos i)).ne'
  rw [Ideal.sqrt_coe, if_neg (not_lt.mpr (hpos i).le), Ideal.div_coe hn, ← EReal.coe_mul]
  congr 1
  unfold Cert.Spec.fr Cert.Spec.nr
  ring

/-- The logit of the pair (i, j). -/
theorem ref_logit (hx : ∀ i k, a4 (ix2 i k) = ((x i k : ℝ) : EReal)) (hpos : ∀ i, 0 < ∑ k, x i k * x i k)
    (i j : Fin 4096) :
    ReadP.val_main_v81 (F := Ideal) a4 (ix2 i j) = ((Cert.Spec.lg x i j : ℝ) : EReal) := by
  rw [ReadP.val_main_v81_apply, ReadP.val_main_v79_apply, ReadP.val_main_v80_apply, ReadP.val_main_cst_36_apply]
  simp only [ReadP.val_main_v78_apply, idx_l, idx_r, ref_f a4 x hx hpos, Ideal.hostDivf_def, Ideal.ofBits_def,
    ← EReal.coe_mul, ← coe_sum]
  rw [div_word, ← EReal.coe_mul]
  rfl

end Cert.RefSide

end
-- ==== Proof.RefMask.lean ====
/-
  The reference's masks at a pair (i, j): the identity matrix is 1 exactly on the diagonal (row and column numbers below
  4096 are equal as 32-bit words exactly when they are equal), the same-id matrix is 1 exactly where the two ids agree,
  and the ranked-pair matrix is 1 exactly where the ids agree and g i exceeds g j by more than the tolerance.
-/
import proofs.«138601_j79577154060421_2_alg».proof.Proof.RefRun
import proofs.«138601_j79577154060421_2_alg».proof.Proof.RefBase

noncomputable section

namespace Cert.RefSide

open Cert.ReferenceIdeal Idealize.ShloMosaic Idealize.ShloMosaic.ValueIdx

variable (a3 : (⟨S4096, .f32⟩ : BufTy).Contents (Elt Ideal)) (a5 : (⟨S4096, .i32⟩ : BufTy).Contents (Elt Ideal))

/-- The word 0x3F800000 is 1. -/
theorem word_one : Ideal.ofBits .f32 0x3F800000#32 = 1 := by
  simp [Ideal.ofBits, Ideal.ieee, -EReal.coe_mul]; norm_num

/-- The identity matrix at (i, j). -/
theorem ref_eye (i j : Fin 4096) :
    ReadP.val_main_v87 (F := Ideal) (ix2 i j) = (((if i = j then 1 else 0 : ℝ)) : EReal) := by
  rw [ReadP.val_main_v87_apply, ReadP.val_main_v86_apply, ReadP.val_main_v85_apply, ReadP.val_main_v82_apply,
    ReadP.val_main_v83_apply, ReadP.val_main_v84_apply, ReadP.val_main_c_apply]
  show FloatOps.uitofp (F := Ideal) .f32
    (BitVec.ofBool (IntOp.addi (BitVec.ofNat 32 i.val) 0#32 == BitVec.ofNat 32 j.val)) = _
  rw [iota_eq, uitofp_ofBool]
  simp

/-- The column of ids broadcast along rows reads id i at (i, j) … -/
theorem idx_row (i j : Fin 4096) : ReadP.idx_main_v88 (ReadP.idx_main_v90 (ix2 i j)) = ix1 i := by
  funext a; match a with | ⟨0, _⟩ => rfl
/-- … and the row of ids broadcast along columns reads id j. -/
theorem idx_col (i j : Fin 4096) : ReadP.idx_main_v89 (ReadP.idx_main_v91 (ix2 i j)) = ix1 j := by
  funext a; match a with | ⟨0, _⟩ => rfl

/-- The same-id matrix at (i, j). -/
theorem ref_same (i j : Fin 4096) :
    ReadP.val_main_v93 (F := Ideal) a5 (ix2 i j) = ((Cert.Spec.sm (fun i => a5 (ix1 i)) i j : ℝ) : EReal) := by
  rw [ReadP.val_main_v93_apply, ReadP.val_main_v92_apply, ReadP.val_main_v90_apply, ReadP.val_main_v91_apply,
    ReadP.val_main_v88_apply, ReadP.val_main_v89_apply, idx_row, idx_col]
  show FloatOps.uitofp (F := Ideal) .f32 (BitVec.ofBool (a5 (ix1 i) == a5 (ix1 j))) = _
  rw [uitofp_ofBool]
  unfold Cert.Spec.sm
  simp

/-- The positives' mask, same minus identity, at (i, j). -/
theorem ref_posmask (i j : Fin 4096) :
    ReadP.val_main_v94 (F := Ideal) a5 (ix2 i j)
      = ((Cert.Spec.sm (fun i => a5 (ix1 i)) i j - (if i = j then 1 else 0) : ℝ) : EReal) := by
  rw [ReadP.val_main_v94_apply, ref_same, ref_eye, Ideal.subf_def, ← EReal.coe_sub]

/-- One minus the identity, at (i, j). -/
theorem ref_offdiag (i j : Fin 4096) :
    ReadP.val_main_v97 (F := Ideal) (ix2 i j) = ((1 - (if i = j then 1 else 0) : ℝ) : EReal) := by
  rw [ReadP.val_main_v97_apply, ReadP.val_main_v96_apply, ReadP.val_main_cst_37_apply, ref_eye, Ideal.subf_def,
    Ideal.ofBits_def, word_one, ← EReal.coe_one, ← EReal.coe_sub]

/-- The ids of a pair, for the ranking term. -/
theorem idx_row' (i j : Fin 4096) : ReadP.idx_main_v116 (ReadP.idx_main_v118 (ix2 i j)) = ix1 i := by
  funext a; match a with | ⟨0, _⟩ => rfl
theorem idx_col' (i j : Fin 4096) : ReadP.idx_main_v117 (ReadP.idx_main_v119 (ix2 i j)) = ix1 j := by
  funext a; match a with | ⟨0, _⟩ => rfl
/-- The targets of a pair. -/
theorem idx_grow (i j : Fin 4096) : ReadP.idx_main_v121 (ReadP.idx_main_v125 (ix2 i j)) = ix1 i := by
  funext a; match a with | ⟨0, _⟩ => rfl
theorem idx_gcol (i j : Fin 4096) : ReadP.idx_main_v122 (ReadP.idx_main_v126 (ix2 i j)) = ix1 j := by
  funext a; match a with | ⟨0, _⟩ => rfl

/-- The ranked-pair matrix at (i, j). -/
theorem ref_mk (i j : Fin 4096) :
    ReadP.val_main_v129 (F := Ideal) a3 a5 (ix2 i j)
      = Cert.Spec.mk (fun i => a5 (ix1 i)) (fun i => a3 (ix1 i)) i j := by
  rw [ReadP.val_main_v129_apply, ReadP.val_main_v128_apply, ReadP.val_main_v120_apply, ReadP.val_main_v127_apply,
    ReadP.val_main_v118_apply, ReadP.val_main_v119_apply, ReadP.val_main_v116_apply, ReadP.val_main_v117_apply,
    ReadP.val_main_v125_apply, ReadP.val_main_v126_apply, ReadP.val_main_v121_apply, ReadP.val_main_v124_apply,
    ReadP.val_main_v122_apply, ReadP.val_main_v123_apply, ReadP.val_main_cst_46_apply,
    idx_row', idx_col', idx_grow, idx_gcol]
  show FloatOps.uitofp (F := Ideal) .f32 (IntOp.andi (BitVec.ofBool (a5 (ix1 i) == a5 (ix1 j)))
    (BitVec.ofBool (decide (a3 (ix1 j) + Ideal.ofBits .f32 0x358637BD#32 < a3 (ix1 i))))) = _
  rw [andi_ofBool, uitofp_ofBool]
  unfold Cert.Spec.mk
  by_cases h1 : a5 (ix1 i) = a5 (ix1 j) <;>
    by_cases h2 : a3 (ix1 j) + Ideal.ofBits .f32 0x358637BD#32 < a3 (ix1 i) <;> simp [h1, h2]

end Cert.RefSide

end
-- ==== Proof.RefSup.lean ====
/-
  The reference's supervised-contrastive sum is the specification's.  With every row of the features nonzero, every
  intermediate of row i is a real: the masked sum of exponentials is Σ_j exp (logit i j) (1 - δ_ij) = se i, which is positive
  because a row has other rows beside it, so its logarithm after adding the small positive word is a real L; the masked sums
  Σ_j (same - δ)(logit - L) and Σ_j (same - δ) distribute over the reals into sp i - pc i · L and pc i.  The sum over the rows
  is then taken in the extended reals.
-/
import proofs.«138601_j79577154060421_2_alg».proof.Proof.RefFeat
import proofs.«138601_j79577154060421_2_alg».proof.Proof.RefMask

noncomputable section

namespace Cert.RefSide

open Cert.ReferenceIdeal Idealize.ShloMosaic Idealize.ShloMosaic.ValueIdx

variable (a4 : (⟨S4096x512, .f32⟩ : BufTy).Contents (Elt Ideal)) (a5 : (⟨S4096, .i32⟩ : BufTy).Contents (Elt Ideal))
  (x : Fin 4096 → Fin 512 → ℝ)

/-- The three row sums of row i run over the pairs (i, k). -/
theorem idx_se (i k : Fin 4096) : ReadP.idx_main_v99 (ix1 i) k = ix2 i k := by
  funext a; match a with | ⟨0, _⟩ => rfl | ⟨1, _⟩ => rfl
theorem idx_num (i k : Fin 4096) : ReadP.idx_main_v107 (ix1 i) k = ix2 i k := by
  funext a; match a with | ⟨0, _⟩ => rfl | ⟨1, _⟩ => rfl
theorem idx_den (i k : Fin 4096) : ReadP.idx_main_v108 (ix1 i) k = ix2 i k := by
  funext a; match a with | ⟨0, _⟩ => rfl | ⟨1, _⟩ => rfl
/-- The logarithm column broadcast along rows reads row i's at (i, j). -/
theorem idx_lse (i j : Fin 4096) : ReadP.idx_main_v100 (ReadP.idx_main_v104 (ix2 i j)) = ix1 i := by
  funext a; match a with | ⟨0, _⟩ => rfl

/-- A row has other rows beside it, so its off-diagonal sum of exponentials is positive. -/
theorem se_pos (i : Fin 4096) : 0 < Cert.Spec.se x i := by
  unfold Cert.Spec.se
  rw [← Finset.add_sum_erase Finset.univ (fun j => Real.exp (Cert.Spec.lg x i j)) (Finset.mem_univ i),
    add_sub_cancel_left]
  refine Finset.sum_pos (fun j _ => Real.exp_pos _) (Finset.card_pos.mp ?_)
  rw [Finset.card_erase_of_mem (Finset.mem_univ i), Finset.card_univ, Fintype.card_fin]
  norm_num

section
variable (hx : ∀ i k, a4 (ix2 i k) = ((x i k : ℝ) : EReal)) (hpos : ∀ i, 0 < ∑ k, x i k * x i k)
include hx hpos

/-- Row i's off-diagonal sum of exponentials. -/
theorem ref_se (i : Fin 4096) :
    ReadP.val_main_v99 (F := Ideal) a4 (ix1 i) = ((Cert.Spec.se x i : ℝ) : EReal) := by
  rw [ReadP.val_main_v99_apply, ReadP.val_main_cst_38_apply]
  simp only [idx_se, ReadP.val_main_v98_apply, ReadP.val_main_v95_apply, ref_logit a4 x hx hpos, ref_offdiag,
    Ideal.mulf_def, Ideal.hostUnary_exp_def, Ideal.exp_coe, Ideal.ofBits_def, Ideal.ofBits_zero_f32, zero_add,
    ← EReal.coe_mul, ← coe_sum]
  rw [sum_mul_one_sub_delta]
  rfl

/-- The log-probability of the pair (i, j). -/
theorem ref_logprob (i j : Fin 4096) :
    ReadP.val_main_v105 (F := Ideal) a4 (ix2 i j)
      = ((Cert.Spec.lg x i j : ℝ) : EReal) - Ideal.log (((Cert.Spec.se x i : ℝ) : EReal) + Cert.Spec.wEps8) := by
  rw [ReadP.val_main_v105_apply, ReadP.val_main_v104_apply, ReadP.val_main_v103_apply, ReadP.val_main_v102_apply,
    ReadP.val_main_v100_apply, ReadP.val_main_v101_apply, ReadP.val_main_cst_39_apply, idx_lse,
    ref_se a4 x hx hpos, ref_logit a4 x hx hpos]
  rfl

/-- Row i's mean log-probability of its positives. -/
theorem ref_row (i : Fin 4096) :
    ReadP.val_main_v111 (F := Ideal) a4 a5 (ix1 i) = Cert.Spec.rowSup x (fun i => a5 (ix1 i)) i := by
  have hL : Ideal.log (((Cert.Spec.se x i : ℝ) : EReal) + Cert.Spec.wEps8)
      = ((Real.log (Cert.Spec.se x i + e8) : ℝ) : EReal) := by
    rw [wEps8_eq, ← EReal.coe_add, Ideal.log_coe, if_neg (not_le.mpr (add_pos (se_pos x i) e8_pos))]
  rw [ReadP.val_main_v111_apply, ReadP.val_main_v107_apply, ReadP.val_main_v110_apply, ReadP.val_main_v108_apply,
    ReadP.val_main_v109_apply, ReadP.val_main_cst_40_apply, ReadP.val_main_cst_41_apply, ReadP.val_main_cst_42_apply]
  simp only [idx_num, idx_den, ReadP.val_main_v106_apply, ref_posmask, ref_logprob a4 x hx hpos, hL, Ideal.mulf_def,
    Ideal.addf_def, Ideal.hostDivf_def, Ideal.ofBits_def, Ideal.ofBits_zero_f32, zero_add, ← EReal.coe_sub,
    ← EReal.coe_mul, ← coe_sum]
  rw [sum_mask_mul, sum_sub_delta]
  unfold Cert.Spec.rowSup
  rw [hL, ← EReal.coe_mul, ← EReal.coe_sub]
  rfl

/-- The sum over the rows. -/
theorem ref_sup :
    ReadP.val_main_v112 (F := Ideal) a4 a5 ix0 = Cert.Spec.supSum x (fun i => a5 (ix1 i)) := by
  rw [ReadP.val_main_v112_apply, ReadP.val_main_cst_43_apply, Ideal.ofBits_def, Ideal.ofBits_zero_f32, zero_add, sum_idx1]
  unfold Cert.Spec.supSum
  exact Finset.sum_congr rfl fun i _ => ref_row a4 a5 x hx hpos i

end

end Cert.RefSide

end
-- ==== Proof.RefRank.lean ====
/-
  The reference's ranking sums are the specification's.  At a pair (i, j) the reference forms the hinge
  max (margin - (p i - p j), 0) and multiplies it by the ranked-pair matrix; its two sums over the whole 4096 x 4096
  array are the double sums over i and j.  Nothing here needs finiteness: the sums are taken in the extended reals.
-/
import proofs.«138601_j79577154060421_2_alg».proof.Proof.RefMask

noncomputable section

namespace Cert.RefSide

open Cert.ReferenceIdeal Idealize.ShloMosaic Idealize.ShloMosaic.ValueIdx

variable (a1 a3 : (⟨S4096, .f32⟩ : BufTy).Contents (Elt Ideal)) (a5 : (⟨S4096, .i32⟩ : BufTy).Contents (Elt Ideal))

/-- The predictions of a pair. -/
theorem idx_prow (i j : Fin 4096) : ReadP.idx_main_v130 (ReadP.idx_main_v132 (ix2 i j)) = ix1 i := by
  funext a; match a with | ⟨0, _⟩ => rfl
theorem idx_pcol (i j : Fin 4096) : ReadP.idx_main_v131 (ReadP.idx_main_v133 (ix2 i j)) = ix1 j := by
  funext a; match a with | ⟨0, _⟩ => rfl

/-- The hinge of the pair (i, j). -/
theorem ref_hinge (i j : Fin 4096) :
    ReadP.val_main_v137 (F := Ideal) a1 (ix2 i j) = Cert.Spec.hinge (fun i => a1 (ix1 i)) i j := by
  rw [ReadP.val_main_v137_apply, ReadP.val_main_v136_apply, ReadP.val_main_v135_apply, ReadP.val_main_cst_47_apply,
    ReadP.val_main_v134_apply, ReadP.val_main_v132_apply, ReadP.val_main_v133_apply, ReadP.val_main_v130_apply,
    ReadP.val_main_v131_apply, ReadP.val_main_call3_v0_apply, ReadP.val_main_call3_cst_apply, idx_prow, idx_pcol]
  simp only [Ideal.maximumf_def, Ideal.subf_def, Ideal.ofBits_def, Ideal.ofBits_zero_f32]
  rfl

/-- The number of ranked pairs. -/
theorem ref_cnt :
    ReadP.val_main_v139 (F := Ideal) a3 a5 ix0
      = Cert.Spec.rankCnt (fun i => a5 (ix1 i)) (fun i => a3 (ix1 i)) := by
  rw [ReadP.val_main_v139_apply, ReadP.val_main_cst_48_apply, Ideal.ofBits_def, Ideal.ofBits_zero_f32, zero_add, sum_idx2]
  unfold Cert.Spec.rankCnt
  exact Finset.sum_congr rfl fun i _ => Finset.sum_congr rfl fun j _ => ref_mk a3 a5 i j

/-- The summed hinge over the ranked pairs. -/
theorem ref_loss :
    ReadP.val_main_v141 (F := Ideal) a1 a3 a5 ix0
      = Cert.Spec.rankLoss (fun i => a5 (ix1 i)) (fun i => a3 (ix1 i)) (fun i => a1 (ix1 i)) := by
  rw [ReadP.val_main_v141_apply, ReadP.val_main_cst_50_apply, Ideal.ofBits_def, Ideal.ofBits_zero_f32, zero_add, sum_idx2]
  unfold Cert.Spec.rankLoss
  refine Finset.sum_congr rfl fun i _ => Finset.sum_congr rfl fun j _ => ?_
  rw [ReadP.val_main_v138_apply, ref_hinge, ref_mk, Ideal.mulf_def]

end Cert.RefSide

end
-- ==== Proof.RefValue.lean ====
/-
  The reference's result as a function of five scalars.  Its last operations add the regression term and the correlation term
  (two chains of host operations that are not opened here), 0.05 times minus the mean over the 4096 rows of the rows' mean
  log-probabilities, and 0.05 times the mean hinge over the ranked pairs, the latter taken as 0 when no pair is ranked and with
  the count floored at 1 in the quotient.
-/
import proofs.«138601_j79577154060421_2_alg».proof.Proof.RefSup
import proofs.«138601_j79577154060421_2_alg».proof.Proof.RefRank

noncomputable section

namespace Cert.RefSide

open Cert.ReferenceIdeal Idealize.ShloMosaic Idealize.ShloMosaic.ValueIdx

/-- The combination of the regression term, the correlation term, the supervised-contrastive sum, the summed hinge and the
    number of ranked pairs into the loss. -/
def tail (reg plcc sup loss cnt : EReal) : EReal :=
  ((reg + plcc) + Ideal.ofBits .f32 0x3D4CCCCD#32 * -(Ideal.div sup (Ideal.ofBits .f32 0x45800000#32)))
    + Ideal.ofBits .f32 0x3D4CCCCD#32
        * Scalar.select (Ideal.cmp .ogt cnt 0) (Ideal.div loss (max cnt (Ideal.ofBits .f32 0x3F800000#32))) 0

variable (a0 a1 a2 a3 : (⟨S4096, .f32⟩ : BufTy).Contents (Elt Ideal))
  (a4 : (⟨S4096x512, .f32⟩ : BufTy).Contents (Elt Ideal)) (a5 : (⟨S4096, .i32⟩ : BufTy).Contents (Elt Ideal))
  (x : Fin 4096 → Fin 512 → ℝ)

/-- The reference's result. -/
theorem ref_value (hx : ∀ i k, a4 (ix2 i k) = ((x i k : ℝ) : EReal)) (hpos : ∀ i, 0 < ∑ k, x i k * x i k) :
    ReadP.val_main_v148 (F := Ideal) a0 a1 a2 a3 a4 a5 ix0
      = tail (ReadP.val_main_v26 (F := Ideal) a0 a1 a2 a3 ix0) (ReadP.val_main_v74 (F := Ideal) a0 a1 a2 a3 ix0)
          (Cert.Spec.supSum x (fun i => a5 (ix1 i)))
          (Cert.Spec.rankLoss (fun i => a5 (ix1 i)) (fun i => a3 (ix1 i)) (fun i => a1 (ix1 i)))
          (Cert.Spec.rankCnt (fun i => a5 (ix1 i)) (fun i => a3 (ix1 i))) := by
  rw [ReadP.val_main_v148_apply, ReadP.val_main_v147_apply, ReadP.val_main_v146_apply, ReadP.val_main_v115_apply,
    ReadP.val_main_v114_apply, ReadP.val_main_v113_apply, ReadP.val_main_cst_45_apply, ReadP.val_main_cst_44_apply,
    ReadP.val_main_v145_apply, ReadP.val_main_cst_53_apply, ReadP.val_main_v144_apply, ReadP.val_main_v140_apply,
    ReadP.val_main_v143_apply, ReadP.val_main_v142_apply, ReadP.val_main_call4_v0_apply, ReadP.val_main_cst_49_apply,
    ReadP.val_main_cst_51_apply, ReadP.val_main_cst_52_apply,
    ref_sup a4 a5 x hx hpos, ref_cnt, ref_loss]
  simp only [Ideal.ofBits_def, Ideal.ofBits_zero_f32]
  rfl

end Cert.RefSide

end
-- ==== Proof.PreFacts.lean ====
/-
  What the precondition gives about the features.

  The precondition says that every entry of every float argument has absolute value below +∞ and that every row of
  the features has a positive sum of squares.  An extended real whose absolute value is below +∞ is a real number,
  so the features are a real matrix x, and the sum of squares of row i — the zero word plus the sum over the 512
  columns — is the coercion of Σ_k x i k · x i k, which is therefore positive.
-/
import Mathlib
import proofs.«138601_j79577154060421_2_alg».proof.Pre_finite_inputs
import proofs.«138601_j79577154060421_2_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

/-- The word 0x7F800000 is +∞. -/
theorem w_inf : Ideal.ofBits .f32 0x7F800000#32 = ⊤ := by
  simp [Ideal.ofBits, Ideal.ieee]

/-- An extended real whose absolute value compares below +∞ is a real number. -/
theorem real_of_abs_lt (z : EReal)
    (h : Ideal.cmp .olt (max z (-z)) (Ideal.ofBits .f32 0x7F800000#32) = 1#1) : ∃ r : ℝ, z = (r : EReal) := by
  rw [w_inf] at h
  induction z using EReal.rec with
  | bot => simp [Ideal.cmp] at h
  | top => simp [Ideal.cmp] at h
  | coe r => exact ⟨r, rfl⟩

/-- The sum over the columns of a real row, inside the extended reals. -/
theorem coe_sum_cols (f : Fin 512 → ℝ) : (∑ k, ((f k : ℝ) : EReal)) = ((∑ k, f k : ℝ) : EReal) := by
  classical
  have : ∀ s : Finset (Fin 512), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact this Finset.univ

theorem feats_real (a0 a1 a2 a3 : FVec Ideal S4096 .f32) (a4 : FVec Ideal S4096x512 .f32) (a5 : IVec S4096 32)
    (h : Cert.Pre_finite_inputs.fn (F := Ideal) a0 a1 a2 a3 a4 a5 = fun _ => 1#1) :
    ∃ x : Fin 4096 → Fin 512 → ℝ,
      (∀ i k, a4 (ValueIdx.ix2 i k) = ((x i k : ℝ) : EReal)) ∧ ∀ i, 0 < ∑ k, x i k * x i k := by
  have h0 := congrFun h ValueIdx.ix0
  dsimp only [Cert.Pre_finite_inputs.fn, Cert.Pre_finite_inputs.fn_part1] at h0
  obtain ⟨h23, h28⟩ := IntOp.andi_eq_one.1 h0
  obtain ⟨-, h22⟩ := IntOp.andi_eq_one.1 h23
  have hfin : ∀ i k, ∃ r : ℝ, a4 (ValueIdx.ix2 i k) = (r : EReal) := fun i k =>
    real_of_abs_lt _ (Host.reduce_andi_all _ _ _ _ _ h22 (ValueIdx.ix2 i k))
  choose x hx using hfin
  refine ⟨x, hx, fun i => ?_⟩
  have hp := Host.reduce_andi_all _ _ _ _ _ h28 (ValueIdx.ix1 i)
  have hR : S4096x512.Reduces [1] S4096 := by decide
  have hp' : Ideal.cmp .ogt (Ideal.hostReduceAdd Facts.reducesTo_S4096x512_S4096_d1 (mulf a4 a4)
      (Ideal.ofBits .f32 0x00000000#32) (ValueIdx.ix1 i)) (Ideal.ofBits .f32 0x00000000#32) = 1#1 := hp
  rw [Ideal.hostReduceAdd_single _ hR, Ideal.ofBits_zero_f32, zero_add] at hp'
  have hl : ∀ k : Fin 512, hR.lift (ValueIdx.ix1 i) k = ValueIdx.ix2 i k := fun k =>
    funext fun c => Fin.ext (by match c with | ⟨0, _⟩ => rfl | ⟨1, _⟩ => rfl)
  have hs : (∑ k : Fin 512, mulf a4 a4 (hR.lift (ValueIdx.ix1 i) k)) = ((∑ k, x i k * x i k : ℝ) : EReal) := by
    rw [← coe_sum_cols]
    refine Finset.sum_congr rfl fun k _ => ?_
    rw [hl k]
    show a4 (ValueIdx.ix2 i k) * a4 (ValueIdx.ix2 i k) = _
    rw [hx i k, ← EReal.coe_mul]
  have hp'' : Ideal.cmp .ogt ((∑ k, x i k * x i k : ℝ) : EReal) 0 = 1#1 := by
    rw [← hs]; exact hp'
  have hpos : (0 : EReal) < ((∑ k, x i k * x i k : ℝ) : EReal) := by
    by_contra hn
    simp [Ideal.cmp, hn] at hp''
  exact_mod_cast hpos

end Cert.PreFacts

end
-- ==== Proof.Consts.lean ====
/-
  The logit scale.  The tiled program multiplies the dot product of two normalised rows by a constant it carries
  by name; the name denotes the exact reciprocal of the single-precision word for 0.1, so that the product equals
  the other program's quotient by that word on every extended real.
-/
import proofs.«138601_j79577154060421_2_alg».proof.KernelIdeal
import Idealize.ShloMosaic.PureOps.IdealRules
import proofs.«138601_j79577154060421_2_alg».proof.Proof.Spec

noncomputable section

namespace Cert.Consts

open Idealize.ShloMosaic

/-- The named scale is the real number 134217728 / 13421773. -/
theorem named_inv_temp :
    Named.named (F := Ideal) Cert.KernelIdeal.κ "inv_temp" (φ := .f32) 0x41200000#32 = ((Cert.Spec.cK : ℝ) : EReal) := by
  unfold Cert.Spec.cK
  exact IdealRules.named_const.ideal_named_scalar _ _ _ _ rfl

end Cert.Consts

end
-- ==== Proof.KerHost1.lean ====
/-
  The arrays the kernel region finds.  Before the region the program normalises the rows of the features — the same
  operations, one for one, as the reference's: the row's sum of squares, its square root, the quotient; the change of format
  that follows is the identity on extended reals — and reshapes the ids, the targets and the predictions into a column and a
  row each.  So the features' window array holds x i k / ‖x i‖ at (i, k), and the six reshaped arrays hold entry i of their
  argument at (i, 0), respectively entry j at (0, j).
-/
import proofs.«138601_j79577154060421_2_alg».proof.Proof.FI_Args
import proofs.«138601_j79577154060421_2_alg».proof.Proof.RefFeat
import Idealize.ShloMosaic.Lib.ValueLayout

set_option maxRecDepth 16384

noncomputable section

namespace Cert.KerSide

open Cert.KernelIdeal Cert.KernelIdeal.Gen Cert.FrameI
open Idealize.ShloMosaic Idealize.ShloMosaic.TcCoe Idealize.ShloMosaic.ValueIdx
open Idealize.SL.Sem

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section Stretches
variable (W : Valuation τ sig (Elt Ideal))

/-- The norm's stretch, from any contents: the column of row norms of the features. -/
theorem after5_v75 :
    (StableHlo.after (hostOps0_5 (F := Ideal)) W (Proc.devRef .tc main_v75) : S4096x1.Idx → EReal)
      = Cert.ReferenceIdeal.ReadP.val_main_v75 (F := Ideal) (W (Proc.devRef .tc main_arg4)) := by
  after_results
  rfl

/-- The last stretch before the region: the quotient by the broadcast norms … -/
theorem after6_v78 :
    (StableHlo.after (hostOps0_6 (F := Ideal)) W (Proc.devRef .tc main_v78) : S4096x512.Idx → EReal)
      = Host.divf (F := Ideal) (s := S4096x512) (φ := .f32) (W (Proc.devRef .tc main_arg4))
          (broadcastInDim (α := Ideal .f32) S4096x512 ![0, 1] bcast_S4096x1_S4096x512_0_1 (W (Proc.devRef .tc main_v75))) := by
  after_results
  rfl
/-- … and the six reshapes. -/
theorem after6_v79 :
    (StableHlo.after (hostOps0_6 (F := Ideal)) W (Proc.devRef .tc main_v79) : S4096x1.Idx → BitVec 32)
      = shapeCast (α := BitVec 32) S4096x1 (W (Proc.devRef .tc main_arg5)) shapeCasts_S4096_S4096x1 := by
  after_results
  rfl
theorem after6_v80 :
    (StableHlo.after (hostOps0_6 (F := Ideal)) W (Proc.devRef .tc main_v80) : S1x4096.Idx → BitVec 32)
      = shapeCast (α := BitVec 32) S1x4096 (W (Proc.devRef .tc main_arg5)) shapeCasts_S4096_S1x4096 := by
  after_results
  rfl
theorem after6_v81 :
    (StableHlo.after (hostOps0_6 (F := Ideal)) W (Proc.devRef .tc main_v81) : S4096x1.Idx → EReal)
      = shapeCast (α := EReal) S4096x1 (W (Proc.devRef .tc main_arg3)) shapeCasts_S4096_S4096x1 := by
  after_results
  rfl
theorem after6_v82 :
    (StableHlo.after (hostOps0_6 (F := Ideal)) W (Proc.devRef .tc main_v82) : S1x4096.Idx → EReal)
      = shapeCast (α := EReal) S1x4096 (W (Proc.devRef .tc main_arg3)) shapeCasts_S4096_S1x4096 := by
  after_results
  rfl
theorem after6_v83 :
    (StableHlo.after (hostOps0_6 (F := Ideal)) W (Proc.devRef .tc main_v83) : S4096x1.Idx → EReal)
      = shapeCast (α := EReal) S4096x1 (W (Proc.devRef .tc main_arg1)) shapeCasts_S4096_S4096x1 := by
  after_results
  rfl
theorem after6_v84 :
    (StableHlo.after (hostOps0_6 (F := Ideal)) W (Proc.devRef .tc main_v84) : S1x4096.Idx → EReal)
      = shapeCast (α := EReal) S1x4096 (W (Proc.devRef .tc main_arg1)) shapeCasts_S4096_S1x4096 := by
  after_results
  rfl

end Stretches

variable (m : (ℓ : Loc nD τ sig) → Buf (Elt Ideal) ℓ) (ρ : Dev nD → PrngReg) (c : Dev nD)

/-! No stretch before the region writes an argument. -/
theorem W5_arg4 : W5 m ρ c main_arg4 = m ((c : Thread nD τ).loc main_arg4) :=
  (W5_of m ρ c main_arg4 (by decide)).trans <| (W4_of m ρ c main_arg4 (by decide)).trans <| (W3_of m ρ c main_arg4 (by decide)).trans <|
  (W2_of m ρ c main_arg4 (by decide)).trans <| (W1_of m ρ c main_arg4 (by decide)).trans rfl
theorem W6_arg4 : W6 m ρ c main_arg4 = m ((c : Thread nD τ).loc main_arg4) :=
  (W6_of m ρ c main_arg4 (by decide)).trans (W5_arg4 m ρ c)
theorem W6_arg1 : W6 m ρ c main_arg1 = m ((c : Thread nD τ).loc main_arg1) :=
  (W6_of m ρ c main_arg1 (by decide)).trans <| (W5_of m ρ c main_arg1 (by decide)).trans <| (W4_of m ρ c main_arg1 (by decide)).trans <|
  (W3_of m ρ c main_arg1 (by decide)).trans <| (W2_of m ρ c main_arg1 (by decide)).trans <| (W1_of m ρ c main_arg1 (by decide)).trans rfl
theorem W6_arg3 : W6 m ρ c main_arg3 = m ((c : Thread nD τ).loc main_arg3) :=
  (W6_of m ρ c main_arg3 (by decide)).trans <| (W5_of m ρ c main_arg3 (by decide)).trans <| (W4_of m ρ c main_arg3 (by decide)).trans <|
  (W3_of m ρ c main_arg3 (by decide)).trans <| (W2_of m ρ c main_arg3 (by decide)).trans <| (W1_of m ρ c main_arg3 (by decide)).trans rfl
theorem W6_arg5 : W6 m ρ c main_arg5 = m ((c : Thread nD τ).loc main_arg5) :=
  (W6_of m ρ c main_arg5 (by decide)).trans <| (W5_of m ρ c main_arg5 (by decide)).trans <| (W4_of m ρ c main_arg5 (by decide)).trans <|
  (W3_of m ρ c main_arg5 (by decide)).trans <| (W2_of m ρ c main_arg5 (by decide)).trans <| (W1_of m ρ c main_arg5 (by decide)).trans rfl

/-- The features' window array is the reference's normalised matrix of the same argument. -/
theorem W7_v78 :
    (W7 (F := Ideal) m ρ c main_v78 : S4096x512.Idx → EReal)
      = Cert.ReferenceIdeal.ReadP.val_main_v77 (F := Ideal) (m ((c : Thread nD τ).loc main_arg4)) := by
  have h75 : (W6 (F := Ideal) m ρ c main_v75 : S4096x1.Idx → EReal)
      = Cert.ReferenceIdeal.ReadP.val_main_v75 (F := Ideal) (m ((c : Thread nD τ).loc main_arg4)) :=
    (after5_v75 (W5 m ρ c)).trans (congrArg _ (W5_arg4 m ρ c))
  refine (after6_v78 (W6 m ρ c)).trans ?_
  rw [show W6 (F := Ideal) m ρ c (Proc.devRef .tc main_v75) = _ from h75,
    show W6 (F := Ideal) m ρ c (Proc.devRef .tc main_arg4) = _ from W6_arg4 m ρ c]
  rfl

/-- The features' window array at (i, k). -/
theorem V_v78 (x : Fin 4096 → Fin 512 → ℝ)
    (hx : ∀ i k, m ((c : Thread nD τ).loc main_arg4) (ix2 i k) = ((x i k : ℝ) : EReal))
    (hpos : ∀ i, 0 < ∑ k, x i k * x i k) (i : Fin 4096) (k : Fin 512) :
    V (F := Ideal) m ρ c main_v78 (ix2 i k) = ((Cert.Spec.fr x i k : ℝ) : EReal) :=
  (congrFun (W7_v78 m ρ c) (ix2 i k)).trans (Cert.RefSide.ref_f _ x hx hpos i k)

/-- The ids as a column and as a row. -/
theorem V_v79 (i : Fin 4096) :
    V (F := Ideal) m ρ c main_v79 (ix2 i (0 : Fin 1)) = m ((c : Thread nD τ).loc main_arg5) (ix1 i) := by
  have e : (W7 (F := Ideal) m ρ c main_v79 : S4096x1.Idx → BitVec 32)
      = shapeCast (α := BitVec 32) S4096x1 (m ((c : Thread nD τ).loc main_arg5)) shapeCasts_S4096_S4096x1 :=
    (after6_v79 (W6 m ρ c)).trans (congrArg (fun v => shapeCast (α := BitVec 32) S4096x1 v shapeCasts_S4096_S4096x1) (W6_arg5 m ρ c))
  exact (congrFun e _).trans (shapeCast_a_a1_apply _ _ i 0)
theorem V_v80 (j : Fin 4096) :
    V (F := Ideal) m ρ c main_v80 (ix2 (0 : Fin 1) j) = m ((c : Thread nD τ).loc main_arg5) (ix1 j) := by
  have e : (W7 (F := Ideal) m ρ c main_v80 : S1x4096.Idx → BitVec 32)
      = shapeCast (α := BitVec 32) S1x4096 (m ((c : Thread nD τ).loc main_arg5)) shapeCasts_S4096_S1x4096 :=
    (after6_v80 (W6 m ρ c)).trans (congrArg (fun v => shapeCast (α := BitVec 32) S1x4096 v shapeCasts_S4096_S1x4096) (W6_arg5 m ρ c))
  exact (congrFun e _).trans (shapeCast_a_1a_apply _ _ 0 j)
/-- The targets as a column and as a row. -/
theorem V_v81 (i : Fin 4096) :
    V (F := Ideal) m ρ c main_v81 (ix2 i (0 : Fin 1)) = m ((c : Thread nD τ).loc main_arg3) (ix1 i) := by
  have e : (W7 (F := Ideal) m ρ c main_v81 : S4096x1.Idx → EReal)
      = shapeCast (α := EReal) S4096x1 (m ((c : Thread nD τ).loc main_arg3)) shapeCasts_S4096_S4096x1 :=
    (after6_v81 (W6 m ρ c)).trans (congrArg (fun v => shapeCast (α := EReal) S4096x1 v shapeCasts_S4096_S4096x1) (W6_arg3 m ρ c))
  exact (congrFun e _).trans (shapeCast_a_a1_apply _ _ i 0)
theorem V_v82 (j : Fin 4096) :
    V (F := Ideal) m ρ c main_v82 (ix2 (0 : Fin 1) j) = m ((c : Thread nD τ).loc main_arg3) (ix1 j) := by
  have e : (W7 (F := Ideal) m ρ c main_v82 : S1x4096.Idx → EReal)
      = shapeCast (α := EReal) S1x4096 (m ((c : Thread nD τ).loc main_arg3)) shapeCasts_S4096_S1x4096 :=
    (after6_v82 (W6 m ρ c)).trans (congrArg (fun v => shapeCast (α := EReal) S1x4096 v shapeCasts_S4096_S1x4096) (W6_arg3 m ρ c))
  exact (congrFun e _).trans (shapeCast_a_1a_apply _ _ 0 j)
/-- The predictions as a column and as a row. -/
theorem V_v83 (i : Fin 4096) :
    V (F := Ideal) m ρ c main_v83 (ix2 i (0 : Fin 1)) = m ((c : Thread nD τ).loc main_arg1) (ix1 i) := by
  have e : (W7 (F := Ideal) m ρ c main_v83 : S4096x1.Idx → EReal)
      = shapeCast (α := EReal) S4096x1 (m ((c : Thread nD τ).loc main_arg1)) shapeCasts_S4096_S4096x1 :=
    (after6_v83 (W6 m ρ c)).trans (congrArg (fun v => shapeCast (α := EReal) S4096x1 v shapeCasts_S4096_S4096x1) (W6_arg1 m ρ c))
  exact (congrFun e _).trans (shapeCast_a_a1_apply _ _ i 0)
theorem V_v84 (j : Fin 4096) :
    V (F := Ideal) m ρ c main_v84 (ix2 (0 : Fin 1) j) = m ((c : Thread nD τ).loc main_arg1) (ix1 j) := by
  have e : (W7 (F := Ideal) m ρ c main_v84 : S1x4096.Idx → EReal)
      = shapeCast (α := EReal) S1x4096 (m ((c : Thread nD τ).loc main_arg1)) shapeCasts_S4096_S1x4096 :=
    (after6_v84 (W6 m ρ c)).trans (congrArg (fun v => shapeCast (α := EReal) S1x4096 v shapeCasts_S4096_S1x4096) (W6_arg1 m ρ c))
  exact (congrFun e _).trans (shapeCast_a_1a_apply _ _ 0 j)

end Cert.KerSide

end
-- ==== Proof.KerHost4.lean ====
/-
  The two scalars both programs compute alike before anything else: the regression term and the correlation term.  The
  kernel program's host operations for them are, one for one, the reference's; read stretch by stretch from the arguments they
  are the reference's two terms of the same four arguments.  The arithmetic is never opened.
-/
import proofs.«138601_j79577154060421_2_alg».proof.Proof.FI_Args
import proofs.«138601_j79577154060421_2_alg».proof.Proof.RefRun

set_option maxRecDepth 16384

noncomputable section

namespace Cert.KerSide

open Cert.KernelIdeal Cert.KernelIdeal.Gen Cert.FrameI
open Idealize.ShloMosaic Idealize.ShloMosaic.TcCoe
open Idealize.SL.Sem

section Stretches
variable (W : Valuation τ sig (Elt Ideal))

theorem after0_v3 :
    (StableHlo.after (hostOps0 (F := Ideal)) W (Proc.devRef .tc main_v3) : S4096.Idx → BitVec 1)
      = Cert.ReferenceIdeal.ReadP.val_main_v3 (F := Ideal) (W (Proc.devRef .tc main_arg0)) (W (Proc.devRef .tc main_arg2)) := by
  after_results <;> rfl
theorem after0_v6 :
    (StableHlo.after (hostOps0 (F := Ideal)) W (Proc.devRef .tc main_v6) : S4096.Idx → EReal)
      = Cert.ReferenceIdeal.ReadP.val_main_v6 (F := Ideal) (W (Proc.devRef .tc main_arg0)) (W (Proc.devRef .tc main_arg2)) := by
  after_results <;> rfl
theorem after0_v8 :
    (StableHlo.after (hostOps0 (F := Ideal)) W (Proc.devRef .tc main_v8) : S4096.Idx → EReal)
      = Cert.ReferenceIdeal.ReadP.val_main_v8 (F := Ideal) (W (Proc.devRef .tc main_arg0)) (W (Proc.devRef .tc main_arg2)) := by
  after_results <;> rfl
theorem after01_v9 :
    (StableHlo.after (hostOps0_1 (F := Ideal)) W (Proc.devRef .tc main_v9) : S4096.Idx → EReal)
      = select (W (Proc.devRef .tc main_v3) : S4096.Idx → BitVec 1) (W (Proc.devRef .tc main_v6) : S4096.Idx → EReal)
          (W (Proc.devRef .tc main_v8) : S4096.Idx → EReal) := by
  after_results <;> rfl
theorem after02_v11 :
    (StableHlo.after (hostOps0_2 (F := Ideal)) W (Proc.devRef .tc main_v11) : S_.Idx → EReal)
      = Host.divf (F := Ideal) (Host.reduceAdd (F := Ideal) (W (Proc.devRef .tc main_v9) : FVec Ideal S4096 .f32)
          (constant (F := Ideal) S_ .f32 0x00000000#32) reducesTo_S4096_S_d0 h_S_) (constant (F := Ideal) S_ .f32 0x45800000#32) := by
  after_results <;> rfl
theorem after02_v15 :
    (StableHlo.after (hostOps0_2 (F := Ideal)) W (Proc.devRef .tc main_v15) : S4096.Idx → BitVec 1)
      = Cert.ReferenceIdeal.ReadP.val_main_v15 (F := Ideal) (W (Proc.devRef .tc main_arg1)) (W (Proc.devRef .tc main_arg3)) := by
  after_results <;> rfl
theorem after02_v18 :
    (StableHlo.after (hostOps0_2 (F := Ideal)) W (Proc.devRef .tc main_v18) : S4096.Idx → EReal)
      = Cert.ReferenceIdeal.ReadP.val_main_v18 (F := Ideal) (W (Proc.devRef .tc main_arg1)) (W (Proc.devRef .tc main_arg3)) := by
  after_results <;> rfl
theorem after02_v20 :
    (StableHlo.after (hostOps0_2 (F := Ideal)) W (Proc.devRef .tc main_v20) : S4096.Idx → EReal)
      = Cert.ReferenceIdeal.ReadP.val_main_v20 (F := Ideal) (W (Proc.devRef .tc main_arg1)) (W (Proc.devRef .tc main_arg3)) := by
  after_results <;> rfl
theorem after03_v21 :
    (StableHlo.after (hostOps0_3 (F := Ideal)) W (Proc.devRef .tc main_v21) : S4096.Idx → EReal)
      = select (W (Proc.devRef .tc main_v15) : S4096.Idx → BitVec 1) (W (Proc.devRef .tc main_v18) : S4096.Idx → EReal)
          (W (Proc.devRef .tc main_v20) : S4096.Idx → EReal) := by
  after_results <;> rfl
set_option maxHeartbeats 4000000 in
theorem after04_v26 :
    (StableHlo.after (hostOps0_4 (F := Ideal)) W (Proc.devRef .tc main_v26) : S_.Idx → EReal)
      = addf (F := Ideal) (mulf (F := Ideal) (constant (F := Ideal) S_ .f32 0x3F800000#32) (W (Proc.devRef .tc main_v11) : FVec Ideal S_ .f32))
          (mulf (F := Ideal) (constant (F := Ideal) S_ .f32 0x3F800000#32)
            (Host.divf (F := Ideal) (Host.reduceAdd (F := Ideal) (W (Proc.devRef .tc main_v21) : FVec Ideal S4096 .f32)
              (constant (F := Ideal) S_ .f32 0x00000000#32) reducesTo_S4096_S_d0 h_S_) (constant (F := Ideal) S_ .f32 0x45800000#32))) := by
  after_results <;> rfl
set_option maxHeartbeats 40000000 in
theorem after04_v74 :
    (StableHlo.after (hostOps0_4 (F := Ideal)) W (Proc.devRef .tc main_v74) : S_.Idx → EReal)
      = Cert.ReferenceIdeal.ReadP.val_main_v74 (F := Ideal) (W (Proc.devRef .tc main_arg0)) (W (Proc.devRef .tc main_arg1))
          (W (Proc.devRef .tc main_arg2)) (W (Proc.devRef .tc main_arg3)) := by
  after_results_simp <;> rfl

end Stretches

variable (m : (ℓ : Loc nD τ sig) → Buf (Elt Ideal) ℓ) (ρ : Dev nD → PrngReg) (c : Dev nD)

/-- No stretch writes an argument. -/
theorem W2_arg1 : W2 m ρ c main_arg1 = m ((c : Thread nD τ).loc main_arg1) :=
  (W2_of m ρ c main_arg1 (by decide)).trans <| (W1_of m ρ c main_arg1 (by decide)).trans rfl
theorem W2_arg3 : W2 m ρ c main_arg3 = m ((c : Thread nD τ).loc main_arg3) :=
  (W2_of m ρ c main_arg3 (by decide)).trans <| (W1_of m ρ c main_arg3 (by decide)).trans rfl
theorem W4_arg0 : W4 m ρ c main_arg0 = m ((c : Thread nD τ).loc main_arg0) :=
  (W4_of m ρ c main_arg0 (by decide)).trans <| (W3_of m ρ c main_arg0 (by decide)).trans <|
  (W2_of m ρ c main_arg0 (by decide)).trans <| (W1_of m ρ c main_arg0 (by decide)).trans rfl
theorem W4_arg1 : W4 m ρ c main_arg1 = m ((c : Thread nD τ).loc main_arg1) :=
  (W4_of m ρ c main_arg1 (by decide)).trans <| (W3_of m ρ c main_arg1 (by decide)).trans (W2_arg1 m ρ c)
theorem W4_arg2 : W4 m ρ c main_arg2 = m ((c : Thread nD τ).loc main_arg2) :=
  (W4_of m ρ c main_arg2 (by decide)).trans <| (W3_of m ρ c main_arg2 (by decide)).trans <|
  (W2_of m ρ c main_arg2 (by decide)).trans <| (W1_of m ρ c main_arg2 (by decide)).trans rfl
theorem W4_arg3 : W4 m ρ c main_arg3 = m ((c : Thread nD τ).loc main_arg3) :=
  (W4_of m ρ c main_arg3 (by decide)).trans <| (W3_of m ρ c main_arg3 (by decide)).trans (W2_arg3 m ρ c)

/-- The regression term before the region is the reference's. -/
theorem W7_v26 :
    (W7 (F := Ideal) m ρ c main_v26 : S_.Idx → EReal)
      = Cert.ReferenceIdeal.ReadP.val_main_v26 (F := Ideal) (m ((c : Thread nD τ).loc main_arg0)) (m ((c : Thread nD τ).loc main_arg1))
          (m ((c : Thread nD τ).loc main_arg2)) (m ((c : Thread nD τ).loc main_arg3)) := by
  have e9 : (W2 (F := Ideal) m ρ c main_v9 : S4096.Idx → EReal)
      = Cert.ReferenceIdeal.ReadP.val_main_v9 (F := Ideal) (m ((c : Thread nD τ).loc main_arg0)) (m ((c : Thread nD τ).loc main_arg2)) := by
    refine (after01_v9 (W1 m ρ c)).trans ?_
    rw [show (W1 (F := Ideal) m ρ c (Proc.devRef .tc main_v3) : S4096.Idx → BitVec 1) = _ from after0_v3 (V₀ m ρ c),
      show (W1 (F := Ideal) m ρ c (Proc.devRef .tc main_v6) : S4096.Idx → EReal) = _ from after0_v6 (V₀ m ρ c),
      show (W1 (F := Ideal) m ρ c (Proc.devRef .tc main_v8) : S4096.Idx → EReal) = _ from after0_v8 (V₀ m ρ c)]
    rfl
  have e11 : (W4 (F := Ideal) m ρ c main_v11 : S_.Idx → EReal)
      = Cert.ReferenceIdeal.ReadP.val_main_v11 (F := Ideal) (m ((c : Thread nD τ).loc main_arg0)) (m ((c : Thread nD τ).loc main_arg2)) := by
    refine (W4_of m ρ c main_v11 (by decide)).trans ((after02_v11 (W2 m ρ c)).trans ?_)
    rw [show (W2 (F := Ideal) m ρ c (Proc.devRef .tc main_v9) : FVec Ideal S4096 .f32) = _ from e9]
    rfl
  have e21 : (W4 (F := Ideal) m ρ c main_v21 : S4096.Idx → EReal)
      = Cert.ReferenceIdeal.ReadP.val_main_v21 (F := Ideal) (m ((c : Thread nD τ).loc main_arg1)) (m ((c : Thread nD τ).loc main_arg3)) := by
    refine (after03_v21 (W3 m ρ c)).trans ?_
    rw [show (W3 (F := Ideal) m ρ c (Proc.devRef .tc main_v15) : S4096.Idx → BitVec 1) = _ from after02_v15 (W2 m ρ c),
      show (W3 (F := Ideal) m ρ c (Proc.devRef .tc main_v18) : S4096.Idx → EReal) = _ from after02_v18 (W2 m ρ c),
      show (W3 (F := Ideal) m ρ c (Proc.devRef .tc main_v20) : S4096.Idx → EReal) = _ from after02_v20 (W2 m ρ c),
      show W2 (F := Ideal) m ρ c (Proc.devRef .tc main_arg1) = _ from W2_arg1 m ρ c,
      show W2 (F := Ideal) m ρ c (Proc.devRef .tc main_arg3) = _ from W2_arg3 m ρ c]
    rfl
  refine (W7_of m ρ c main_v26 (by decide)).trans ((W6_of m ρ c main_v26 (by decide)).trans ((after04_v26 (W4 m ρ c)).trans ?_))
  rw [show (W4 (F := Ideal) m ρ c (Proc.devRef .tc main_v11) : FVec Ideal S_ .f32) = _ from e11,
    show (W4 (F := Ideal) m ρ c (Proc.devRef .tc main_v21) : FVec Ideal S4096 .f32) = _ from e21]
  rfl

/-- The correlation term before the region is the reference's. -/
theorem W7_v74 :
    (W7 (F := Ideal) m ρ c main_v74 : S_.Idx → EReal)
      = Cert.ReferenceIdeal.ReadP.val_main_v74 (F := Ideal) (m ((c : Thread nD τ).loc main_arg0)) (m ((c : Thread nD τ).loc main_arg1))
          (m ((c : Thread nD τ).loc main_arg2)) (m ((c : Thread nD τ).loc main_arg3)) := by
  refine (W7_of m ρ c main_v74 (by decide)).trans ((W6_of m ρ c main_v74 (by decide)).trans ((after04_v74 (W4 m ρ c)).trans ?_))
  rw [show W4 (F := Ideal) m ρ c (Proc.devRef .tc main_arg0) = _ from W4_arg0 m ρ c,
    show W4 (F := Ideal) m ρ c (Proc.devRef .tc main_arg1) = _ from W4_arg1 m ρ c,
    show W4 (F := Ideal) m ρ c (Proc.devRef .tc main_arg2) = _ from W4_arg2 m ρ c,
    show W4 (F := Ideal) m ρ c (Proc.devRef .tc main_arg3) = _ from W4_arg3 m ρ c]

end Cert.KerSide

end
-- ==== Proof.KerRowsA.lean ====
/-
  One row's five sums over all 4096 columns, taken four column tiles of 1024 at a time.

  Row tile I is visited at the four grid points (I, 0), (I, 1), (I, 2), (I, 3) in this order.  At each of them an accumulator entry
  is first replaced by 0 when the column tile is the first one, then receives the tile's row sum, and, for the first three
  accumulators, on the diagonal tile I = J loses the diagonal pair's term.  With real terms the entry after the four points is the
  sum over all columns minus the diagonal term; for the two ranking sums nothing is taken off and the terms may be any
  extended reals, since sums of extended reals regroup freely.
-/
import proofs.«138601_j79577154060421_2_alg».proof.Proof.Spec

noncomputable section

namespace Cert.KerSide

open Cert.Spec

/-- Row p of row tile I (and, as a column, column q of column tile J) among the 4096. -/
def row (I : Fin 4) (p : Fin 1024) : Fin 4096 := ⟨1024 * I.val + p.val, by omega⟩

/-- One grid point without a diagonal correction: 0 in place of the entry at the first column tile, then the tile's row sum added. -/
def stepP (J : Fin 4) (add e : EReal) : EReal := (if J = 0 then 0 else e) + add
/-- One grid point with the diagonal correction on the diagonal tile. -/
def stepE (I J : Fin 4) (add dia e : EReal) : EReal := if I = J then stepP J add e - dia else stepP J add e
/-- The four points of a row tile in order, without corrections. -/
def runP (add : Fin 4 → EReal) (e : EReal) : EReal := stepP 3 (add 3) (stepP 2 (add 2) (stepP 1 (add 1) (stepP 0 (add 0) e)))
/-- The four points of row tile I in order, the correction at the point (I, I). -/
def runE (I : Fin 4) (add : Fin 4 → EReal) (dia e : EReal) : EReal :=
  stepE I 3 (add 3) dia (stepE I 2 (add 2) dia (stepE I 1 (add 1) dia (stepE I 0 (add 0) dia e)))

/-! ## Sums over 4096 columns as four sums over 1024 -/

/-- The pairs (tile, place in the tile) are the 4096 columns. -/
def tileEquiv : Fin 4 × Fin 1024 ≃ Fin 4096 := finProdFinEquiv.trans (finCongr (by norm_num))

theorem tileEquiv_apply (J : Fin 4) (q : Fin 1024) : tileEquiv (J, q) = row J q := by
  refine Fin.ext ?_
  simp only [tileEquiv, row, Equiv.trans_apply, finProdFinEquiv_apply_val, finCongr_apply, Fin.coe_cast]
  omega

theorem sum_tiles {M : Type*} [AddCommMonoid M] (f : Fin 4096 → M) :
    ∑ j, f j = ∑ J : Fin 4, ∑ q : Fin 1024, f (row J q) := by
  rw [← Equiv.sum_comp tileEquiv f, Fintype.sum_prod_type]
  simp only [tileEquiv_apply]

/-- The coercion of a finite real sum is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The course of an accumulator entry over a row tile -/

/-- Without corrections the entry ends at the sum of the four tile terms, whatever it started from. -/
theorem runP_eq (add : Fin 4 → EReal) (e : EReal) : runP add e = ∑ J : Fin 4, add J := by
  unfold runP stepP
  rw [Fin.sum_univ_four]
  simp

/-- With real tile terms and a real diagonal term the entry ends at the total minus the diagonal term. -/
theorem runE_eq (I : Fin 4) (t : Fin 4 → ℝ) (d : ℝ) (e : EReal) :
    runE I (fun J => ((t J : ℝ) : EReal)) ((d : ℝ) : EReal) e = (((∑ J : Fin 4, t J) - d : ℝ) : EReal) := by
  rw [Fin.sum_univ_four]
  unfold runE stepE stepP
  fin_cases I <;> simp <;> norm_cast <;> ring_nf

end Cert.KerSide

end
-- ==== Proof.KerValueA.lean ====
/-
  The input blocks of a grid point, read off the arrays the region finds.

  The point t of the 4 × 4 grid has row tile I = t / 4 and column tile J = t % 4.  Its rows' blocks (features, ids, targets,
  predictions as columns of 4096) are rows 1024 I + p of their arrays, its columns' blocks (the features again, and ids, targets,
  predictions as rows of 4096) are places 1024 J + q: a block's element sits at block index × block size + its place in the block.
-/
import proofs.«138601_j79577154060421_2_alg».proof.Proof.FI_Frame
import proofs.«138601_j79577154060421_2_alg».proof.Proof.KerRowsA
import Idealize.ShloMosaic.Lib.ValueLayout

noncomputable section

namespace Cert.KerSide

open Idealize.ShloMosaic Idealize.ShloMosaic.ValueIdx Idealize.ShloMosaic.TcCoe Cert.KernelIdeal Cert.KernelIdeal.Gen Cert.FrameI

variable {F : FTy → Type} [FloatOps F] [Named F]
variable (m : (ℓ : Loc nD τ sig) → Buf (Elt F) ℓ) (ρ : Dev nD → PrngReg)

/-- The windows' block indices at every point, decided over the grid. -/
theorem idx_facts : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = 0 ∧ win0_3.index t (1 : Fin 2) = t.val % 4)
    ∧ (win0_4.index t (0 : Fin 2) = t.val / 4 ∧ win0_4.index t (1 : Fin 2) = 0)
    ∧ (win0_5.index t (0 : Fin 2) = 0 ∧ win0_5.index t (1 : Fin 2) = t.val % 4)
    ∧ (win0_6.index t (0 : Fin 2) = t.val / 4 ∧ win0_6.index t (1 : Fin 2) = 0)
    ∧ (win0_7.index t (0 : Fin 2) = 0 ∧ win0_7.index t (1 : Fin 2) = t.val % 4) :=
  (by decide +kernel : ∀ t : Fin grid0.N, _)

/-- The five accumulator windows' block indices at every point. -/
theorem idx_facts_out : ∀ t : Fin cfg0.N,
    (win0_8.index t (0 : Fin 2) = t.val / 4 ∧ win0_8.index t (1 : Fin 2) = 0)
    ∧ (win0_9.index t (0 : Fin 2) = t.val / 4 ∧ win0_9.index t (1 : Fin 2) = 0)
    ∧ (win0_10.index t (0 : Fin 2) = t.val / 4 ∧ win0_10.index t (1 : Fin 2) = 0)
    ∧ (win0_11.index t (0 : Fin 2) = t.val / 4 ∧ win0_11.index t (1 : Fin 2) = 0)
    ∧ (win0_12.index t (0 : Fin 2) = t.val / 4 ∧ win0_12.index t (1 : Fin 2) = 0) :=
  (by decide +kernel : ∀ t : Fin grid0.N, _)

/-- The row tile and the column tile of a point. -/
def tileI (t : Fin cfg0.N) : Fin 4 := ⟨t.val / 4, by have h := t.isLt; have hN : cfg0.N = 16 := N_0; omega⟩
def tileJ (t : Fin cfg0.N) : Fin 4 := ⟨t.val % 4, by omega⟩

theorem iblk0_apply (c : Dev nD) (t : Fin cfg0.N) (p : Fin 1024) (k : Fin 512) :
    (iblk m ρ c 0 t : Vec F S1024x512 .bf16) (ix2 p k) = V m ρ c main_v78 (ix2 (row (tileI t) p) k) := by
  obtain ⟨⟨e0, e1⟩, -⟩ := idx_facts t
  unfold iblk
  rw [View.read_apply]
  show V m ρ c main_v78 _ = V m ρ c main_v78 _
  refine congrArg (V m ρ c main_v78) (funext fun a => Fin.ext ?_)
  match a with
  | ⟨0, _⟩ => show win0_0.index t (0 : Fin 2) * 1024 + 1 * p.val = 1024 * (t.val / 4) + p.val; rw [e0]; omega
  | ⟨1, _⟩ => show win0_0.index t (1 : Fin 2) * 512 + 1 * k.val = k.val; rw [e1]; omega

theorem iblk1_apply (c : Dev nD) (t : Fin cfg0.N) (q : Fin 1024) (k : Fin 512) :
    (iblk m ρ c 1 t : Vec F S1024x512 .bf16) (ix2 q k) = V m ρ c main_v78 (ix2 (row (tileJ t) q) k) := by
  obtain ⟨-, ⟨e0, e1⟩, -⟩ := idx_facts t
  unfold iblk
  rw [View.read_apply]
  show V m ρ c main_v78 _ = V m ρ c main_v78 _
  refine congrArg (V m ρ c main_v78) (funext fun a => Fin.ext ?_)
  match a with
  | ⟨0, _⟩ => show win0_1.index t (0 : Fin 2) * 1024 + 1 * q.val = 1024 * (t.val % 4) + q.val; rw [e0]; omega
  | ⟨1, _⟩ => show win0_1.index t (1 : Fin 2) * 512 + 1 * k.val = k.val; rw [e1]; omega

theorem iblk2_apply (c : Dev nD) (t : Fin cfg0.N) (p : Fin 1024) :
    (iblk m ρ c 2 t : Vec F S1024x1 .i32) (ix2 p (0 : Fin 1)) = V m ρ c main_v79 (ix2 (row (tileI t) p) (0 : Fin 1)) := by
  obtain ⟨-, -, h2, h3, h4, h5, h6, h7⟩ := idx_facts t
  obtain ⟨e0, e1⟩ := h2
  unfold iblk
  rw [View.read_apply]
  show V m ρ c main_v79 _ = V m ρ c main_v79 _
  refine congrArg (V m ρ c main_v79) (funext fun a => Fin.ext ?_)
  match a with
  | ⟨0, _⟩ => show win0_2.index t (0 : Fin 2) * 1024 + 1 * p.val = 1024 * (t.val / 4) + p.val; rw [e0]; omega
  | ⟨1, _⟩ => show win0_2.index t (1 : Fin 2) * 1 + 1 * 0 = 0; rw [e1]

theorem iblk3_apply (c : Dev nD) (t : Fin cfg0.N) (q : Fin 1024) :
    (iblk m ρ c 3 t : Vec F S1x1024 .i32) (ix2 (0 : Fin 1) q) = V m ρ c main_v80 (ix2 (0 : Fin 1) (row (tileJ t) q)) := by
  obtain ⟨-, -, h2, h3, h4, h5, h6, h7⟩ := idx_facts t
  obtain ⟨e0, e1⟩ := h3
  unfold iblk
  rw [View.read_apply]
  show V m ρ c main_v80 _ = V m ρ c main_v80 _
  refine congrArg (V m ρ c main_v80) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = 1024 * (t.val % 4) + q.val; rw [e1]; omega

theorem iblk4_apply (c : Dev nD) (t : Fin cfg0.N) (p : Fin 1024) :
    (iblk m ρ c 4 t : Vec F S1024x1 .f32) (ix2 p (0 : Fin 1)) = V m ρ c main_v81 (ix2 (row (tileI t) p) (0 : Fin 1)) := by
  obtain ⟨-, -, h2, h3, h4, h5, h6, h7⟩ := idx_facts t
  obtain ⟨e0, e1⟩ := h4
  unfold iblk
  rw [View.read_apply]
  show V m ρ c main_v81 _ = V m ρ c main_v81 _
  refine congrArg (V m ρ c main_v81) (funext fun a => Fin.ext ?_)
  match a with
  | ⟨0, _⟩ => show win0_4.index t (0 : Fin 2) * 1024 + 1 * p.val = 1024 * (t.val / 4) + p.val; rw [e0]; omega
  | ⟨1, _⟩ => show win0_4.index t (1 : Fin 2) * 1 + 1 * 0 = 0; rw [e1]

theorem iblk5_apply (c : Dev nD) (t : Fin cfg0.N) (q : Fin 1024) :
    (iblk m ρ c 5 t : Vec F S1x1024 .f32) (ix2 (0 : Fin 1) q) = V m ρ c main_v82 (ix2 (0 : Fin 1) (row (tileJ t) q)) := by
  obtain ⟨-, -, h2, h3, h4, h5, h6, h7⟩ := idx_facts t
  obtain ⟨e0, e1⟩ := h5
  unfold iblk
  rw [View.read_apply]
  show V m ρ c main_v82 _ = V m ρ c main_v82 _
  refine congrArg (V m ρ c main_v82) (funext fun a => Fin.ext ?_)
  match a with
  | ⟨0, _⟩ => show win0_5.index t (0 : Fin 2) * 1 + 1 * 0 = 0; rw [e0]
  | ⟨1, _⟩ => show win0_5.index t (1 : Fin 2) * 1024 + 1 * q.val = 1024 * (t.val % 4) + q.val; rw [e1]; omega

theorem iblk6_apply (c : Dev nD) (t : Fin cfg0.N) (p : Fin 1024) :
    (iblk m ρ c 6 t : Vec F S1024x1 .f32) (ix2 p (0 : Fin 1)) = V m ρ c main_v83 (ix2 (row (tileI t) p) (0 : Fin 1)) := by
  obtain ⟨-, -, h2, h3, h4, h5, h6, h7⟩ := idx_facts t
  obtain ⟨e0, e1⟩ := h6
  unfold iblk
  rw [View.read_apply]
  show V m ρ c main_v83 _ = V m ρ c main_v83 _
  refine congrArg (V m ρ c main_v83) (funext fun a => Fin.ext ?_)
  match a with
  | ⟨0, _⟩ => show win0_6.index t (0 : Fin 2) * 1024 + 1 * p.val = 1024 * (t.val / 4) + p.val; rw [e0]; omega
  | ⟨1, _⟩ => show win0_6.index t (1 : Fin 2) * 1 + 1 * 0 = 0; rw [e1]

theorem iblk7_apply (c : Dev nD) (t : Fin cfg0.N) (q : Fin 1024) :
    (iblk m ρ c 7 t : Vec F S1x1024 .f32) (ix2 (0 : Fin 1) q) = V m ρ c main_v84 (ix2 (0 : Fin 1) (row (tileJ t) q)) := by
  obtain ⟨-, -, h2, h3, h4, h5, h6, h7⟩ := idx_facts t
  obtain ⟨e0, e1⟩ := h7
  unfold iblk
  rw [View.read_apply]
  show V m ρ c main_v84 _ = V m ρ c main_v84 _
  refine congrArg (V m ρ c main_v84) (funext fun a => Fin.ext ?_)
  match a with
  | ⟨0, _⟩ => show win0_7.index t (0 : Fin 2) * 1 + 1 * 0 = 0; rw [e0]
  | ⟨1, _⟩ => show win0_7.index t (1 : Fin 2) * 1024 + 1 * q.val = 1024 * (t.val % 4) + q.val; rw [e1]; omega

end Cert.KerSide

end
-- ==== Proof.FI_Pieces.lean ====
/-
  What a run of the body leaves in each of the five accumulator blocks, as the step functions of the point's input blocks.

  The body stores whole 1024 × 1 blocks.  At a point that carries the accumulators it reads each block, adds the row sums
  of the point's tile and stores the block once; at a point that resets them it first stores zeros and reads those back; on
  a diagonal tile it then reads the first three blocks once more and stores them with the diagonal pair's term taken off.
  The last store of a block covers it, so what the block ends holding is that store's value, each earlier store read back
  through the later one's load: the composition of the step functions in the order the body applies them.
-/
import proofs.«138601_j79577154060421_2_alg».proof.Proof.FI_Frame
import proofs.«138601_j79577154060421_2_alg».proof.Proof.KerStep
import Idealize.ShloMosaic.Lib.Pipeline.Value

set_option maxRecDepth 16384

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KerStep

variable {F : FTy → Type} [FloatOps F] [Named F]

local notation "𝕄" => MT nD τ sig Unit (Elt F) ℕ (UR sig nD τ) ℕ

theorem hz00 : (![0, 0] : Fin 2 → Nat) = fun _ => 0 := funext fun a => by fin_cases a <;> rfl

theorem out_D_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_D_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd0 x0 x1 xo0 := by
  unfold out_D_0
  rw [View.read_writes_eq_canon _ _ _ (cover_D_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_D
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_D_1_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_D_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd1 x0 x1 x2 x3 xo1 := by
  unfold out_D_1
  rw [View.read_writes_eq_canon _ _ _ (cover_D_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_D
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_D_2_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_D_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd2 x2 x3 xo2 := by
  unfold out_D_2
  rw [View.read_writes_eq_canon _ _ _ (cover_D_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_D
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_D_3_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_D_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd3 x2 x3 x4 x5 x6 x7 xo3 := by
  unfold out_D_3
  rw [View.read_writes_eq_canon _ _ _ (cover_D_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_D
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_D_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_D_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd4 x2 x3 x4 x5 xo4 := by
  unfold out_D_4
  rw [View.read_writes_eq_canon _ _ _ (cover_D_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_D
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_B_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_B_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd0 x0 x1 zero := by
  unfold out_B_0
  rw [View.read_writes_eq_canon _ _ _ (cover_B_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_B
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_B_1_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_B_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd1 x0 x1 x2 x3 zero := by
  unfold out_B_1
  rw [View.read_writes_eq_canon _ _ _ (cover_B_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_B
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_B_2_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_B_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd2 x2 x3 zero := by
  unfold out_B_2
  rw [View.read_writes_eq_canon _ _ _ (cover_B_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_B
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_B_3_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_B_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd3 x2 x3 x4 x5 x6 x7 zero := by
  unfold out_B_3
  rw [View.read_writes_eq_canon _ _ _ (cover_B_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_B
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_B_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : ¬cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_B_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd4 x2 x3 x4 x5 zero := by
  unfold out_B_4
  rw [View.read_writes_eq_canon _ _ _ (cover_B_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_B
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_C_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_C_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = dia0 x0 x1 (upd0 x0 x1 xo0) := by
  unfold out_C_0
  rw [View.read_writes_eq_canon _ _ _ (cover_C_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_C
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_C_1_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_C_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = dia1 x0 x1 (upd1 x0 x1 x2 x3 xo1) := by
  unfold out_C_1
  rw [View.read_writes_eq_canon _ _ _ (cover_C_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_C
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_C_2_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_C_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = dia2 (upd2 x2 x3 xo2) := by
  unfold out_C_2
  rw [View.read_writes_eq_canon _ _ _ (cover_C_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_C
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_C_3_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_C_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd3 x2 x3 x4 x5 x6 x7 xo3 := by
  unfold out_C_3
  rw [View.read_writes_eq_canon _ _ _ (cover_C_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_C
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_C_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : ¬cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) (xo0 : Vec F S1024x1 .f32) (xo1 : Vec F S1024x1 .f32) (xo2 : Vec F S1024x1 .f32) (xo3 : Vec F S1024x1 .f32) (xo4 : Vec F S1024x1 .f32) :
    out_C_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4 = upd4 x2 x3 x4 x5 xo4 := by
  unfold out_C_4
  rw [View.read_writes_eq_canon _ _ _ (cover_C_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 xo0 xo1 xo2 xo3 xo4)]
  unfold kernelRun_C
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_A_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_A_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = dia0 x0 x1 (upd0 x0 x1 zero) := by
  unfold out_A_0
  rw [View.read_writes_eq_canon _ _ _ (cover_A_0 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_A
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_A_1_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_A_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = dia1 x0 x1 (upd1 x0 x1 x2 x3 zero) := by
  unfold out_A_1
  rw [View.read_writes_eq_canon _ _ _ (cover_A_1 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_A
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_A_2_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_A_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = dia2 (upd2 x2 x3 zero) := by
  unfold out_A_2
  rw [View.read_writes_eq_canon _ _ _ (cover_A_2 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_A
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_A_3_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_A_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd3 x2 x3 x4 x5 x6 x7 zero := by
  unfold out_A_3
  rw [View.read_writes_eq_canon _ _ _ (cover_A_3 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_A
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

theorem out_A_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc1 : cond1 i) (hc2 : cond2 i) (x0 : Vec F S1024x512 .bf16) (x1 : Vec F S1024x512 .bf16) (x2 : Vec F S1024x1 .i32) (x3 : Vec F S1x1024 .i32) (x4 : Vec F S1024x1 .f32) (x5 : Vec F S1x1024 .f32) (x6 : Vec F S1024x1 .f32) (x7 : Vec F S1x1024 .f32) :
    out_A_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7 = upd4 x2 x3 x4 x5 zero := by
  unfold out_A_4
  rw [View.read_writes_eq_canon _ _ _ (cover_A_4 c i arg2 harg2 arg3 harg3 arg4 harg4 arg5 harg5 arg6 harg6 arg7 harg7 arg8 harg8 arg9 harg9 arg10 harg10 arg11 harg11 arg12 harg12 arg13 harg13 arg14 harg14 hc1 hc2 x0 x1 x2 x3 x4 x5 x6 x7)]
  unfold kernelRun_A
  dsimp only
  sl_unfold_words
  rw [View.canon_cons_unit_zero (S := S1024x1) hz00]
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz00, View.ld_unit_zero (S := S1024x512) hz00, View.ld_unit_zero (S := S1x1024) hz00]
  rfl

end Cert.FrameI

end
-- ==== Proof.KerEntryA.lean ====
/-
  Reading one element of the tile operations the pair kernel is made of: the keep-dimensions re-shaping of a column of 1024 row sums,
  a column spread over the 1024 columns of a tile, a row sum of a tile, and the tile's identity mask.
-/
import Idealize.ShloMosaic.Lib.ValueLayout
import Idealize.ShloMosaic.PureOps.Ideal.Laws

noncomputable section

namespace Cert.KerSide

open Idealize.ShloMosaic Idealize.ShloMosaic.ValueIdx

variable {α : Type}

/-- A vector of 1024 entries viewed as a 1024 × 1 column reads, at (p, u), the vector at p. -/
theorem colCast_apply (x : (⟨1, ![1024]⟩ : Shape).Idx → α) (h : (⟨1, ![1024]⟩ : Shape).ShapeCasts ⟨2, ![1024, 1]⟩)
    (p : Fin 1024) (u : Fin 1) : shapeCast ⟨2, ![1024, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 1024 × 1 column spread over 1024 columns reads, at (p, q), the column at p. -/
theorem colBcast_apply (v : (⟨2, ![1024, 1]⟩ : Shape).Idx → α) (h : (⟨2, ![1024, 1]⟩ : Shape).Broadcasts ⟨2, ![1024, 1024]⟩)
    (p q : Fin 1024) : broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A 1 × 1024 row spread over 1024 rows reads, at (p, q), the row at q. -/
theorem rowBcast_apply (v : (⟨2, ![1, 1024]⟩ : Shape).Idx → α) (h : (⟨2, ![1, 1024]⟩ : Shape).Broadcasts ⟨2, ![1024, 1024]⟩)
    (p q : Fin 1024) : broadcastTo ⟨2, ![1024, 1024]⟩ v h (ix2 p q) = v (ix2 (0 : Fin 1) q) :=
  broadcastTo_1b_ab_apply v h p q

/-- The sum of a 1024 × 1024 tile along its rows, started from the zero word, reads at p the sum over q of the tile at (p, q). -/
theorem rowSum_apply (v : FVec Ideal ⟨2, ![1024, 1024]⟩ .f32) (h : (⟨2, ![1024, 1024]⟩ : Shape).Reduces [1] ⟨1, ![1024]⟩)
    (hφ : FKind.Formats .f32) (hacc : (0x00000000#32 : BitVec 32) = 0x00000000#32) (p : Fin 1024) :
    multiReduction .add [1] ⟨1, ![1024]⟩ v 0x00000000#32 h hφ hacc (ix1 p) = ∑ q : Fin 1024, v (ix2 p q) := by
  refine (Ideal.multiReduction_add_single v 0x00000000#32 h hφ hacc (ix1 p)).trans ?_
  refine Finset.sum_congr rfl fun q _ => congrArg v (funext fun a => Fin.ext ?_)
  match a with
  | ⟨0, _⟩ => rfl
  | ⟨1, _⟩ => rfl

end Cert.KerSide

end
-- ==== Proof.KerEntryB.lean ====
/-
  The elementwise pieces of one 1024 × 1024 tile of pairs, each read at the pair (p, q): the identity mask, the equal-id mask,
  the "target above by more than the tolerance" mask, and the logit, a product of two rows of the feature blocks times the scale.
-/
import proofs.«138601_j79577154060421_2_alg».proof.Proof.Gen.KernelIdeal.Skeleton
import proofs.«138601_j79577154060421_2_alg».proof.Proof.KerEntryA
import proofs.«138601_j79577154060421_2_alg».proof.Proof.Spec

noncomputable section

namespace Cert.KerSide

open Idealize.ShloMosaic Idealize.ShloMosaic.ValueIdx Cert.KernelIdeal Cert.KernelIdeal.Gen

/-! ## Words -/

/-- The equality test of two 32-bit words, as a bit. -/
theorem cmpiEq (x y : BitVec 32) : IntOp.cmpi .eq x y = if x = y then 1#1 else 0#1 := by
  unfold IntOp.cmpi
  by_cases h : x = y
  · subst h; simp
  · have e : (x == y) = false := beq_eq_false_iff_ne.mpr h
    rw [if_neg h]; simp [e]

/-- The "greater than" test of two extended reals, as a bit. -/
theorem cmpOgt (a b : EReal) : FloatOps.cmpf (F := Ideal) (φ := .f32) .ogt a b = if b < a then 1#1 else 0#1 := by
  show Ideal.cmp .ogt a b = _
  unfold Ideal.cmp
  by_cases h : b < a <;> simp [h]

/-- A bit widened to 32 bits and converted to a float is 1 or 0. -/
theorem bitF_ite (c : Prop) [Decidable c] :
    FloatOps.sitofp (F := Ideal) .f32 ((if c then 1#1 else 0#1 : BitVec 1).setWidth 32) = if c then (1 : EReal) else 0 := by
  by_cases h : c
  · rw [if_pos h, if_pos h]
    show (((BitVec.setWidth 32 1#1).toInt : ℝ) : EReal) = 1
    have e : (BitVec.setWidth 32 1#1).toInt = 1 := by decide
    rw [e]; simp
  · rw [if_neg h, if_neg h]
    show (((BitVec.setWidth 32 0#1).toInt : ℝ) : EReal) = 0
    have e : (BitVec.setWidth 32 0#1).toInt = 0 := by decide
    rw [e]; simp

/-- Two row numbers below 1024 are the same 32-bit word only when equal. -/
theorem ofNat_eq_iff (p q : Fin 1024) : BitVec.ofNat 32 p.val = BitVec.ofNat 32 q.val ↔ p = q := by
  constructor
  · intro e
    have h := congrArg BitVec.toNat e
    simp only [BitVec.toNat_ofNat] at h
    have := p.isLt; have := q.isLt
    exact Fin.ext (by omega)
  · rintro rfl; rfl

/-! ## The masks at a pair -/

/-- The identity mask of a tile: 1 on the diagonal, 0 off it. -/
theorem eye_apply (p q : Fin 1024) : k0_pay2 (F := Ideal) (ix2 p q) = if p = q then 1 else 0 := by
  unfold k0_pay2
  rw [sitofp_apply, extui_apply]
  show FloatOps.sitofp (F := Ideal) .f32 ((IntOp.cmpi .eq (iota .tc S1024x1024 32 [0] iota_S1024x1024_d0_w32 (ix2 p q))
    (iota .tc S1024x1024 32 [1] iota_S1024x1024_d1_w32 (ix2 p q))).setWidth 32) = _
  rw [iota_single_apply, iota_single_apply, cmpiEq]
  show FloatOps.sitofp (F := Ideal) .f32 ((if BitVec.ofNat 32 p.val = BitVec.ofNat 32 q.val then 1#1 else 0#1 : BitVec 1).setWidth 32) = _
  rw [bitF_ite]
  exact if_congr (ofNat_eq_iff p q) rfl rfl

/-- 1 when the row's id and the column's id are the same word. -/
def smB (r : Vec Ideal S1024x1 .i32) (c : Vec Ideal S1x1024 .i32) (p q : Fin 1024) : EReal :=
  if r (ix2 p (0 : Fin 1)) = c (ix2 (0 : Fin 1) q) then 1 else 0

theorem same_apply (r : Vec Ideal S1024x1 .i32) (c : Vec Ideal S1x1024 .i32) (p q : Fin 1024) :
    k0_pay12 (F := Ideal) r c (ix2 p q) = smB r c p q := by
  unfold k0_pay12 smB
  rw [sitofp_apply, extui_apply]
  show FloatOps.sitofp (F := Ideal) .f32 ((IntOp.cmpi .eq
    (broadcastTo S1024x1024 (shapeCast S1024x1 r shapeCasts_S1024x1_S1024x1) broadcasts_S1024x1_S1024x1024 (ix2 p q))
    (broadcastTo S1024x1024 (shapeCast S1x1024 c shapeCasts_S1x1024_S1x1024) broadcasts_S1x1024_S1024x1024 (ix2 p q))).setWidth 32) = _
  rw [shapeCast_self, shapeCast_self, colBcast_apply, rowBcast_apply, cmpiEq, bitF_ite]

/-- 1 when the row's target is above the column's by more than the tolerance. -/
def gtB (gr : Vec Ideal S1024x1 .f32) (gc : Vec Ideal S1x1024 .f32) (p q : Fin 1024) : EReal :=
  if gc (ix2 (0 : Fin 1) q) + Cert.Spec.wEps6 < gr (ix2 p (0 : Fin 1)) then 1 else 0

theorem greater_apply (gr : Vec Ideal S1024x1 .f32) (gc : Vec Ideal S1x1024 .f32) (p q : Fin 1024) :
    k0_pay17 (F := Ideal) gr gc (ix2 p q) = gtB gr gc p q := by
  unfold k0_pay17 gtB
  rw [sitofp_apply, extui_apply, cmpf_apply, shapeCast_self, shapeCast_self, colBcast_apply, rowBcast_apply, addf_apply,
    broadcast_apply, cmpOgt, bitF_ite]
  rfl

end Cert.KerSide

end
-- ==== Proof.KerEntryC.lean ====
/-
  The logit of one pair of a tile: the two feature rows' product summed over the 512 features (the tile product contracts the
  second axis of both blocks), times the scale.
-/
import proofs.«138601_j79577154060421_2_alg».proof.Proof.Gen.KernelIdeal.Skeleton
import proofs.«138601_j79577154060421_2_alg».proof.Proof.Spec
import Idealize.ShloMosaic.Lib.ValueLayout
import Idealize.ShloMosaic.PureOps.Ideal.Laws

noncomputable section

namespace Cert.KerSide

open Idealize.ShloMosaic Idealize.ShloMosaic.ValueIdx Cert.KernelIdeal Cert.KernelIdeal.Gen

/-- The tile product's dimension numbers. -/
abbrev dotT : DotDims S1024x512 S1024x512 S1024x1024 := dot_S1024x512_S1024x512_S1024x1024_1_1_0_0_n_n

theorem dotT_lhs0 (i : S1024x1024.Idx) (k : dotT.contr.Idx) : (dotT.lhsIdx i k 0).val = (i 0).val := by
  unfold DotDims.lhsIdx
  rw [dif_neg (show ¬(0 : Fin S1024x512.rank) ∈ dotT.lhsBatch by decide),
    dif_pos (show (0 : Fin S1024x512.rank) ∈ dotT.lhsNonContracting by decide)]
  rfl
theorem dotT_lhs1 (i : S1024x1024.Idx) (k : dotT.contr.Idx) : (dotT.lhsIdx i k 1).val = (k ⟨0, by decide⟩).val :=
  dotT.lhsIdx_val_of_single rfl i k
theorem dotT_rhs0 (i : S1024x1024.Idx) (k : dotT.contr.Idx) : (dotT.rhsIdx i k 0).val = (i 1).val := by
  unfold DotDims.rhsIdx
  rw [dif_neg (show ¬(0 : Fin S1024x512.rank) ∈ dotT.rhsBatch by decide),
    dif_pos (show (0 : Fin S1024x512.rank) ∈ dotT.rhsNonContracting by decide)]
  rfl
theorem dotT_rhs1 (i : S1024x1024.Idx) (k : dotT.contr.Idx) : (dotT.rhsIdx i k 1).val = (k ⟨0, by decide⟩).val :=
  dotT.rhsIdx_val_of_single rfl i k

/-- The tile product at the pair (p, q): row p of the first block against row q of the second. -/
theorem tileDot_apply (A B : FVec Ideal S1024x512 .bf16) (p q : Fin 1024) :
    matmul dotT none A B (constant (F := Ideal) S1024x1024 .f32 0x00000000#32) (ix2 p q)
      = ∑ k : Fin 512, A (ix2 p k) * B (ix2 q k) := by
  simp only [matmul]
  rw [Ideal.matmul_constant_zero_apply, ← Equiv.sum_comp (contrEquiv1 dotT 512 rfl rfl).symm]
  refine Finset.sum_congr rfl fun k _ => ?_
  have hk := contrEquiv1_symm_val dotT 512 rfl rfl k
  have el : dotT.lhsIdx (ix2 p q) ((contrEquiv1 dotT 512 rfl rfl).symm k) = ix2 p k := funext fun a => Fin.ext (by
    match a with
    | ⟨0, _⟩ => exact dotT_lhs0 _ _
    | ⟨1, _⟩ => exact (dotT_lhs1 _ _).trans hk)
  have er : dotT.rhsIdx (ix2 p q) ((contrEquiv1 dotT 512 rfl rfl).symm k) = ix2 q k := funext fun a => Fin.ext (by
    match a with
    | ⟨0, _⟩ => exact dotT_rhs0 _ _
    | ⟨1, _⟩ => exact (dotT_rhs1 _ _).trans hk)
  rw [el, er]

/-- The logit of the pair (p, q) of a tile, from the two feature blocks. -/
def lgt (A B : Vec Ideal S1024x512 .bf16) (p q : Fin 1024) : EReal :=
  (∑ k : Fin 512, A (ix2 p k) * B (ix2 q k)) * ((Cert.Spec.cK : ℝ) : EReal)

theorem logit_apply
    (hc : Named.named (F := Ideal) Cert.KernelIdeal.κ "inv_temp" (φ := .f32) 0x41200000#32 = ((Cert.Spec.cK : ℝ) : EReal))
    (A B : Vec Ideal S1024x512 .bf16) (p q : Fin 1024) : k0_pay11 (F := Ideal) A B (ix2 p q) = lgt A B p q := by
  unfold k0_pay11 lgt
  rw [mulf_apply, broadcast_apply, hc, shapeCast_self, shapeCast_self]
  exact congrArg (· * ((Cert.Spec.cK : ℝ) : EReal)) (tileDot_apply A B p q)

/-- The exponential of the logit. -/
theorem expLogit_apply
    (hc : Named.named (F := Ideal) Cert.KernelIdeal.κ "inv_temp" (φ := .f32) 0x41200000#32 = ((Cert.Spec.cK : ℝ) : EReal))
    (A B : Vec Ideal S1024x512 .bf16) (p q : Fin 1024) : k0_pay13 (F := Ideal) A B (ix2 p q) = Ideal.exp (lgt A B p q) := by
  unfold k0_pay13
  show FloatOps.exp (F := Ideal) (k0_pay11 (F := Ideal) A B (ix2 p q)) = _
  rw [logit_apply hc]
  rfl

end Cert.KerSide

end
-- ==== Proof.KerEntryD.lean ====
/-
  What one grid point writes into each of the five accumulator columns, read at row p of the tile: the accumulator's entry plus the
  sum over the tile's 1024 columns of the pair term, and on a diagonal tile the entry minus the diagonal pair's term.
-/
import proofs.«138601_j79577154060421_2_alg».proof.Proof.KerStep
import proofs.«138601_j79577154060421_2_alg».proof.Proof.KerEntryB
import proofs.«138601_j79577154060421_2_alg».proof.Proof.KerEntryC

noncomputable section

namespace Cert.KerSide

open Idealize.ShloMosaic Idealize.ShloMosaic.ValueIdx Cert.KernelIdeal Cert.KernelIdeal.Gen

/-! ## The stores' payloads over an arbitrary tile -/

theorem addRows19 (v : FVec Ideal S1024x1024 .f32) (a : Vec Ideal S1024x1 .f32) (p : Fin 1024) :
    k0_pay19 (F := Ideal) v a (ix2 p (0 : Fin 1)) = a (ix2 p (0 : Fin 1)) + ∑ q : Fin 1024, v (ix2 p q) := by
  unfold k0_pay19
  rw [addf_apply, shapeCast_self, colCast_apply, rowSum_apply]

theorem addRows20 (v : FVec Ideal S1024x1024 .f32) (a : Vec Ideal S1024x1 .f32) (p : Fin 1024) :
    k0_pay20 (F := Ideal) v a (ix2 p (0 : Fin 1)) = a (ix2 p (0 : Fin 1)) + ∑ q : Fin 1024, v (ix2 p q) := by
  unfold k0_pay20
  rw [addf_apply, shapeCast_self, colCast_apply, rowSum_apply]

theorem addRows21 (v : FVec Ideal S1024x1024 .f32) (a : Vec Ideal S1024x1 .f32) (p : Fin 1024) :
    k0_pay21 (F := Ideal) v a (ix2 p (0 : Fin 1)) = a (ix2 p (0 : Fin 1)) + ∑ q : Fin 1024, v (ix2 p q) := by
  unfold k0_pay21
  rw [addf_apply, shapeCast_self, colCast_apply, rowSum_apply]

theorem addRows1 (v : FVec Ideal S1024x1024 .f32) (a : Vec Ideal S1024x1 .f32) (p : Fin 1024) :
    k0_pay1 (F := Ideal) v a (ix2 p (0 : Fin 1)) = a (ix2 p (0 : Fin 1)) + ∑ q : Fin 1024, v (ix2 p q) := by
  unfold k0_pay1
  rw [addf_apply, shapeCast_self, colCast_apply, rowSum_apply]

/-- The hinge of the pair (p, q): the margin minus the difference of the two predictions, cut at 0. -/
def hgB (pr : Vec Ideal S1024x1 .f32) (pc : Vec Ideal S1x1024 .f32) (p q : Fin 1024) : EReal :=
  max (Cert.Spec.wMargin - (pr (ix2 p (0 : Fin 1)) - pc (ix2 (0 : Fin 1) q))) 0

theorem addRows22 (s g : FVec Ideal S1024x1024 .f32) (pr : FVec Ideal S1024x1 .f32) (pc : FVec Ideal S1x1024 .f32)
    (a : Vec Ideal S1024x1 .f32) (p : Fin 1024) :
    k0_pay22 (F := Ideal) s pr pc g a (ix2 p (0 : Fin 1))
      = a (ix2 p (0 : Fin 1)) + ∑ q : Fin 1024, hgB pr pc p q * (s (ix2 p q) * g (ix2 p q)) := by
  unfold k0_pay22 k0_pay18
  rw [addf_apply, shapeCast_self, colCast_apply, rowSum_apply]
  refine congrArg (a (ix2 p (0 : Fin 1)) + ·) (Finset.sum_congr rfl fun q _ => ?_)
  rw [mulf_apply, maximumf_apply, subf_apply, subf_apply, broadcast_apply, broadcast_apply, colBcast_apply, rowBcast_apply,
    mulf_apply]
  show max (Ideal.ofBits .f32 0x3DCCCCCD#32 - _) (Ideal.ofBits .f32 0x00000000#32) * _ = _
  rw [Ideal.ofBits_zero_f32]
  rfl

/-- The identity mask picks one term of a row's sum. -/
theorem eye_sum (f : Fin 1024 → EReal) (p : Fin 1024) : ∑ q : Fin 1024, (if p = q then (1 : EReal) else 0) * f q = f p := by
  rw [Finset.sum_eq_single p]
  · rw [if_pos rfl, one_mul]
  · intro q _ h; rw [if_neg (Ne.symm h), zero_mul]
  · intro h; exact absurd (Finset.mem_univ p) h

theorem subDiag3 (v : FVec Ideal S1024x1024 .f32) (a : Vec Ideal S1024x1 .f32) (p : Fin 1024) :
    k0_pay3 (F := Ideal) v a (ix2 p (0 : Fin 1)) = a (ix2 p (0 : Fin 1)) - v (ix2 p p) := by
  unfold k0_pay3
  rw [subf_apply, shapeCast_self, colCast_apply, rowSum_apply]
  refine congrArg (a (ix2 p (0 : Fin 1)) - ·) ?_
  simp only [mulf_apply, eye_apply]
  exact eye_sum (fun q => v (ix2 p q)) p

theorem subDiag4 (v : FVec Ideal S1024x1024 .f32) (a : Vec Ideal S1024x1 .f32) (p : Fin 1024) :
    k0_pay4 (F := Ideal) v a (ix2 p (0 : Fin 1)) = a (ix2 p (0 : Fin 1)) - v (ix2 p p) := by
  unfold k0_pay4
  rw [subf_apply, shapeCast_self, colCast_apply, rowSum_apply]
  refine congrArg (a (ix2 p (0 : Fin 1)) - ·) ?_
  simp only [mulf_apply, eye_apply]
  exact eye_sum (fun q => v (ix2 p q)) p

theorem subDiag5 (a : Vec Ideal S1024x1 .f32) (p : Fin 1024) :
    k0_pay5 (F := Ideal) a (ix2 p (0 : Fin 1)) = a (ix2 p (0 : Fin 1)) - 1 := by
  unfold k0_pay5
  rw [subf_apply, shapeCast_self, colCast_apply, rowSum_apply]
  refine congrArg (a (ix2 p (0 : Fin 1)) - ·) ?_
  simp only [eye_apply]
  rw [Finset.sum_ite_eq Finset.univ p (fun _ => (1 : EReal)), if_pos (Finset.mem_univ p)]

/-! ## The grid point's updates at row p -/

section Point

variable (hc : Named.named (F := Ideal) Cert.KernelIdeal.κ "inv_temp" (φ := .f32) 0x41200000#32 = ((Cert.Spec.cK : ℝ) : EReal))
variable (A B : Vec Ideal S1024x512 .bf16) (r : Vec Ideal S1024x1 .i32) (c : Vec Ideal S1x1024 .i32)
  (gr pr : Vec Ideal S1024x1 .f32) (gc pc : Vec Ideal S1x1024 .f32) (a : Vec Ideal S1024x1 .f32) (p : Fin 1024)

theorem zero_apply : Cert.KerStep.zero (F := Ideal) (ix2 p (0 : Fin 1)) = 0 := by
  unfold Cert.KerStep.zero k0_pay6
  rw [broadcast_apply]
  exact Ideal.ofBits_zero_f32

include hc in
theorem upd0_apply : Cert.KerStep.upd0 (F := Ideal) A B a (ix2 p (0 : Fin 1))
    = a (ix2 p (0 : Fin 1)) + ∑ q : Fin 1024, Ideal.exp (lgt A B p q) := by
  unfold Cert.KerStep.upd0
  rw [addRows19]
  simp only [expLogit_apply hc]

include hc in
theorem upd1_apply : Cert.KerStep.upd1 (F := Ideal) A B r c a (ix2 p (0 : Fin 1))
    = a (ix2 p (0 : Fin 1)) + ∑ q : Fin 1024, smB r c p q * lgt A B p q := by
  unfold Cert.KerStep.upd1
  rw [addRows20]
  refine congrArg (a (ix2 p (0 : Fin 1)) + ·) (Finset.sum_congr rfl fun q _ => ?_)
  unfold k0_pay14
  rw [mulf_apply, same_apply, logit_apply hc]

theorem upd2_apply : Cert.KerStep.upd2 (F := Ideal) r c a (ix2 p (0 : Fin 1))
    = a (ix2 p (0 : Fin 1)) + ∑ q : Fin 1024, smB r c p q := by
  unfold Cert.KerStep.upd2
  rw [addRows21]
  simp only [same_apply]

theorem upd3_apply : Cert.KerStep.upd3 (F := Ideal) r c gr gc pr pc a (ix2 p (0 : Fin 1))
    = a (ix2 p (0 : Fin 1)) + ∑ q : Fin 1024, hgB pr pc p q * (smB r c p q * gtB gr gc p q) := by
  unfold Cert.KerStep.upd3
  rw [addRows22]
  refine congrArg (a (ix2 p (0 : Fin 1)) + ·) (Finset.sum_congr rfl fun q _ => ?_)
  rw [same_apply, greater_apply]
  unfold k0_pay15 k0_pay16
  rw [shapeCast_self, shapeCast_self]

theorem upd4_apply : Cert.KerStep.upd4 (F := Ideal) r c gr gc a (ix2 p (0 : Fin 1))
    = a (ix2 p (0 : Fin 1)) + ∑ q : Fin 1024, smB r c p q * gtB gr gc p q := by
  unfold Cert.KerStep.upd4
  rw [addRows1]
  refine congrArg (a (ix2 p (0 : Fin 1)) + ·) (Finset.sum_congr rfl fun q _ => ?_)
  unfold k0_pay18
  rw [mulf_apply, same_apply, greater_apply]

include hc in
theorem dia0_apply : Cert.KerStep.dia0 (F := Ideal) A B a (ix2 p (0 : Fin 1))
    = a (ix2 p (0 : Fin 1)) - Ideal.exp (lgt A B p p) := by
  unfold Cert.KerStep.dia0
  rw [subDiag3, expLogit_apply hc]

include hc in
theorem dia1_apply : Cert.KerStep.dia1 (F := Ideal) A B a (ix2 p (0 : Fin 1))
    = a (ix2 p (0 : Fin 1)) - lgt A B p p := by
  unfold Cert.KerStep.dia1
  rw [subDiag4, logit_apply hc]

theorem dia2_apply : Cert.KerStep.dia2 (F := Ideal) a (ix2 p (0 : Fin 1)) = a (ix2 p (0 : Fin 1)) - 1 := by
  unfold Cert.KerStep.dia2
  exact subDiag5 a p

end Point

end Cert.KerSide

end
-- ==== Proof.KerRows.lean ====
/-
  The tile terms of a grid point whose blocks are blocks of whole arrays, and the entries the five accumulators end at.

  When the rows' blocks hold rows 1024 I + p and the columns' blocks hold columns 1024 J + q of the normalised features, the ids, the
  targets and the predictions, the pair terms of the tile are the terms of the whole 4096 × 4096 pair matrix at those rows and
  columns; their row sums over the tile are the partial sums t0 … t4 below, and the four column tiles together give the whole row.
-/
import proofs.«138601_j79577154060421_2_alg».proof.Proof.KerEntryD
import proofs.«138601_j79577154060421_2_alg».proof.Proof.KerRowsA

noncomputable section

namespace Cert.KerSide

open Idealize.ShloMosaic Idealize.ShloMosaic.ValueIdx Cert.KernelIdeal Cert.Spec

section Whole

variable (x : Fin 4096 → Fin 512 → ℝ) (id : Fin 4096 → BitVec 32) (g pv : Fin 4096 → EReal)

/-- Row i's five sums over the columns of column tile J. -/
def t0 (i : Fin 4096) (J : Fin 4) : ℝ := ∑ q : Fin 1024, Real.exp (lg x i (row J q))
def t1 (i : Fin 4096) (J : Fin 4) : ℝ := ∑ q : Fin 1024, sm id i (row J q) * lg x i (row J q)
def t2 (i : Fin 4096) (J : Fin 4) : ℝ := ∑ q : Fin 1024, sm id i (row J q)
def t3 (i : Fin 4096) (J : Fin 4) : EReal := ∑ q : Fin 1024, hinge pv i (row J q) * mk id g i (row J q)
def t4 (i : Fin 4096) (J : Fin 4) : EReal := ∑ q : Fin 1024, mk id g i (row J q)

/-! ## The four column tiles together -/

theorem se_run (I : Fin 4) (i : Fin 4096) (e : EReal) :
    runE I (fun J => ((t0 x i J : ℝ) : EReal)) ((Real.exp (lg x i i) : ℝ) : EReal) e = ((se x i : ℝ) : EReal) := by
  rw [runE_eq]; unfold se t0; rw [sum_tiles]

theorem sp_run (I : Fin 4) (i : Fin 4096) (e : EReal) :
    runE I (fun J => ((t1 x id i J : ℝ) : EReal)) ((lg x i i : ℝ) : EReal) e = ((sp x id i : ℝ) : EReal) := by
  rw [runE_eq]; unfold sp t1; rw [sum_tiles]

theorem pc_run (I : Fin 4) (i : Fin 4096) (e : EReal) :
    runE I (fun J => ((t2 id i J : ℝ) : EReal)) 1 e = ((pc id i : ℝ) : EReal) := by
  rw [← EReal.coe_one, runE_eq]; unfold pc t2; rw [sum_tiles]

theorem rl_run (i : Fin 4096) (e : EReal) :
    runP (fun J => t3 id g pv i J) e = ∑ j, hinge pv i j * mk id g i j := by
  rw [runP_eq]; unfold t3; rw [sum_tiles]

theorem rc_run (i : Fin 4096) (e : EReal) : runP (fun J => t4 id g i J) e = ∑ j, mk id g i j := by
  rw [runP_eq]; unfold t4; rw [sum_tiles]

/-! ## One tile's terms from the blocks of the whole arrays -/

variable (I J : Fin 4)
variable (A B : Vec Ideal S1024x512 .bf16) (r : Vec Ideal S1024x1 .i32) (c : Vec Ideal S1x1024 .i32)
  (gr pr : Vec Ideal S1024x1 .f32) (gc pc : Vec Ideal S1x1024 .f32)

theorem lgt_eq (hA : ∀ p k, A (ix2 p k) = ((fr x (row I p) k : ℝ) : EReal))
    (hB : ∀ q k, B (ix2 q k) = ((fr x (row J q) k : ℝ) : EReal)) (p q : Fin 1024) :
    lgt A B p q = ((lg x (row I p) (row J q) : ℝ) : EReal) := by
  unfold lgt lg
  rw [EReal.coe_mul, coe_sum]
  simp only [EReal.coe_mul, hA, hB]

theorem tile0_eq (hA : ∀ p k, A (ix2 p k) = ((fr x (row I p) k : ℝ) : EReal))
    (hB : ∀ q k, B (ix2 q k) = ((fr x (row J q) k : ℝ) : EReal)) (p : Fin 1024) :
    ∑ q : Fin 1024, Ideal.exp (lgt A B p q) = ((t0 x (row I p) J : ℝ) : EReal) := by
  unfold t0
  rw [coe_sum]
  exact Finset.sum_congr rfl fun q _ => by rw [lgt_eq x I J A B hA hB]; rfl

theorem smB_eq (hr : ∀ p, r (ix2 p (0 : Fin 1)) = id (row I p)) (hcc : ∀ q, c (ix2 (0 : Fin 1) q) = id (row J q))
    (p q : Fin 1024) : smB r c p q = ((sm id (row I p) (row J q) : ℝ) : EReal) := by
  unfold smB sm
  rw [hr, hcc]
  by_cases h : id (row I p) = id (row J q)
  · rw [if_pos h, if_pos h, EReal.coe_one]
  · rw [if_neg h, if_neg h, EReal.coe_zero]

theorem tile1_eq (hA : ∀ p k, A (ix2 p k) = ((fr x (row I p) k : ℝ) : EReal))
    (hB : ∀ q k, B (ix2 q k) = ((fr x (row J q) k : ℝ) : EReal))
    (hr : ∀ p, r (ix2 p (0 : Fin 1)) = id (row I p)) (hcc : ∀ q, c (ix2 (0 : Fin 1) q) = id (row J q)) (p : Fin 1024) :
    ∑ q : Fin 1024, smB r c p q * lgt A B p q = ((t1 x id (row I p) J : ℝ) : EReal) := by
  unfold t1
  rw [coe_sum]
  exact Finset.sum_congr rfl fun q _ => by rw [lgt_eq x I J A B hA hB, smB_eq id I J r c hr hcc, EReal.coe_mul]

theorem tile2_eq (hr : ∀ p, r (ix2 p (0 : Fin 1)) = id (row I p)) (hcc : ∀ q, c (ix2 (0 : Fin 1) q) = id (row J q))
    (p : Fin 1024) : ∑ q : Fin 1024, smB r c p q = ((t2 id (row I p) J : ℝ) : EReal) := by
  unfold t2
  rw [coe_sum]
  exact Finset.sum_congr rfl fun q _ => smB_eq id I J r c hr hcc p q

theorem mk_eq (hr : ∀ p, r (ix2 p (0 : Fin 1)) = id (row I p)) (hcc : ∀ q, c (ix2 (0 : Fin 1) q) = id (row J q))
    (hgr : ∀ p, gr (ix2 p (0 : Fin 1)) = g (row I p)) (hgc : ∀ q, gc (ix2 (0 : Fin 1) q) = g (row J q)) (p q : Fin 1024) :
    smB r c p q * gtB gr gc p q = mk id g (row I p) (row J q) := by
  unfold smB gtB mk
  rw [hr, hcc, hgr, hgc]
  by_cases h1 : id (row I p) = id (row J q) <;> by_cases h2 : g (row J q) + wEps6 < g (row I p) <;> simp [h1, h2]

theorem hinge_eq (hpr : ∀ p, pr (ix2 p (0 : Fin 1)) = pv (row I p)) (hpc : ∀ q, pc (ix2 (0 : Fin 1) q) = pv (row J q))
    (p q : Fin 1024) : hgB pr pc p q = hinge pv (row I p) (row J q) := by
  unfold hgB hinge
  rw [hpr, hpc]

theorem tile3_eq (hr : ∀ p, r (ix2 p (0 : Fin 1)) = id (row I p)) (hcc : ∀ q, c (ix2 (0 : Fin 1) q) = id (row J q))
    (hgr : ∀ p, gr (ix2 p (0 : Fin 1)) = g (row I p)) (hgc : ∀ q, gc (ix2 (0 : Fin 1) q) = g (row J q))
    (hpr : ∀ p, pr (ix2 p (0 : Fin 1)) = pv (row I p)) (hpc : ∀ q, pc (ix2 (0 : Fin 1) q) = pv (row J q)) (p : Fin 1024) :
    ∑ q : Fin 1024, hgB pr pc p q * (smB r c p q * gtB gr gc p q) = t3 id g pv (row I p) J := by
  unfold t3
  exact Finset.sum_congr rfl fun q _ => by
    rw [mk_eq id g I J r c gr gc hr hcc hgr hgc, hinge_eq pv I J pr pc hpr hpc]

theorem tile4_eq (hr : ∀ p, r (ix2 p (0 : Fin 1)) = id (row I p)) (hcc : ∀ q, c (ix2 (0 : Fin 1) q) = id (row J q))
    (hgr : ∀ p, gr (ix2 p (0 : Fin 1)) = g (row I p)) (hgc : ∀ q, gc (ix2 (0 : Fin 1) q) = g (row J q)) (p : Fin 1024) :
    ∑ q : Fin 1024, smB r c p q * gtB gr gc p q = t4 id g (row I p) J := by
  unfold t4
  exact Finset.sum_congr rfl fun q _ => mk_eq id g I J r c gr gc hr hcc hgr hgc p q

end Whole

end Cert.KerSide

end
-- ==== Proof.Lift.lean ====
/-
  Real numbers inside the extended reals.

  The per-row quantities of the two programs are real whenever the features are; the extended reals only enter
  through the final sums.  This module moves coercions out of finite sums and out of the exact float operations
  (exponential, logarithm, square root, quotient, maximum, the ring operations), evaluates the single-precision
  words the programs carry as explicit dyadic rationals, turns the quotient by the word for 0.1 into the product
  with its exact reciprocal on every extended real, and reads a one-bit mask as the number 0 or 1.
-/
import Mathlib
import Idealize.ShloMosaic.PureOps.Ideal
import Idealize.ShloMosaic.PureOps.Ideal.Laws
import proofs.«138601_j79577154060421_2_alg».proof.Proof.Spec

noncomputable section

namespace Cert.Lift

open Idealize.ShloMosaic

/-! ### Finite sums -/

/-- A finite sum of coercions is the coercion of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type. -/
theorem coe_sum_univ {ι : Type*} [Fintype ι] (f : ι → ℝ) :
    (∑ i, ((f i : ℝ) : EReal)) = ((∑ i, f i : ℝ) : EReal) := coe_sum Finset.univ f

/-! ### The exact operations on real arguments -/

theorem exp_coe (r : ℝ) : Ideal.exp (r : EReal) = ((Real.exp r : ℝ) : EReal) := rfl

theorem log_coe {r : ℝ} (h : 0 < r) : Ideal.log (r : EReal) = ((Real.log r : ℝ) : EReal) := by
  rw [Ideal.log_coe, if_neg (not_le.mpr h)]

theorem sqrt_coe {r : ℝ} (h : 0 ≤ r) : Ideal.sqrt (r : EReal) = ((Real.sqrt r : ℝ) : EReal) := by
  rw [Ideal.sqrt_coe, if_neg (not_lt.mpr h)]

theorem div_coe_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem neg_coe (a : ℝ) : -(a : EReal) = ((-a : ℝ) : EReal) := (EReal.coe_neg a).symm
theorem max_coe (a b : ℝ) : max (a : EReal) (b : EReal) = ((max a b : ℝ) : EReal) :=
  (EReal.coe_strictMono.monotone.map_max).symm
theorem zero_coe : (0 : EReal) = ((0 : ℝ) : EReal) := EReal.coe_zero.symm
theorem one_coe : (1 : EReal) = ((1 : ℝ) : EReal) := EReal.coe_one.symm

/-! ### The words -/

theorem w_zero : Ideal.ofBits .f32 0x00000000#32 = 0 := Ideal.ofBits_zero_f32

theorem w_one : Ideal.ofBits .f32 0x3F800000#32 = 1 := by
  simp [Ideal.ofBits, Ideal.ieee, -EReal.coe_mul]; norm_num

/-- The word 0x322BCC77 is 11258999 · 2⁻⁵⁰ (the single-precision 1e-8). -/
theorem w_eps8 : Cert.Spec.wEps8 = ((11258999 / 1125899906842624 : ℝ) : EReal) := by
  simp [Cert.Spec.wEps8, Ideal.ofBits, Ideal.ieee, -EReal.coe_mul]; norm_num

/-- The word 0x358637BD is 8796093 · 2⁻⁴³ (the single-precision 1e-6). -/
theorem w_eps6 : Cert.Spec.wEps6 = ((8796093 / 8796093022208 : ℝ) : EReal) := by
  simp [Cert.Spec.wEps6, Ideal.ofBits, Ideal.ieee, -EReal.coe_mul]; norm_num

/-- The word 0x3DCCCCCD is 13421773 · 2⁻²⁷ (the single-precision 0.1). -/
theorem w_tenth : Ideal.ofBits .f32 0x3DCCCCCD#32 = ((13421773 / 134217728 : ℝ) : EReal) := by
  simp [Ideal.ofBits, Ideal.ieee, -EReal.coe_mul]; norm_num

theorem w_margin : Cert.Spec.wMargin = ((13421773 / 134217728 : ℝ) : EReal) := w_tenth

theorem eps8_pos : (0 : ℝ) < 11258999 / 1125899906842624 := by norm_num
theorem eps6_pos : (0 : ℝ) < 8796093 / 8796093022208 := by norm_num

/-- The quotient by the word for 0.1 is the product with its exact reciprocal, on every extended real. -/
theorem div_word (z : EReal) : Ideal.div z (Ideal.ofBits .f32 0x3DCCCCCD#32) = z * ((Cert.Spec.cK : ℝ) : EReal) := by
  rw [w_tenth, Ideal.div_coe (by norm_num)]
  congr 2
  unfold Cert.Spec.cK
  norm_num

/-! ### One-bit masks as numbers -/

theorem bit_cases (b : BitVec 1) : b = 0#1 ∨ b = 1#1 := by
  revert b; decide

/-- A bit zero-extended to 32 bits and read as a signed integer is 0 or 1. -/
theorem sitofp_extui (b : BitVec 1) :
    FloatOps.sitofp (F := Ideal) .f32 (b.setWidth 32) = if b = 1#1 then 1 else 0 := by
  rcases bit_cases b with rfl | rfl
  · show (((BitVec.setWidth 32 0#1).toInt : ℝ) : EReal) = _
    simp
  · show (((BitVec.setWidth 32 1#1).toInt : ℝ) : EReal) = _
    simp

/-- A bit read as an unsigned integer is 0 or 1. -/
theorem uitofp_bit (b : BitVec 1) :
    FloatOps.uitofp (F := Ideal) .f32 b = if b = 1#1 then 1 else 0 := by
  rcases bit_cases b with rfl | rfl
  · show ((((0#1 : BitVec 1).toNat : ℝ)) : EReal) = _
    simp
  · show ((((1#1 : BitVec 1).toNat : ℝ)) : EReal) = _
    simp

/-- The product of two 0/1 numbers is the 0/1 number of the conjunction. -/
theorem ite_mul_ite (P Q : Prop) [Decidable P] [Decidable Q] :
    (if P then (1 : EReal) else 0) * (if Q then 1 else 0) = if P ∧ Q then 1 else 0 := by
  by_cases hP : P <;> by_cases hQ : Q <;> simp [hP, hQ]

/-- A 0/1 number is real. -/
theorem ite_coe (P : Prop) [Decidable P] :
    (if P then (1 : EReal) else 0) = (((if P then 1 else 0 : ℝ)) : EReal) := by
  by_cases hP : P <;> simp [hP]

/-- Multiplying by a 0/1 number keeps the factor or gives zero. -/
theorem mul_ite_one_zero (z : EReal) (P : Prop) [Decidable P] :
    z * (if P then (1 : EReal) else 0) = if P then z else 0 := by
  by_cases hP : P <;> simp [hP]

theorem ite_one_zero_mul (z : EReal) (P : Prop) [Decidable P] :
    (if P then (1 : EReal) else 0) * z = if P then z else 0 := by
  by_cases hP : P <;> simp [hP]

end Cert.Lift

end
-- ==== Proof.RowMath.lean ====
/-
  The per-row sums, over the reals.

  With d i j = 1 on the diagonal and 0 off it, one program forms each row sum with the masks (1 - d) and
  (same - d); the other sums whole tiles of 1024 columns and takes the diagonal term away on the tile that holds it.
  Both are the sum over all columns minus the diagonal term.
-/
import Mathlib
import proofs.«138601_j79577154060421_2_alg».proof.Proof.Spec
import proofs.«138601_j79577154060421_2_alg».proof.Proof.Lift

noncomputable section

namespace Cert.RowMath

open Cert.Spec

/-- 1 on the diagonal, 0 off it. -/
def dl (i j : Fin 4096) : ℝ := if i = j then 1 else 0

theorem sum_mul_dl (h : Fin 4096 → ℝ) (i : Fin 4096) : ∑ j, h j * dl i j = h i := by
  simp [dl]

theorem sum_dl_mul (h : Fin 4096 → ℝ) (i : Fin 4096) : ∑ j, dl i j * h j = h i := by
  simp [dl]

theorem sum_dl (i : Fin 4096) : ∑ j, dl i j = 1 := by
  simp [dl]

section Rows

variable (x : Fin 4096 → Fin 512 → ℝ) (id : Fin 4096 → BitVec 32)

/-- A row with a positive sum of squares has a positive norm. -/
theorem nr_pos {i : Fin 4096} (h : 0 < ∑ k, x i k * x i k) : 0 < nr x i := Real.sqrt_pos.2 h

theorem nr_ne_zero {i : Fin 4096} (h : 0 < ∑ k, x i k * x i k) : nr x i ≠ 0 := (nr_pos x h).ne'

/-- (a) The exponentials of a row, masked off the diagonal, sum to se. -/
theorem sum_exp_mask (i : Fin 4096) : ∑ j, Real.exp (lg x i j) * (1 - dl i j) = se x i := by
  simp only [mul_sub, mul_one, Finset.sum_sub_distrib]
  rw [sum_mul_dl (fun j => Real.exp (lg x i j)) i]
  rfl

/-- (b) The positives of a row, the row itself taken out, number pc. -/
theorem sum_pos_mask (i : Fin 4096) : ∑ j, (sm id i j - dl i j) = pc id i := by
  rw [Finset.sum_sub_distrib, sum_dl]
  rfl

/-- (c) The positives' logits, each shifted by a common real L. -/
theorem sum_pos_logit (i : Fin 4096) (L : ℝ) :
    ∑ j, (sm id i j - dl i j) * (lg x i j - L) = sp x id i - pc id i * L := by
  have e : (fun j => (sm id i j - dl i j) * (lg x i j - L))
      = fun j => sm id i j * lg x i j - sm id i j * L - dl i j * lg x i j + dl i j * L := by
    funext j; ring
  rw [e, Finset.sum_add_distrib, Finset.sum_sub_distrib, Finset.sum_sub_distrib, ← Finset.sum_mul, ← Finset.sum_mul,
    sum_dl_mul (fun j => lg x i j) i, sum_dl]
  unfold sp pc
  ring

/-- (d) There are other rows, and an exponential is positive: se is positive. -/
theorem se_pos (i : Fin 4096) : 0 < se x i := by
  have hne : (Finset.univ.erase i).Nonempty := by
    rw [← Finset.card_pos, Finset.card_erase_of_mem (Finset.mem_univ _), Finset.card_univ, Fintype.card_fin]
    norm_num
  have hs : se x i = ∑ j ∈ Finset.univ.erase i, Real.exp (lg x i j) := by
    unfold se
    rw [← Finset.add_sum_erase Finset.univ (fun j => Real.exp (lg x i j)) (Finset.mem_univ i)]
    ring
  rw [hs]
  exact Finset.sum_pos (fun j _ => Real.exp_pos _) hne

theorem se_add_pos (i : Fin 4096) {e : ℝ} (he : 0 < e) : 0 < se x i + e := add_pos (se_pos x i) he

/-- The number of positives is not negative: the row itself is among the rows with its id. -/
theorem pc_nonneg (i : Fin 4096) : 0 ≤ pc id i := by
  have h1 : sm id i i = 1 := by simp [sm]
  have h2 : sm id i i ≤ ∑ j, sm id i j :=
    Finset.single_le_sum (f := fun j => sm id i j) (fun j _ => by unfold sm; split_ifs <;> norm_num) (Finset.mem_univ i)
  unfold pc
  linarith

theorem pc_add_pos (i : Fin 4096) {e : ℝ} (he : 0 < e) : 0 < pc id i + e :=
  add_pos_of_nonneg_of_pos (pc_nonneg id i) he

/-- The small real the word 0x322BCC77 denotes. -/
def e8 : ℝ := 11258999 / 1125899906842624

theorem e8_pos : 0 < e8 := Cert.Lift.eps8_pos

/-- The row's extended-real term is one real quotient: the logarithm's argument and the divisor are positive reals. -/
theorem rowSup_real (i : Fin 4096) :
    rowSup x id i = (((sp x id i - pc id i * Real.log (se x i + e8)) / (pc id i + e8) : ℝ) : EReal) := by
  unfold rowSup e8
  rw [Cert.Lift.w_eps8, Cert.Lift.add_coe, Cert.Lift.log_coe (se_add_pos x i Cert.Lift.eps8_pos), Cert.Lift.mul_coe,
    Cert.Lift.sub_coe, Cert.Lift.add_coe, Cert.Lift.div_coe_coe _ (pc_add_pos id i Cert.Lift.eps8_pos).ne']

/-- The same with every sum written with its mask, each logit shifted by the logarithm of the masked exponential sum. -/
theorem rowSup_masked (i : Fin 4096) :
    rowSup x id i
      = (((∑ j, (sm id i j - dl i j) * (lg x i j - Real.log ((∑ j', Real.exp (lg x i j') * (1 - dl i j')) + e8)))
          / ((∑ j, (sm id i j - dl i j)) + e8) : ℝ) : EReal) := by
  rw [sum_exp_mask, sum_pos_logit, sum_pos_mask, rowSup_real]

end Rows

/-! ### Tiles of 1024 columns -/

/-- Column q of tile J. -/
def tix (J : Fin 4) (q : Fin 1024) : Fin 4096 := ⟨1024 * J.val + q.val, by have := J.isLt; have := q.isLt; omega⟩

@[simp] theorem tix_val (J : Fin 4) (q : Fin 1024) : (tix J q).val = 1024 * J.val + q.val := rfl

/-- A column is column q of tile J for exactly one pair (J, q). -/
def tileEquiv : Fin 4 × Fin 1024 ≃ Fin 4096 where
  toFun a := tix a.1 a.2
  invFun j := (⟨j.val / 1024, by have := j.isLt; omega⟩, ⟨j.val % 1024, Nat.mod_lt _ (by norm_num)⟩)
  left_inv a := by
    obtain ⟨J, q⟩ := a
    have := J.isLt; have := q.isLt
    refine Prod.ext (Fin.ext ?_) (Fin.ext ?_)
    · show (1024 * J.val + q.val) / 1024 = J.val
      omega
    · show (1024 * J.val + q.val) % 1024 = q.val
      omega
  right_inv j := by
    refine Fin.ext ?_
    show 1024 * (j.val / 1024) + j.val % 1024 = j.val
    omega

theorem tix_injective {J J' : Fin 4} {q q' : Fin 1024} (h : tix J q = tix J' q') : J = J' ∧ q = q' := by
  have := congrArg Fin.val h
  simp only [tix_val] at this
  have := q.isLt; have := q'.isLt
  exact ⟨Fin.ext (by omega), Fin.ext (by omega)⟩

/-- (e) A sum over the columns is the sum over the tiles of the sums inside each tile, in any commutative monoid. -/
theorem sum_tiles {M : Type*} [AddCommMonoid M] (h : Fin 4096 → M) :
    ∑ j, h j = ∑ J : Fin 4, ∑ q : Fin 1024, h (tix J q) := by
  rw [← Fintype.sum_prod_type (f := fun a : Fin 4 × Fin 1024 => h (tix a.1 a.2))]
  exact (Fintype.sum_equiv tileEquiv _ _ (fun _ => rfl)).symm

/-- One step of the tiled accumulation for row p of row tile I: add tile J's sum, and on the diagonal tile take the
    diagonal term away. -/
def upd (h : Fin 4096 → ℝ) (I : Fin 4) (p : Fin 1024) (J : Fin 4) (a : ℝ) : ℝ :=
  if J = I then a + (∑ q, h (tix J q)) - h (tix I p) else a + ∑ q, h (tix J q)

/-- The accumulator after the first n column tiles. -/
def part (h : Fin 4096 → ℝ) (I : Fin 4) (p : Fin 1024) (n : ℕ) : ℝ :=
  (∑ J ∈ Finset.univ.filter (fun J : Fin 4 => J.val < n), ∑ q, h (tix J q)) - (if I.val < n then h (tix I p) else 0)

theorem part_zero (h : Fin 4096 → ℝ) (I : Fin 4) (p : Fin 1024) : part h I p 0 = 0 := by
  simp [part]

theorem part_succ (h : Fin 4096 → ℝ) (I : Fin 4) (p : Fin 1024) (J : Fin 4) :
    part h I p (J.val + 1) = upd h I p J (part h I p J.val) := by
  have hf : Finset.univ.filter (fun J' : Fin 4 => J'.val < J.val + 1)
      = insert J (Finset.univ.filter (fun J' : Fin 4 => J'.val < J.val)) := by
    ext K
    simp only [Finset.mem_filter, Finset.mem_univ, true_and, Finset.mem_insert]
    constructor
    · intro hK
      by_cases hKJ : K = J
      · exact Or.inl hKJ
      · exact Or.inr (by have : K.val ≠ J.val := fun e => hKJ (Fin.ext e); omega)
    · rintro (rfl | hK) <;> omega
  have hnot : J ∉ Finset.univ.filter (fun J' : Fin 4 => J'.val < J.val) := by simp
  unfold part upd
  rw [hf, Finset.sum_insert hnot]
  by_cases hJI : J = I
  · subst hJI
    rw [if_pos rfl, if_pos (Nat.lt_succ_self _), if_neg (lt_irrefl _)]
    ring
  · have hv : J.val ≠ I.val := fun e => hJI (Fin.ext e)
    rw [if_neg hJI]
    by_cases hlt : I.val < J.val
    · rw [if_pos hlt, if_pos (by omega)]; ring
    · rw [if_neg hlt, if_neg (by omega)]; ring

theorem part_four (h : Fin 4096 → ℝ) (I : Fin 4) (p : Fin 1024) : part h I p 4 = (∑ j, h j) - h (tix I p) := by
  unfold part
  rw [if_pos I.isLt, sum_tiles h, Finset.filter_true_of_mem (fun J _ => J.isLt)]

/-- The four steps in order, from zero, end at the whole row sum less the diagonal term. -/
theorem upd_all (h : Fin 4096 → ℝ) (I : Fin 4) (p : Fin 1024) :
    upd h I p 3 (upd h I p 2 (upd h I p 1 (upd h I p 0 0))) = (∑ j, h j) - h (tix I p) := by
  rw [← part_four h I p, ← part_zero h I p]
  exact ((part_succ h I p 3).trans (congrArg _ ((part_succ h I p 2).trans (congrArg _ ((part_succ h I p 1).trans
    (congrArg _ (part_succ h I p 0))))))).symm

/-- The three uses: with h the row's exponentials, its positives' logits and its positives' count, the tiled
    accumulation ends at se, sp and pc of the row. -/
theorem tiled_se (x : Fin 4096 → Fin 512 → ℝ) (I : Fin 4) (p : Fin 1024) :
    part (fun j => Real.exp (lg x (tix I p) j)) I p 4 = se x (tix I p) := part_four _ I p

theorem tiled_sp (x : Fin 4096 → Fin 512 → ℝ) (id : Fin 4096 → BitVec 32) (I : Fin 4) (p : Fin 1024) :
    part (fun j => sm id (tix I p) j * lg x (tix I p) j) I p 4 = sp x id (tix I p) := by
  rw [part_four]
  unfold sp sm
  simp

theorem tiled_pc (id : Fin 4096 → BitVec 32) (I : Fin 4) (p : Fin 1024) :
    part (fun j => sm id (tix I p) j) I p 4 = pc id (tix I p) := by
  rw [part_four]
  unfold pc sm
  simp

end Cert.RowMath

end
-- ==== Proof.KerPoint.lean ====
/-
  The five accumulator entries of row p after the grid point (I, J), from the entries before it, when the point's blocks are the
  blocks of the whole arrays: the entry is first replaced by 0 at J = 0, then receives row 1024 I + p's partial sum over column
  tile J, and on the diagonal tile the first three lose the pair (i, i)'s term.
-/
import proofs.«138601_j79577154060421_2_alg».proof.Proof.KerRows
import proofs.«138601_j79577154060421_2_alg».proof.Proof.RowMath

noncomputable section

namespace Cert.KerSide

open Idealize.ShloMosaic Idealize.ShloMosaic.ValueIdx Cert.KernelIdeal Cert.Spec

/-- The row (or column) numbering of the tiles here is the one the row sums' arithmetic uses. -/
theorem row_eq_tix : row = Cert.RowMath.tix := rfl

section Point

variable (hc : Named.named (F := Ideal) Cert.KernelIdeal.κ "inv_temp" (φ := .f32) 0x41200000#32 = ((Cert.Spec.cK : ℝ) : EReal))
variable (x : Fin 4096 → Fin 512 → ℝ) (id : Fin 4096 → BitVec 32) (g pv : Fin 4096 → EReal) (I J : Fin 4)
variable (A B : Vec Ideal S1024x512 .bf16) (r : Vec Ideal S1024x1 .i32) (c : Vec Ideal S1x1024 .i32)
  (gr pr : Vec Ideal S1024x1 .f32) (gc pc : Vec Ideal S1x1024 .f32) (a : Vec Ideal S1024x1 .f32) (p : Fin 1024)

include hc in
theorem point0 (hA : ∀ p k, A (ix2 p k) = ((fr x (row I p) k : ℝ) : EReal))
    (hB : ∀ q k, B (ix2 q k) = ((fr x (row J q) k : ℝ) : EReal)) :
    (if I = J then Cert.KerStep.dia0 (F := Ideal) A B (Cert.KerStep.upd0 A B (if J = 0 then Cert.KerStep.zero (F := Ideal) else a))
      else Cert.KerStep.upd0 A B (if J = 0 then Cert.KerStep.zero (F := Ideal) else a)) (ix2 p (0 : Fin 1))
      = stepE I J ((t0 x (row I p) J : ℝ) : EReal) ((Real.exp (lg x (row I p) (row I p)) : ℝ) : EReal) (a (ix2 p (0 : Fin 1))) := by
  unfold stepE stepP
  by_cases hIJ : I = J
  · subst hIJ
    rw [if_pos rfl, if_pos rfl, dia0_apply hc, upd0_apply hc, tile0_eq x I I A B hA hB, lgt_eq x I I A B hA hB]
    by_cases hJ : I = 0
    · rw [if_pos hJ, if_pos hJ, zero_apply]; rfl
    · rw [if_neg hJ, if_neg hJ]; rfl
  · rw [if_neg hIJ, if_neg hIJ, upd0_apply hc, tile0_eq x I J A B hA hB]
    by_cases hJ : J = 0
    · rw [if_pos hJ, if_pos hJ, zero_apply]
    · rw [if_neg hJ, if_neg hJ]

include hc in
theorem point1 (hA : ∀ p k, A (ix2 p k) = ((fr x (row I p) k : ℝ) : EReal))
    (hB : ∀ q k, B (ix2 q k) = ((fr x (row J q) k : ℝ) : EReal))
    (hr : ∀ p, r (ix2 p (0 : Fin 1)) = id (row I p)) (hcc : ∀ q, c (ix2 (0 : Fin 1) q) = id (row J q)) :
    (if I = J then Cert.KerStep.dia1 (F := Ideal) A B (Cert.KerStep.upd1 A B r c (if J = 0 then Cert.KerStep.zero (F := Ideal) else a))
      else Cert.KerStep.upd1 A B r c (if J = 0 then Cert.KerStep.zero (F := Ideal) else a)) (ix2 p (0 : Fin 1))
      = stepE I J ((t1 x id (row I p) J : ℝ) : EReal) ((lg x (row I p) (row I p) : ℝ) : EReal) (a (ix2 p (0 : Fin 1))) := by
  unfold stepE stepP
  by_cases hIJ : I = J
  · subst hIJ
    rw [if_pos rfl, if_pos rfl, dia1_apply hc, upd1_apply hc, tile1_eq x id I I A B r c hA hB hr hcc, lgt_eq x I I A B hA hB]
    by_cases hJ : I = 0
    · rw [if_pos hJ, if_pos hJ, zero_apply]
    · rw [if_neg hJ, if_neg hJ]
  · rw [if_neg hIJ, if_neg hIJ, upd1_apply hc, tile1_eq x id I J A B r c hA hB hr hcc]
    by_cases hJ : J = 0
    · rw [if_pos hJ, if_pos hJ, zero_apply]
    · rw [if_neg hJ, if_neg hJ]

theorem point2 (hr : ∀ p, r (ix2 p (0 : Fin 1)) = id (row I p)) (hcc : ∀ q, c (ix2 (0 : Fin 1) q) = id (row J q)) :
    (if I = J then Cert.KerStep.dia2 (F := Ideal) (Cert.KerStep.upd2 r c (if J = 0 then Cert.KerStep.zero (F := Ideal) else a))
      else Cert.KerStep.upd2 r c (if J = 0 then Cert.KerStep.zero (F := Ideal) else a)) (ix2 p (0 : Fin 1))
      = stepE I J ((t2 id (row I p) J : ℝ) : EReal) 1 (a (ix2 p (0 : Fin 1))) := by
  unfold stepE stepP
  by_cases hIJ : I = J
  · subst hIJ
    rw [if_pos rfl, if_pos rfl, dia2_apply, upd2_apply, tile2_eq id I I r c hr hcc]
    by_cases hJ : I = 0
    · rw [if_pos hJ, if_pos hJ, zero_apply]
    · rw [if_neg hJ, if_neg hJ]
  · rw [if_neg hIJ, if_neg hIJ, upd2_apply, tile2_eq id I J r c hr hcc]
    by_cases hJ : J = 0
    · rw [if_pos hJ, if_pos hJ, zero_apply]
    · rw [if_neg hJ, if_neg hJ]

theorem point3 (hr : ∀ p, r (ix2 p (0 : Fin 1)) = id (row I p)) (hcc : ∀ q, c (ix2 (0 : Fin 1) q) = id (row J q))
    (hgr : ∀ p, gr (ix2 p (0 : Fin 1)) = g (row I p)) (hgc : ∀ q, gc (ix2 (0 : Fin 1) q) = g (row J q))
    (hpr : ∀ p, pr (ix2 p (0 : Fin 1)) = pv (row I p)) (hpc : ∀ q, pc (ix2 (0 : Fin 1) q) = pv (row J q)) :
    Cert.KerStep.upd3 (F := Ideal) r c gr gc pr pc (if J = 0 then Cert.KerStep.zero (F := Ideal) else a) (ix2 p (0 : Fin 1))
      = stepP J (t3 id g pv (row I p) J) (a (ix2 p (0 : Fin 1))) := by
  unfold stepP
  rw [upd3_apply, tile3_eq id g pv I J r c gr pr gc pc hr hcc hgr hgc hpr hpc]
  by_cases hJ : J = 0
  · rw [if_pos hJ, if_pos hJ, zero_apply]
  · rw [if_neg hJ, if_neg hJ]

theorem point4 (hr : ∀ p, r (ix2 p (0 : Fin 1)) = id (row I p)) (hcc : ∀ q, c (ix2 (0 : Fin 1) q) = id (row J q))
    (hgr : ∀ p, gr (ix2 p (0 : Fin 1)) = g (row I p)) (hgc : ∀ q, gc (ix2 (0 : Fin 1) q) = g (row J q)) :
    Cert.KerStep.upd4 (F := Ideal) r c gr gc (if J = 0 then Cert.KerStep.zero (F := Ideal) else a) (ix2 p (0 : Fin 1))
      = stepP J (t4 id g (row I p) J) (a (ix2 p (0 : Fin 1))) := by
  unfold stepP
  rw [upd4_apply, tile4_eq id g I J r c gr gc hr hcc hgr hgc]
  by_cases hJ : J = 0
  · rw [if_pos hJ, if_pos hJ, zero_apply]
  · rw [if_neg hJ, if_neg hJ]

end Point

end Cert.KerSide

end
-- ==== Proof.KerValueB.lean ====
/-
  The five accumulator entries of row p after a grid point, from the entries after the point before it.

  The point t = 4 I + J resets the accumulators when J = 0 and is on the diagonal when I = J; in each of the four kinds of point
  the accumulator blocks the body leaves are the step functions of the point's input blocks, and those blocks are the blocks of
  the whole arrays, so the entry follows the course of one row's sums over the column tiles.
-/
import proofs.«138601_j79577154060421_2_alg».proof.Proof.KerValueA
import proofs.«138601_j79577154060421_2_alg».proof.Proof.FI_Pieces
import proofs.«138601_j79577154060421_2_alg».proof.Proof.KerPoint

set_option maxRecDepth 16384

noncomputable section

namespace Cert.KerSide

open Idealize.ShloMosaic Idealize.ShloMosaic.ValueIdx Idealize.ShloMosaic.TcCoe Cert.KernelIdeal Cert.KernelIdeal.Gen Cert.FrameI Cert.Spec

/-- The point resets the accumulators exactly when its column tile is the first. -/
theorem tileJ_eq_zero (t : Fin cfg0.N) : tileJ t = 0 ↔ t.val % 4 = 0 :=
  ⟨fun h => congrArg Fin.val h, fun h => Fin.ext h⟩

/-- The point is on the diagonal exactly when its number is a multiple of 5. -/
theorem tileI_eq_tileJ (t : Fin cfg0.N) : tileI t = tileJ t ↔ t.val % 5 = 0 := by
  have hN : cfg0.N = 16 := N_0
  have ht := t.isLt
  constructor
  · intro h
    have e : t.val / 4 = t.val % 4 := congrArg Fin.val h
    omega
  · intro h
    refine Fin.ext ?_
    show t.val / 4 = t.val % 4
    omega

section Course

variable (m : (ℓ : Loc nD τ sig) → Buf (Elt Ideal) ℓ) (ρ : Dev nD → PrngReg) (c : Dev nD)
variable (hc : Named.named (F := Ideal) Cert.KernelIdeal.κ "inv_temp" (φ := .f32) 0x41200000#32 = ((Cert.Spec.cK : ℝ) : EReal))
variable (x : Fin 4096 → Fin 512 → ℝ) (id : Fin 4096 → BitVec 32) (g pv : Fin 4096 → EReal)
variable (h78 : ∀ i k, V (F := Ideal) m ρ c main_v78 (ix2 i k) = ((fr x i k : ℝ) : EReal))
  (h79 : ∀ i, V (F := Ideal) m ρ c main_v79 (ix2 i (0 : Fin 1)) = id i)
  (h80 : ∀ j, V (F := Ideal) m ρ c main_v80 (ix2 (0 : Fin 1) j) = id j)
  (h81 : ∀ i, V (F := Ideal) m ρ c main_v81 (ix2 i (0 : Fin 1)) = g i)
  (h82 : ∀ j, V (F := Ideal) m ρ c main_v82 (ix2 (0 : Fin 1) j) = g j)
  (h83 : ∀ i, V (F := Ideal) m ρ c main_v83 (ix2 i (0 : Fin 1)) = pv i)
  (h84 : ∀ j, V (F := Ideal) m ρ c main_v84 (ix2 (0 : Fin 1) j) = pv j)

include hc h78 in
/-- Accumulator 0 at row p after the point t, from its entry after the point before. -/
theorem acc0_step (t : Fin cfg0.N) (p : Fin 1024) :
    (outsAt m ρ c t.val t.isLt).1 (ix2 p (0 : Fin 1)) = stepE (tileI t) (tileJ t) ((t0 x (row (tileI t) p) (tileJ t) : ℝ) : EReal) ((Real.exp (lg x (row (tileI t) p) (row (tileI t) p)) : ℝ) : EReal) ((outsAt m ρ c (t.val - 1) (pred t)).1 (ix2 p (0 : Fin 1))) := by
  have P := point0 hc x (tileI t) (tileJ t) (iblk m ρ c 0 t) (iblk m ρ c 1 t) (outsAt m ρ c (t.val - 1) (pred t)).1 p (fun p k => (iblk0_apply m ρ c t p k).trans (h78 _ _)) (fun q k => (iblk1_apply m ρ c t q k).trans (h78 _ _))
  by_cases h1 : t.val % 4 = 0
  · by_cases h2 : t.val % 5 = 0
    ·
      refine ((congrArg (fun z : Acc5 Ideal => z.1 (ix2 p (0 : Fin 1))) (outsAt_A m ρ c t h1 h2)).trans ?_).trans P
      dsimp only
      rw [out_A_0_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t), if_pos ((tileI_eq_tileJ t).mpr h2), if_pos ((tileJ_eq_zero t).mpr h1)]
    ·
      refine ((congrArg (fun z : Acc5 Ideal => z.1 (ix2 p (0 : Fin 1))) (outsAt_B m ρ c t h1 h2)).trans ?_).trans P
      dsimp only
      rw [out_B_0_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t), if_neg (fun h => h2 ((tileI_eq_tileJ t).mp h)), if_pos ((tileJ_eq_zero t).mpr h1)]
  · by_cases h2 : t.val % 5 = 0
    ·
      refine ((congrArg (fun z : Acc5 Ideal => z.1 (ix2 p (0 : Fin 1))) (outsAt_C m ρ c t h1 h2)).trans ?_).trans P
      dsimp only
      rw [out_C_0_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_pos ((tileI_eq_tileJ t).mpr h2), if_neg (fun h => h1 ((tileJ_eq_zero t).mp h))]
    ·
      refine ((congrArg (fun z : Acc5 Ideal => z.1 (ix2 p (0 : Fin 1))) (outsAt_D m ρ c t h1 h2)).trans ?_).trans P
      dsimp only
      rw [out_D_0_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h2 ((tileI_eq_tileJ t).mp h)), if_neg (fun h => h1 ((tileJ_eq_zero t).mp h))]

include hc h78 h79 h80 in
/-- Accumulator 1 at row p after the point t, from its entry after the point before. -/
theorem acc1_step (t : Fin cfg0.N) (p : Fin 1024) :
    (outsAt m ρ c t.val t.isLt).2.1 (ix2 p (0 : Fin 1)) = stepE (tileI t) (tileJ t) ((t1 x id (row (tileI t) p) (tileJ t) : ℝ) : EReal) ((lg x (row (tileI t) p) (row (tileI t) p) : ℝ) : EReal) ((outsAt m ρ c (t.val - 1) (pred t)).2.1 (ix2 p (0 : Fin 1))) := by
  have P := point1 hc x id (tileI t) (tileJ t) (iblk m ρ c 0 t) (iblk m ρ c 1 t) (iblk m ρ c 2 t) (iblk m ρ c 3 t) (outsAt m ρ c (t.val - 1) (pred t)).2.1 p (fun p k => (iblk0_apply m ρ c t p k).trans (h78 _ _)) (fun q k => (iblk1_apply m ρ c t q k).trans (h78 _ _)) (fun p => (iblk2_apply m ρ c t p).trans (h79 _)) (fun q => (iblk3_apply m ρ c t q).trans (h80 _))
  by_cases h1 : t.val % 4 = 0
  · by_cases h2 : t.val % 5 = 0
    ·
      refine ((congrArg (fun z : Acc5 Ideal => z.2.1 (ix2 p (0 : Fin 1))) (outsAt_A m ρ c t h1 h2)).trans ?_).trans P
      dsimp only
      rw [out_A_1_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t), if_pos ((tileI_eq_tileJ t).mpr h2), if_pos ((tileJ_eq_zero t).mpr h1)]
    ·
      refine ((congrArg (fun z : Acc5 Ideal => z.2.1 (ix2 p (0 : Fin 1))) (outsAt_B m ρ c t h1 h2)).trans ?_).trans P
      dsimp only
      rw [out_B_1_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t), if_neg (fun h => h2 ((tileI_eq_tileJ t).mp h)), if_pos ((tileJ_eq_zero t).mpr h1)]
  · by_cases h2 : t.val % 5 = 0
    ·
      refine ((congrArg (fun z : Acc5 Ideal => z.2.1 (ix2 p (0 : Fin 1))) (outsAt_C m ρ c t h1 h2)).trans ?_).trans P
      dsimp only
      rw [out_C_1_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_pos ((tileI_eq_tileJ t).mpr h2), if_neg (fun h => h1 ((tileJ_eq_zero t).mp h))]
    ·
      refine ((congrArg (fun z : Acc5 Ideal => z.2.1 (ix2 p (0 : Fin 1))) (outsAt_D m ρ c t h1 h2)).trans ?_).trans P
      dsimp only
      rw [out_D_1_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h2 ((tileI_eq_tileJ t).mp h)), if_neg (fun h => h1 ((tileJ_eq_zero t).mp h))]

include h79 h80 in
/-- Accumulator 2 at row p after the point t, from its entry after the point before. -/
theorem acc2_step (t : Fin cfg0.N) (p : Fin 1024) :
    (outsAt m ρ c t.val t.isLt).2.2.1 (ix2 p (0 : Fin 1)) = stepE (tileI t) (tileJ t) ((t2 id (row (tileI t) p) (tileJ t) : ℝ) : EReal) 1 ((outsAt m ρ c (t.val - 1) (pred t)).2.2.1 (ix2 p (0 : Fin 1))) := by
  have P := point2 id (tileI t) (tileJ t) (iblk m ρ c 2 t) (iblk m ρ c 3 t) (outsAt m ρ c (t.val - 1) (pred t)).2.2.1 p (fun p => (iblk2_apply m ρ c t p).trans (h79 _)) (fun q => (iblk3_apply m ρ c t q).trans (h80 _))
  by_cases h1 : t.val % 4 = 0
  · by_cases h2 : t.val % 5 = 0
    ·
      refine ((congrArg (fun z : Acc5 Ideal => z.2.2.1 (ix2 p (0 : Fin 1))) (outsAt_A m ρ c t h1 h2)).trans ?_).trans P
      dsimp only
      rw [out_A_2_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t), if_pos ((tileI_eq_tileJ t).mpr h2), if_pos ((tileJ_eq_zero t).mpr h1)]
    ·
      refine ((congrArg (fun z : Acc5 Ideal => z.2.2.1 (ix2 p (0 : Fin 1))) (outsAt_B m ρ c t h1 h2)).trans ?_).trans P
      dsimp only
      rw [out_B_2_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t), if_neg (fun h => h2 ((tileI_eq_tileJ t).mp h)), if_pos ((tileJ_eq_zero t).mpr h1)]
  · by_cases h2 : t.val % 5 = 0
    ·
      refine ((congrArg (fun z : Acc5 Ideal => z.2.2.1 (ix2 p (0 : Fin 1))) (outsAt_C m ρ c t h1 h2)).trans ?_).trans P
      dsimp only
      rw [out_C_2_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_pos ((tileI_eq_tileJ t).mpr h2), if_neg (fun h => h1 ((tileJ_eq_zero t).mp h))]
    ·
      refine ((congrArg (fun z : Acc5 Ideal => z.2.2.1 (ix2 p (0 : Fin 1))) (outsAt_D m ρ c t h1 h2)).trans ?_).trans P
      dsimp only
      rw [out_D_2_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h2 ((tileI_eq_tileJ t).mp h)), if_neg (fun h => h1 ((tileJ_eq_zero t).mp h))]

include h79 h80 h81 h82 h83 h84 in
/-- Accumulator 3 at row p after the point t, from its entry after the point before. -/
theorem acc3_step (t : Fin cfg0.N) (p : Fin 1024) :
    (outsAt m ρ c t.val t.isLt).2.2.2.1 (ix2 p (0 : Fin 1)) = stepP (tileJ t) (t3 id g pv (row (tileI t) p) (tileJ t)) ((outsAt m ρ c (t.val - 1) (pred t)).2.2.2.1 (ix2 p (0 : Fin 1))) := by
  have P := point3 id g pv (tileI t) (tileJ t) (iblk m ρ c 2 t) (iblk m ρ c 3 t) (iblk m ρ c 4 t) (iblk m ρ c 6 t) (iblk m ρ c 5 t) (iblk m ρ c 7 t) (outsAt m ρ c (t.val - 1) (pred t)).2.2.2.1 p (fun p => (iblk2_apply m ρ c t p).trans (h79 _)) (fun q => (iblk3_apply m ρ c t q).trans (h80 _)) (fun p => (iblk4_apply m ρ c t p).trans (h81 _)) (fun q => (iblk5_apply m ρ c t q).trans (h82 _)) (fun p => (iblk6_apply m ρ c t p).trans (h83 _)) (fun q => (iblk7_apply m ρ c t q).trans (h84 _))
  by_cases h1 : t.val % 4 = 0
  · by_cases h2 : t.val % 5 = 0
    ·
      refine ((congrArg (fun z : Acc5 Ideal => z.2.2.2.1 (ix2 p (0 : Fin 1))) (outsAt_A m ρ c t h1 h2)).trans ?_).trans P
      dsimp only
      rw [out_A_3_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t), if_pos ((tileJ_eq_zero t).mpr h1)]
    ·
      refine ((congrArg (fun z : Acc5 Ideal => z.2.2.2.1 (ix2 p (0 : Fin 1))) (outsAt_B m ρ c t h1 h2)).trans ?_).trans P
      dsimp only
      rw [out_B_3_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t), if_pos ((tileJ_eq_zero t).mpr h1)]
  · by_cases h2 : t.val % 5 = 0
    ·
      refine ((congrArg (fun z : Acc5 Ideal => z.2.2.2.1 (ix2 p (0 : Fin 1))) (outsAt_C m ρ c t h1 h2)).trans ?_).trans P
      dsimp only
      rw [out_C_3_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h1 ((tileJ_eq_zero t).mp h))]
    ·
      refine ((congrArg (fun z : Acc5 Ideal => z.2.2.2.1 (ix2 p (0 : Fin 1))) (outsAt_D m ρ c t h1 h2)).trans ?_).trans P
      dsimp only
      rw [out_D_3_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h1 ((tileJ_eq_zero t).mp h))]

include h79 h80 h81 h82 in
/-- Accumulator 4 at row p after the point t, from its entry after the point before. -/
theorem acc4_step (t : Fin cfg0.N) (p : Fin 1024) :
    (outsAt m ρ c t.val t.isLt).2.2.2.2 (ix2 p (0 : Fin 1)) = stepP (tileJ t) (t4 id g (row (tileI t) p) (tileJ t)) ((outsAt m ρ c (t.val - 1) (pred t)).2.2.2.2 (ix2 p (0 : Fin 1))) := by
  have P := point4 id g (tileI t) (tileJ t) (iblk m ρ c 2 t) (iblk m ρ c 3 t) (iblk m ρ c 4 t) (iblk m ρ c 5 t) (outsAt m ρ c (t.val - 1) (pred t)).2.2.2.2 p (fun p => (iblk2_apply m ρ c t p).trans (h79 _)) (fun q => (iblk3_apply m ρ c t q).trans (h80 _)) (fun p => (iblk4_apply m ρ c t p).trans (h81 _)) (fun q => (iblk5_apply m ρ c t q).trans (h82 _))
  by_cases h1 : t.val % 4 = 0
  · by_cases h2 : t.val % 5 = 0
    ·
      refine ((congrArg (fun z : Acc5 Ideal => z.2.2.2.2 (ix2 p (0 : Fin 1))) (outsAt_A m ρ c t h1 h2)).trans ?_).trans P
      dsimp only
      rw [out_A_4_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t), if_pos ((tileJ_eq_zero t).mpr h1)]
    ·
      refine ((congrArg (fun z : Acc5 Ideal => z.2.2.2.2 (ix2 p (0 : Fin 1))) (outsAt_B m ρ c t h1 h2)).trans ?_).trans P
      dsimp only
      rw [out_B_4_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((hcond1 t).mpr h1) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t), if_pos ((tileJ_eq_zero t).mpr h1)]
  · by_cases h2 : t.val % 5 = 0
    ·
      refine ((congrArg (fun z : Acc5 Ideal => z.2.2.2.2 (ix2 p (0 : Fin 1))) (outsAt_C m ρ c t h1 h2)).trans ?_).trans P
      dsimp only
      rw [out_C_4_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) ((hcond2 t).mpr h2) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h1 ((tileJ_eq_zero t).mp h))]
    ·
      refine ((congrArg (fun z : Acc5 Ideal => z.2.2.2.2 (ix2 p (0 : Fin 1))) (outsAt_D m ρ c t h1 h2)).trans ?_).trans P
      dsimp only
      rw [out_D_4_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h1 ((hcond1 t).mp h)) (fun h => h2 ((hcond2 t).mp h)) (iblk m ρ c 0 t) (iblk m ρ c 1 t) (iblk m ρ c 2 t) (iblk m ρ c 3 t) (iblk m ρ c 4 t) (iblk m ρ c 5 t) (iblk m ρ c 6 t) (iblk m ρ c 7 t) (outsAt m ρ c (t.val - 1) (pred t)).1 (outsAt m ρ c (t.val - 1) (pred t)).2.1 (outsAt m ρ c (t.val - 1) (pred t)).2.2.1 (outsAt m ρ c (t.val - 1) (pred t)).2.2.2.1 (outsAt m ρ c (t.val - 1) (pred t)).2.2.2.2, if_neg (fun h => h1 ((tileJ_eq_zero t).mp h))]

end Course

end Cert.KerSide

end
-- ==== Proof.KerValueC.lean ====
/-
  The five accumulator entries of row 1024 I + p when its row of tiles is written back: after the four points (I, 0) … (I, 3) the
  entry has followed the whole course, and holds the row's sum over all 4096 columns, the diagonal pair's term taken off the
  first three.
-/
import proofs.«138601_j79577154060421_2_alg».proof.Proof.KerValueB

set_option maxRecDepth 16384

noncomputable section

namespace Cert.KerSide

open Idealize.ShloMosaic Idealize.ShloMosaic.ValueIdx Idealize.ShloMosaic.TcCoe Cert.KernelIdeal Cert.KernelIdeal.Gen Cert.FrameI Cert.Spec

/-! ## The three points before the last point of a row of tiles -/

theorem tileJ_last (t : Fin cfg0.N) (h3 : t.val % 4 = 3) : tileJ t = 3 := Fin.ext h3
theorem tileI_pred1 (t : Fin cfg0.N) (h3 : t.val % 4 = 3) : tileI ⟨t.val - 1, pred t⟩ = tileI t :=
  Fin.ext (by show (t.val - 1) / 4 = t.val / 4; omega)
theorem tileJ_pred1 (t : Fin cfg0.N) (h3 : t.val % 4 = 3) : tileJ ⟨t.val - 1, pred t⟩ = 2 :=
  Fin.ext (by show (t.val - 1) % 4 = 2; omega)
theorem tileI_pred2 (t : Fin cfg0.N) (h3 : t.val % 4 = 3) :
    tileI ⟨t.val - 1 - 1, pred ⟨t.val - 1, pred t⟩⟩ = tileI t :=
  Fin.ext (by show (t.val - 1 - 1) / 4 = t.val / 4; omega)
theorem tileJ_pred2 (t : Fin cfg0.N) (h3 : t.val % 4 = 3) :
    tileJ ⟨t.val - 1 - 1, pred ⟨t.val - 1, pred t⟩⟩ = 1 :=
  Fin.ext (by show (t.val - 1 - 1) % 4 = 1; omega)
theorem tileI_pred3 (t : Fin cfg0.N) (h3 : t.val % 4 = 3) :
    tileI ⟨t.val - 1 - 1 - 1, pred ⟨t.val - 1 - 1, pred ⟨t.val - 1, pred t⟩⟩⟩ = tileI t :=
  Fin.ext (by show (t.val - 1 - 1 - 1) / 4 = t.val / 4; omega)
theorem tileJ_pred3 (t : Fin cfg0.N) (h3 : t.val % 4 = 3) :
    tileJ ⟨t.val - 1 - 1 - 1, pred ⟨t.val - 1 - 1, pred ⟨t.val - 1, pred t⟩⟩⟩ = 0 :=
  Fin.ext (by show (t.val - 1 - 1 - 1) % 4 = 0; omega)
theorem tileI_last (I : Fin 4) (hn : 4 * I.val + 3 < cfg0.N) : tileI ⟨4 * I.val + 3, hn⟩ = I :=
  Fin.ext (by show (4 * I.val + 3) / 4 = I.val; omega)

section Course

variable (m : (ℓ : Loc nD τ sig) → Buf (Elt Ideal) ℓ) (ρ : Dev nD → PrngReg) (c : Dev nD)
variable (hc : Named.named (F := Ideal) Cert.KernelIdeal.κ "inv_temp" (φ := .f32) 0x41200000#32 = ((Cert.Spec.cK : ℝ) : EReal))
variable (x : Fin 4096 → Fin 512 → ℝ) (id : Fin 4096 → BitVec 32) (g pv : Fin 4096 → EReal)
variable (h78 : ∀ i k, V (F := Ideal) m ρ c main_v78 (ix2 i k) = ((fr x i k : ℝ) : EReal))
  (h79 : ∀ i, V (F := Ideal) m ρ c main_v79 (ix2 i (0 : Fin 1)) = id i)
  (h80 : ∀ j, V (F := Ideal) m ρ c main_v80 (ix2 (0 : Fin 1) j) = id j)
  (h81 : ∀ i, V (F := Ideal) m ρ c main_v81 (ix2 i (0 : Fin 1)) = g i)
  (h82 : ∀ j, V (F := Ideal) m ρ c main_v82 (ix2 (0 : Fin 1) j) = g j)
  (h83 : ∀ i, V (F := Ideal) m ρ c main_v83 (ix2 i (0 : Fin 1)) = pv i)
  (h84 : ∀ j, V (F := Ideal) m ρ c main_v84 (ix2 (0 : Fin 1) j) = pv j)

include hc h78 in
/-- Accumulator 0 at row p after the last column tile of its row of tiles. -/
theorem acc0_final (t : Fin cfg0.N) (h3 : t.val % 4 = 3) (p : Fin 1024) :
    (outsAt m ρ c t.val t.isLt).1 (ix2 p (0 : Fin 1)) = ((se x (row (tileI t) p) : ℝ) : EReal) := by
  have s0 := acc0_step m ρ c hc x h78 t p
  have s1 := acc0_step m ρ c hc x h78 ⟨t.val - 1, pred t⟩ p
  have s2 := acc0_step m ρ c hc x h78 ⟨t.val - 1 - 1, pred ⟨t.val - 1, pred t⟩⟩ p
  have s3 := acc0_step m ρ c hc x h78 ⟨t.val - 1 - 1 - 1, pred ⟨t.val - 1 - 1, pred ⟨t.val - 1, pred t⟩⟩⟩ p
  rw [tileJ_last t h3] at s0
  rw [tileI_pred1 t h3, tileJ_pred1 t h3] at s1
  rw [tileI_pred2 t h3, tileJ_pred2 t h3] at s2
  rw [tileI_pred3 t h3, tileJ_pred3 t h3] at s3
  dsimp only at s1 s2 s3
  rw [s0, s1, s2, s3]
  exact se_run x (tileI t) (row (tileI t) p) _

include hc h78 in
theorem acc0_final' (I : Fin 4) (hn : 4 * I.val + 3 < cfg0.N) (p : Fin 1024) :
    (outsAt m ρ c (4 * I.val + 3) hn).1 (ix2 p (0 : Fin 1)) = ((se x (row I p) : ℝ) : EReal) := by
  have e := acc0_final m ρ c hc x h78 ⟨4 * I.val + 3, hn⟩ (by show (4 * I.val + 3) % 4 = 3; omega) p
  rw [tileI_last I hn] at e
  exact e

include hc h78 h79 h80 in
/-- Accumulator 1 at row p after the last column tile of its row of tiles. -/
theorem acc1_final (t : Fin cfg0.N) (h3 : t.val % 4 = 3) (p : Fin 1024) :
    (outsAt m ρ c t.val t.isLt).2.1 (ix2 p (0 : Fin 1)) = ((sp x id (row (tileI t) p) : ℝ) : EReal) := by
  have s0 := acc1_step m ρ c hc x id h78 h79 h80 t p
  have s1 := acc1_step m ρ c hc x id h78 h79 h80 ⟨t.val - 1, pred t⟩ p
  have s2 := acc1_step m ρ c hc x id h78 h79 h80 ⟨t.val - 1 - 1, pred ⟨t.val - 1, pred t⟩⟩ p
  have s3 := acc1_step m ρ c hc x id h78 h79 h80 ⟨t.val - 1 - 1 - 1, pred ⟨t.val - 1 - 1, pred ⟨t.val - 1, pred t⟩⟩⟩ p
  rw [tileJ_last t h3] at s0
  rw [tileI_pred1 t h3, tileJ_pred1 t h3] at s1
  rw [tileI_pred2 t h3, tileJ_pred2 t h3] at s2
  rw [tileI_pred3 t h3, tileJ_pred3 t h3] at s3
  dsimp only at s1 s2 s3
  rw [s0, s1, s2, s3]
  exact sp_run x id (tileI t) (row (tileI t) p) _

include hc h78 h79 h80 in
theorem acc1_final' (I : Fin 4) (hn : 4 * I.val + 3 < cfg0.N) (p : Fin 1024) :
    (outsAt m ρ c (4 * I.val + 3) hn).2.1 (ix2 p (0 : Fin 1)) = ((sp x id (row I p) : ℝ) : EReal) := by
  have e := acc1_final m ρ c hc x id h78 h79 h80 ⟨4 * I.val + 3, hn⟩ (by show (4 * I.val + 3) % 4 = 3; omega) p
  rw [tileI_last I hn] at e
  exact e

include h79 h80 in
/-- Accumulator 2 at row p after the last column tile of its row of tiles. -/
theorem acc2_final (t : Fin cfg0.N) (h3 : t.val % 4 = 3) (p : Fin 1024) :
    (outsAt m ρ c t.val t.isLt).2.2.1 (ix2 p (0 : Fin 1)) = ((pc id (row (tileI t) p) : ℝ) : EReal) := by
  have s0 := acc2_step m ρ c id h79 h80 t p
  have s1 := acc2_step m ρ c id h79 h80 ⟨t.val - 1, pred t⟩ p
  have s2 := acc2_step m ρ c id h79 h80 ⟨t.val - 1 - 1, pred ⟨t.val - 1, pred t⟩⟩ p
  have s3 := acc2_step m ρ c id h79 h80 ⟨t.val - 1 - 1 - 1, pred ⟨t.val - 1 - 1, pred ⟨t.val - 1, pred t⟩⟩⟩ p
  rw [tileJ_last t h3] at s0
  rw [tileI_pred1 t h3, tileJ_pred1 t h3] at s1
  rw [tileI_pred2 t h3, tileJ_pred2 t h3] at s2
  rw [tileI_pred3 t h3, tileJ_pred3 t h3] at s3
  dsimp only at s1 s2 s3
  rw [s0, s1, s2, s3]
  exact pc_run id (tileI t) (row (tileI t) p) _

include h79 h80 in
theorem acc2_final' (I : Fin 4) (hn : 4 * I.val + 3 < cfg0.N) (p : Fin 1024) :
    (outsAt m ρ c (4 * I.val + 3) hn).2.2.1 (ix2 p (0 : Fin 1)) = ((pc id (row I p) : ℝ) : EReal) := by
  have e := acc2_final m ρ c id h79 h80 ⟨4 * I.val + 3, hn⟩ (by show (4 * I.val + 3) % 4 = 3; omega) p
  rw [tileI_last I hn] at e
  exact e

include h79 h80 h81 h82 h83 h84 in
/-- Accumulator 3 at row p after the last column tile of its row of tiles. -/
theorem acc3_final (t : Fin cfg0.N) (h3 : t.val % 4 = 3) (p : Fin 1024) :
    (outsAt m ρ c t.val t.isLt).2.2.2.1 (ix2 p (0 : Fin 1)) = ∑ j, hinge pv (row (tileI t) p) j * mk id g (row (tileI t) p) j := by
  have s0 := acc3_step m ρ c id g pv h79 h80 h81 h82 h83 h84 t p
  have s1 := acc3_step m ρ c id g pv h79 h80 h81 h82 h83 h84 ⟨t.val - 1, pred t⟩ p
  have s2 := acc3_step m ρ c id g pv h79 h80 h81 h82 h83 h84 ⟨t.val - 1 - 1, pred ⟨t.val - 1, pred t⟩⟩ p
  have s3 := acc3_step m ρ c id g pv h79 h80 h81 h82 h83 h84 ⟨t.val - 1 - 1 - 1, pred ⟨t.val - 1 - 1, pred ⟨t.val - 1, pred t⟩⟩⟩ p
  rw [tileJ_last t h3] at s0
  rw [tileI_pred1 t h3, tileJ_pred1 t h3] at s1
  rw [tileI_pred2 t h3, tileJ_pred2 t h3] at s2
  rw [tileI_pred3 t h3, tileJ_pred3 t h3] at s3
  dsimp only at s1 s2 s3
  rw [s0, s1, s2, s3]
  exact rl_run id g pv (row (tileI t) p) _

include h79 h80 h81 h82 h83 h84 in
theorem acc3_final' (I : Fin 4) (hn : 4 * I.val + 3 < cfg0.N) (p : Fin 1024) :
    (outsAt m ρ c (4 * I.val + 3) hn).2.2.2.1 (ix2 p (0 : Fin 1)) = ∑ j, hinge pv (row I p) j * mk id g (row I p) j := by
  have e := acc3_final m ρ c id g pv h79 h80 h81 h82 h83 h84 ⟨4 * I.val + 3, hn⟩ (by show (4 * I.val + 3) % 4 = 3; omega) p
  rw [tileI_last I hn] at e
  exact e

include h79 h80 h81 h82 in
/-- Accumulator 4 at row p after the last column tile of its row of tiles. -/
theorem acc4_final (t : Fin cfg0.N) (h3 : t.val % 4 = 3) (p : Fin 1024) :
    (outsAt m ρ c t.val t.isLt).2.2.2.2 (ix2 p (0 : Fin 1)) = ∑ j, mk id g (row (tileI t) p) j := by
  have s0 := acc4_step m ρ c id g h79 h80 h81 h82 t p
  have s1 := acc4_step m ρ c id g h79 h80 h81 h82 ⟨t.val - 1, pred t⟩ p
  have s2 := acc4_step m ρ c id g h79 h80 h81 h82 ⟨t.val - 1 - 1, pred ⟨t.val - 1, pred t⟩⟩ p
  have s3 := acc4_step m ρ c id g h79 h80 h81 h82 ⟨t.val - 1 - 1 - 1, pred ⟨t.val - 1 - 1, pred ⟨t.val - 1, pred t⟩⟩⟩ p
  rw [tileJ_last t h3] at s0
  rw [tileI_pred1 t h3, tileJ_pred1 t h3] at s1
  rw [tileI_pred2 t h3, tileJ_pred2 t h3] at s2
  rw [tileI_pred3 t h3, tileJ_pred3 t h3] at s3
  dsimp only at s1 s2 s3
  rw [s0, s1, s2, s3]
  exact rc_run id g (row (tileI t) p) _

include h79 h80 h81 h82 in
theorem acc4_final' (I : Fin 4) (hn : 4 * I.val + 3 < cfg0.N) (p : Fin 1024) :
    (outsAt m ρ c (4 * I.val + 3) hn).2.2.2.2 (ix2 p (0 : Fin 1)) = ∑ j, mk id g (row I p) j := by
  have e := acc4_final m ρ c id g h79 h80 h81 h82 ⟨4 * I.val + 3, hn⟩ (by show (4 * I.val + 3) % 4 = 3; omega) p
  rw [tileI_last I hn] at e
  exact e

end Course

end Cert.KerSide

end
-- ==== Proof.KerArrays.lean ====
/-
  The five result arrays of the region, from the accumulators' entries at the points that write them back.

  An accumulator window's block at the point t = 4 I + J is rows 1024 I … 1024 I + 1023 of its 4096 × 1 array, and the block is
  written back only after the last column tile, at t = 4 I + 3.  So if at each such point the accumulator's entry p is the entry
  1024 I + p of a column E of 4096 extended reals, the four write-backs cover the array and it ends holding E.
-/
import proofs.«138601_j79577154060421_2_alg».proof.Proof.FI_Launch
import proofs.«138601_j79577154060421_2_alg».proof.Proof.KerRowsA
import Idealize.ShloMosaic.Lib.Pipeline.Value
import Idealize.ShloMosaic.Lib.ValueIdx

set_option maxRecDepth 16384

noncomputable section

namespace Cert.KerSide

open Idealize.ShloMosaic Idealize.ShloMosaic.ValueIdx Idealize.ShloMosaic.TcCoe Cert.KernelIdeal Cert.KernelIdeal.Gen Cert.FrameI
open Idealize.SL.Sem
open Idealize.ShloMosaic.Pipeline (Dat)

variable (m : (ℓ : Loc nD τ sig) → Buf (Elt Ideal) ℓ) (ρ : Dev nD → PrngReg)

/-- A column of 4096 entries as contents of a 4096 × 1 array. -/
abbrev colOf (E : Fin 4096 → EReal) : S4096x1.Idx → EReal := fun y => E (y 0)

/-- The five accumulator windows' block indices at every point: block row t / 4, block column 0. -/
theorem out_index : ∀ t : Fin cfg0.N,
    (win0_8.index t (0 : Fin 2) = t.val / 4 ∧ win0_8.index t (1 : Fin 2) = 0)
    ∧ (win0_9.index t (0 : Fin 2) = t.val / 4 ∧ win0_9.index t (1 : Fin 2) = 0)
    ∧ (win0_10.index t (0 : Fin 2) = t.val / 4 ∧ win0_10.index t (1 : Fin 2) = 0)
    ∧ (win0_11.index t (0 : Fin 2) = t.val / 4 ∧ win0_11.index t (1 : Fin 2) = 0)
    ∧ (win0_12.index t (0 : Fin 2) = t.val / 4 ∧ win0_12.index t (1 : Fin 2) = 0) :=
  (by decide +kernel : ∀ t : Fin grid0.N, _)

theorem tile_lt (t : Fin cfg0.N) : t.val / 4 < 4 := by
  have h := t.isLt
  have hN : cfg0.N = 16 := N_0
  omega

/-- What the accumulators hold after a point does not depend on how the point's bound was proved. -/
theorem outsAt_congr (c : Dev nD) {n n' : ℕ} (e : n = n') (hn : n < cfg0.N) (hn' : n' < cfg0.N) :
    outsAt (F := Ideal) m ρ c n hn = outsAt (F := Ideal) m ρ c n' hn' := by
  subst e; rfl

/-! ## Window 8 -/

/-- An index of the array is in point t's block iff each coordinate is in the block's range on its axis. -/
theorem mem_blk8 (t : Fin cfg0.N) (i : S4096x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v85_0).slice (win0_8.rect t)).set ↔ _
  rw [View.set_slice_whole, Rect.mem_set_unit]
  exact Iff.rfl

/-- What a point that writes window 8 back writes is its block of the column E, when the accumulator holds E's entries of the
    point's row tile. -/
theorem flushed8_eq (c : Dev nD) (E : Fin 4096 → EReal)
    (h : ∀ (t : Fin cfg0.N) (h3 : t.val % 4 = 3) (p : Fin 1024),
      (outsAt (F := Ideal) m ρ c t.val t.isLt).1 (ix2 p (0 : Fin 1)) = E (row ⟨t.val / 4, tile_lt t⟩ p))
    (t : Fin cfg0.N) (hf : (cfg0.win 8).flush t = true) :
    (dats m ρ 0 c).flushed 8 t = ((cfg0.win 8).blk t).view.read (Elt Ideal) (colOf E) := by
  have h3 : t.val % 4 = 3 := (flush0_8 t).mp hf
  obtain ⟨e0, e1⟩ := (out_index t).1
  show (cfg0.win 8).cut (grid0.coords t) ((dats m ρ 0 c).after 8 t) = _
  rw [after_8]
  funext j
  obtain ⟨p, q, rfl⟩ : ∃ (p : Fin 1024) (q : Fin 1), j = ix2 p q := ⟨j 0, j 1, eq_ix2 j⟩
  obtain rfl : q = 0 := Subsingleton.elim _ _
  rw [View.read_apply]
  show (outsAt (F := Ideal) m ρ c t.val t.isLt).1 (ix2 p (0 : Fin 1)) = E ((((cfg0.win 8).blk t).view.emb (ix2 p (0 : Fin 1))) 0)
  rw [h t h3 p]
  refine congrArg E (Fin.ext ?_)
  show 1024 * (t.val / 4) + p.val = win0_8.index t (0 : Fin 2) * 1024 + 1 * p.val
  rw [e0]; omega

/-- The four points that write window 8 back cover the 4096 rows. -/
theorem cover8 (i : S4096x1.Idx) : ∃ t : Fin cfg0.N, (cfg0.win 8).flush t = true ∧ i ∈ ((cfg0.win 8).blk t).view.set := by
  have hN : cfg0.N = 16 := N_0
  have hi0 : (i 0).val < 4096 := (i 0).isLt
  have hi1 : (i 1).val < 1 := (i 1).isLt
  refine ⟨⟨4 * ((i 0).val / 1024) + 3, by omega⟩, (flush0_8 _).mpr (by show (4 * ((i 0).val / 1024) + 3) % 4 = 3; omega), ?_⟩
  obtain ⟨e0, e1⟩ := (out_index ⟨4 * ((i 0).val / 1024) + 3, by omega⟩).1
  rw [mem_blk8]
  intro a
  match a with
  | ⟨0, _⟩ =>
    show win0_8.index ⟨4 * ((i 0).val / 1024) + 3, _⟩ (0 : Fin 2) * 1024 ≤ (i 0).val ∧ (i 0).val < win0_8.index ⟨4 * ((i 0).val / 1024) + 3, _⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_8.index ⟨4 * ((i 0).val / 1024) + 3, _⟩ (1 : Fin 2) * 1 ≤ (i 1).val ∧ (i 1).val < win0_8.index ⟨4 * ((i 0).val / 1024) + 3, _⟩ (1 : Fin 2) * 1 + 1
    rw [e1]
    omega

/-- After the region window 8's array is the column E. -/
theorem final8 (c : Dev nD) (E : Fin 4096 → EReal)
    (h : ∀ (t : Fin cfg0.N) (h3 : t.val % 4 = 3) (p : Fin 1024),
      (outsAt (F := Ideal) m ρ c t.val t.isLt).1 (ix2 p (0 : Fin 1)) = E (row ⟨t.val / 4, tile_lt t⟩ p)) :
    finalA (F := Ideal) m ρ c 8 = colOf E :=
  (dats m ρ 0 c).arrAt_eq_of_cover 8 (colOf E) (flushed8_eq m ρ c E h) cover8

/-- The same from the accumulators' entries at the last point 4 I + 3 of each row tile I. -/
theorem final8_of_tiles (c : Dev nD) (E : Fin 4096 → EReal)
    (h : ∀ (I : Fin 4) (p : Fin 1024) (hlt : 4 * I.val + 3 < cfg0.N),
      (outsAt (F := Ideal) m ρ c (4 * I.val + 3) hlt).1 (ix2 p (0 : Fin 1)) = E (row I p)) :
    finalA (F := Ideal) m ρ c 8 = colOf E :=
  final8 m ρ c E fun t h3 p => by
    have e : 4 * (t.val / 4) + 3 = t.val := by omega
    rw [outsAt_congr m ρ c e.symm t.isLt (by rw [e]; exact t.isLt)]
    exact h ⟨t.val / 4, tile_lt t⟩ p _

/-! ## Window 9 -/

/-- An index of the array is in point t's block iff each coordinate is in the block's range on its axis. -/
theorem mem_blk9 (t : Fin cfg0.N) (i : S4096x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v85_1).slice (win0_9.rect t)).set ↔ _
  rw [View.set_slice_whole, Rect.mem_set_unit]
  exact Iff.rfl

/-- What a point that writes window 9 back writes is its block of the column E, when the accumulator holds E's entries of the
    point's row tile. -/
theorem flushed9_eq (c : Dev nD) (E : Fin 4096 → EReal)
    (h : ∀ (t : Fin cfg0.N) (h3 : t.val % 4 = 3) (p : Fin 1024),
      (outsAt (F := Ideal) m ρ c t.val t.isLt).2.1 (ix2 p (0 : Fin 1)) = E (row ⟨t.val / 4, tile_lt t⟩ p))
    (t : Fin cfg0.N) (hf : (cfg0.win 9).flush t = true) :
    (dats m ρ 0 c).flushed 9 t = ((cfg0.win 9).blk t).view.read (Elt Ideal) (colOf E) := by
  have h3 : t.val % 4 = 3 := (flush0_9 t).mp hf
  obtain ⟨e0, e1⟩ := (out_index t).2.1
  show (cfg0.win 9).cut (grid0.coords t) ((dats m ρ 0 c).after 9 t) = _
  rw [after_9]
  funext j
  obtain ⟨p, q, rfl⟩ : ∃ (p : Fin 1024) (q : Fin 1), j = ix2 p q := ⟨j 0, j 1, eq_ix2 j⟩
  obtain rfl : q = 0 := Subsingleton.elim _ _
  rw [View.read_apply]
  show (outsAt (F := Ideal) m ρ c t.val t.isLt).2.1 (ix2 p (0 : Fin 1)) = E ((((cfg0.win 9).blk t).view.emb (ix2 p (0 : Fin 1))) 0)
  rw [h t h3 p]
  refine congrArg E (Fin.ext ?_)
  show 1024 * (t.val / 4) + p.val = win0_9.index t (0 : Fin 2) * 1024 + 1 * p.val
  rw [e0]; omega

/-- The four points that write window 9 back cover the 4096 rows. -/
theorem cover9 (i : S4096x1.Idx) : ∃ t : Fin cfg0.N, (cfg0.win 9).flush t = true ∧ i ∈ ((cfg0.win 9).blk t).view.set := by
  have hN : cfg0.N = 16 := N_0
  have hi0 : (i 0).val < 4096 := (i 0).isLt
  have hi1 : (i 1).val < 1 := (i 1).isLt
  refine ⟨⟨4 * ((i 0).val / 1024) + 3, by omega⟩, (flush0_9 _).mpr (by show (4 * ((i 0).val / 1024) + 3) % 4 = 3; omega), ?_⟩
  obtain ⟨e0, e1⟩ := (out_index ⟨4 * ((i 0).val / 1024) + 3, by omega⟩).2.1
  rw [mem_blk9]
  intro a
  match a with
  | ⟨0, _⟩ =>
    show win0_9.index ⟨4 * ((i 0).val / 1024) + 3, _⟩ (0 : Fin 2) * 1024 ≤ (i 0).val ∧ (i 0).val < win0_9.index ⟨4 * ((i 0).val / 1024) + 3, _⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_9.index ⟨4 * ((i 0).val / 1024) + 3, _⟩ (1 : Fin 2) * 1 ≤ (i 1).val ∧ (i 1).val < win0_9.index ⟨4 * ((i 0).val / 1024) + 3, _⟩ (1 : Fin 2) * 1 + 1
    rw [e1]
    omega

/-- After the region window 9's array is the column E. -/
theorem final9 (c : Dev nD) (E : Fin 4096 → EReal)
    (h : ∀ (t : Fin cfg0.N) (h3 : t.val % 4 = 3) (p : Fin 1024),
      (outsAt (F := Ideal) m ρ c t.val t.isLt).2.1 (ix2 p (0 : Fin 1)) = E (row ⟨t.val / 4, tile_lt t⟩ p)) :
    finalA (F := Ideal) m ρ c 9 = colOf E :=
  (dats m ρ 0 c).arrAt_eq_of_cover 9 (colOf E) (flushed9_eq m ρ c E h) cover9

/-- The same from the accumulators' entries at the last point 4 I + 3 of each row tile I. -/
theorem final9_of_tiles (c : Dev nD) (E : Fin 4096 → EReal)
    (h : ∀ (I : Fin 4) (p : Fin 1024) (hlt : 4 * I.val + 3 < cfg0.N),
      (outsAt (F := Ideal) m ρ c (4 * I.val + 3) hlt).2.1 (ix2 p (0 : Fin 1)) = E (row I p)) :
    finalA (F := Ideal) m ρ c 9 = colOf E :=
  final9 m ρ c E fun t h3 p => by
    have e : 4 * (t.val / 4) + 3 = t.val := by omega
    rw [outsAt_congr m ρ c e.symm t.isLt (by rw [e]; exact t.isLt)]
    exact h ⟨t.val / 4, tile_lt t⟩ p _

/-! ## Window 10 -/

/-- An index of the array is in point t's block iff each coordinate is in the block's range on its axis. -/
theorem mem_blk10 (t : Fin cfg0.N) (i : S4096x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v85_2).slice (win0_10.rect t)).set ↔ _
  rw [View.set_slice_whole, Rect.mem_set_unit]
  exact Iff.rfl

/-- What a point that writes window 10 back writes is its block of the column E, when the accumulator holds E's entries of the
    point's row tile. -/
theorem flushed10_eq (c : Dev nD) (E : Fin 4096 → EReal)
    (h : ∀ (t : Fin cfg0.N) (h3 : t.val % 4 = 3) (p : Fin 1024),
      (outsAt (F := Ideal) m ρ c t.val t.isLt).2.2.1 (ix2 p (0 : Fin 1)) = E (row ⟨t.val / 4, tile_lt t⟩ p))
    (t : Fin cfg0.N) (hf : (cfg0.win 10).flush t = true) :
    (dats m ρ 0 c).flushed 10 t = ((cfg0.win 10).blk t).view.read (Elt Ideal) (colOf E) := by
  have h3 : t.val % 4 = 3 := (flush0_10 t).mp hf
  obtain ⟨e0, e1⟩ := (out_index t).2.2.1
  show (cfg0.win 10).cut (grid0.coords t) ((dats m ρ 0 c).after 10 t) = _
  rw [after_10]
  funext j
  obtain ⟨p, q, rfl⟩ : ∃ (p : Fin 1024) (q : Fin 1), j = ix2 p q := ⟨j 0, j 1, eq_ix2 j⟩
  obtain rfl : q = 0 := Subsingleton.elim _ _
  rw [View.read_apply]
  show (outsAt (F := Ideal) m ρ c t.val t.isLt).2.2.1 (ix2 p (0 : Fin 1)) = E ((((cfg0.win 10).blk t).view.emb (ix2 p (0 : Fin 1))) 0)
  rw [h t h3 p]
  refine congrArg E (Fin.ext ?_)
  show 1024 * (t.val / 4) + p.val = win0_10.index t (0 : Fin 2) * 1024 + 1 * p.val
  rw [e0]; omega

/-- The four points that write window 10 back cover the 4096 rows. -/
theorem cover10 (i : S4096x1.Idx) : ∃ t : Fin cfg0.N, (cfg0.win 10).flush t = true ∧ i ∈ ((cfg0.win 10).blk t).view.set := by
  have hN : cfg0.N = 16 := N_0
  have hi0 : (i 0).val < 4096 := (i 0).isLt
  have hi1 : (i 1).val < 1 := (i 1).isLt
  refine ⟨⟨4 * ((i 0).val / 1024) + 3, by omega⟩, (flush0_10 _).mpr (by show (4 * ((i 0).val / 1024) + 3) % 4 = 3; omega), ?_⟩
  obtain ⟨e0, e1⟩ := (out_index ⟨4 * ((i 0).val / 1024) + 3, by omega⟩).2.2.1
  rw [mem_blk10]
  intro a
  match a with
  | ⟨0, _⟩ =>
    show win0_10.index ⟨4 * ((i 0).val / 1024) + 3, _⟩ (0 : Fin 2) * 1024 ≤ (i 0).val ∧ (i 0).val < win0_10.index ⟨4 * ((i 0).val / 1024) + 3, _⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_10.index ⟨4 * ((i 0).val / 1024) + 3, _⟩ (1 : Fin 2) * 1 ≤ (i 1).val ∧ (i 1).val < win0_10.index ⟨4 * ((i 0).val / 1024) + 3, _⟩ (1 : Fin 2) * 1 + 1
    rw [e1]
    omega

/-- After the region window 10's array is the column E. -/
theorem final10 (c : Dev nD) (E : Fin 4096 → EReal)
    (h : ∀ (t : Fin cfg0.N) (h3 : t.val % 4 = 3) (p : Fin 1024),
      (outsAt (F := Ideal) m ρ c t.val t.isLt).2.2.1 (ix2 p (0 : Fin 1)) = E (row ⟨t.val / 4, tile_lt t⟩ p)) :
    finalA (F := Ideal) m ρ c 10 = colOf E :=
  (dats m ρ 0 c).arrAt_eq_of_cover 10 (colOf E) (flushed10_eq m ρ c E h) cover10

/-- The same from the accumulators' entries at the last point 4 I + 3 of each row tile I. -/
theorem final10_of_tiles (c : Dev nD) (E : Fin 4096 → EReal)
    (h : ∀ (I : Fin 4) (p : Fin 1024) (hlt : 4 * I.val + 3 < cfg0.N),
      (outsAt (F := Ideal) m ρ c (4 * I.val + 3) hlt).2.2.1 (ix2 p (0 : Fin 1)) = E (row I p)) :
    finalA (F := Ideal) m ρ c 10 = colOf E :=
  final10 m ρ c E fun t h3 p => by
    have e : 4 * (t.val / 4) + 3 = t.val := by omega
    rw [outsAt_congr m ρ c e.symm t.isLt (by rw [e]; exact t.isLt)]
    exact h ⟨t.val / 4, tile_lt t⟩ p _

/-! ## Window 11 -/

/-- An index of the array is in point t's block iff each coordinate is in the block's range on its axis. -/
theorem mem_blk11 (t : Fin cfg0.N) (i : S4096x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v85_3).slice (win0_11.rect t)).set ↔ _
  rw [View.set_slice_whole, Rect.mem_set_unit]
  exact Iff.rfl

/-- What a point that writes window 11 back writes is its block of the column E, when the accumulator holds E's entries of the
    point's row tile. -/
theorem flushed11_eq (c : Dev nD) (E : Fin 4096 → EReal)
    (h : ∀ (t : Fin cfg0.N) (h3 : t.val % 4 = 3) (p : Fin 1024),
      (outsAt (F := Ideal) m ρ c t.val t.isLt).2.2.2.1 (ix2 p (0 : Fin 1)) = E (row ⟨t.val / 4, tile_lt t⟩ p))
    (t : Fin cfg0.N) (hf : (cfg0.win 11).flush t = true) :
    (dats m ρ 0 c).flushed 11 t = ((cfg0.win 11).blk t).view.read (Elt Ideal) (colOf E) := by
  have h3 : t.val % 4 = 3 := (flush0_11 t).mp hf
  obtain ⟨e0, e1⟩ := (out_index t).2.2.2.1
  show (cfg0.win 11).cut (grid0.coords t) ((dats m ρ 0 c).after 11 t) = _
  rw [after_11]
  funext j
  obtain ⟨p, q, rfl⟩ : ∃ (p : Fin 1024) (q : Fin 1), j = ix2 p q := ⟨j 0, j 1, eq_ix2 j⟩
  obtain rfl : q = 0 := Subsingleton.elim _ _
  rw [View.read_apply]
  show (outsAt (F := Ideal) m ρ c t.val t.isLt).2.2.2.1 (ix2 p (0 : Fin 1)) = E ((((cfg0.win 11).blk t).view.emb (ix2 p (0 : Fin 1))) 0)
  rw [h t h3 p]
  refine congrArg E (Fin.ext ?_)
  show 1024 * (t.val / 4) + p.val = win0_11.index t (0 : Fin 2) * 1024 + 1 * p.val
  rw [e0]; omega

/-- The four points that write window 11 back cover the 4096 rows. -/
theorem cover11 (i : S4096x1.Idx) : ∃ t : Fin cfg0.N, (cfg0.win 11).flush t = true ∧ i ∈ ((cfg0.win 11).blk t).view.set := by
  have hN : cfg0.N = 16 := N_0
  have hi0 : (i 0).val < 4096 := (i 0).isLt
  have hi1 : (i 1).val < 1 := (i 1).isLt
  refine ⟨⟨4 * ((i 0).val / 1024) + 3, by omega⟩, (flush0_11 _).mpr (by show (4 * ((i 0).val / 1024) + 3) % 4 = 3; omega), ?_⟩
  obtain ⟨e0, e1⟩ := (out_index ⟨4 * ((i 0).val / 1024) + 3, by omega⟩).2.2.2.1
  rw [mem_blk11]
  intro a
  match a with
  | ⟨0, _⟩ =>
    show win0_11.index ⟨4 * ((i 0).val / 1024) + 3, _⟩ (0 : Fin 2) * 1024 ≤ (i 0).val ∧ (i 0).val < win0_11.index ⟨4 * ((i 0).val / 1024) + 3, _⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_11.index ⟨4 * ((i 0).val / 1024) + 3, _⟩ (1 : Fin 2) * 1 ≤ (i 1).val ∧ (i 1).val < win0_11.index ⟨4 * ((i 0).val / 1024) + 3, _⟩ (1 : Fin 2) * 1 + 1
    rw [e1]
    omega

/-- After the region window 11's array is the column E. -/
theorem final11 (c : Dev nD) (E : Fin 4096 → EReal)
    (h : ∀ (t : Fin cfg0.N) (h3 : t.val % 4 = 3) (p : Fin 1024),
      (outsAt (F := Ideal) m ρ c t.val t.isLt).2.2.2.1 (ix2 p (0 : Fin 1)) = E (row ⟨t.val / 4, tile_lt t⟩ p)) :
    finalA (F := Ideal) m ρ c 11 = colOf E :=
  (dats m ρ 0 c).arrAt_eq_of_cover 11 (colOf E) (flushed11_eq m ρ c E h) cover11

/-- The same from the accumulators' entries at the last point 4 I + 3 of each row tile I. -/
theorem final11_of_tiles (c : Dev nD) (E : Fin 4096 → EReal)
    (h : ∀ (I : Fin 4) (p : Fin 1024) (hlt : 4 * I.val + 3 < cfg0.N),
      (outsAt (F := Ideal) m ρ c (4 * I.val + 3) hlt).2.2.2.1 (ix2 p (0 : Fin 1)) = E (row I p)) :
    finalA (F := Ideal) m ρ c 11 = colOf E :=
  final11 m ρ c E fun t h3 p => by
    have e : 4 * (t.val / 4) + 3 = t.val := by omega
    rw [outsAt_congr m ρ c e.symm t.isLt (by rw [e]; exact t.isLt)]
    exact h ⟨t.val / 4, tile_lt t⟩ p _

/-! ## Window 12 -/

/-- An index of the array is in point t's block iff each coordinate is in the block's range on its axis. -/
theorem mem_blk12 (t : Fin cfg0.N) (i : S4096x1.Idx) :
    i ∈ ((cfg0.win 12).blk t).view.set ↔ ∀ a : Fin 2, win0_12.index t a * S1024x1.size a ≤ (i a).val ∧ (i a).val < win0_12.index t a * S1024x1.size a + S1024x1.size a := by
  show i ∈ ((View.whole main_v85_4).slice (win0_12.rect t)).set ↔ _
  rw [View.set_slice_whole, Rect.mem_set_unit]
  exact Iff.rfl

/-- What a point that writes window 12 back writes is its block of the column E, when the accumulator holds E's entries of the
    point's row tile. -/
theorem flushed12_eq (c : Dev nD) (E : Fin 4096 → EReal)
    (h : ∀ (t : Fin cfg0.N) (h3 : t.val % 4 = 3) (p : Fin 1024),
      (outsAt (F := Ideal) m ρ c t.val t.isLt).2.2.2.2 (ix2 p (0 : Fin 1)) = E (row ⟨t.val / 4, tile_lt t⟩ p))
    (t : Fin cfg0.N) (hf : (cfg0.win 12).flush t = true) :
    (dats m ρ 0 c).flushed 12 t = ((cfg0.win 12).blk t).view.read (Elt Ideal) (colOf E) := by
  have h3 : t.val % 4 = 3 := (flush0_12 t).mp hf
  obtain ⟨e0, e1⟩ := (out_index t).2.2.2.2
  show (cfg0.win 12).cut (grid0.coords t) ((dats m ρ 0 c).after 12 t) = _
  rw [after_12]
  funext j
  obtain ⟨p, q, rfl⟩ : ∃ (p : Fin 1024) (q : Fin 1), j = ix2 p q := ⟨j 0, j 1, eq_ix2 j⟩
  obtain rfl : q = 0 := Subsingleton.elim _ _
  rw [View.read_apply]
  show (outsAt (F := Ideal) m ρ c t.val t.isLt).2.2.2.2 (ix2 p (0 : Fin 1)) = E ((((cfg0.win 12).blk t).view.emb (ix2 p (0 : Fin 1))) 0)
  rw [h t h3 p]
  refine congrArg E (Fin.ext ?_)
  show 1024 * (t.val / 4) + p.val = win0_12.index t (0 : Fin 2) * 1024 + 1 * p.val
  rw [e0]; omega

/-- The four points that write window 12 back cover the 4096 rows. -/
theorem cover12 (i : S4096x1.Idx) : ∃ t : Fin cfg0.N, (cfg0.win 12).flush t = true ∧ i ∈ ((cfg0.win 12).blk t).view.set := by
  have hN : cfg0.N = 16 := N_0
  have hi0 : (i 0).val < 4096 := (i 0).isLt
  have hi1 : (i 1).val < 1 := (i 1).isLt
  refine ⟨⟨4 * ((i 0).val / 1024) + 3, by omega⟩, (flush0_12 _).mpr (by show (4 * ((i 0).val / 1024) + 3) % 4 = 3; omega), ?_⟩
  obtain ⟨e0, e1⟩ := (out_index ⟨4 * ((i 0).val / 1024) + 3, by omega⟩).2.2.2.2
  rw [mem_blk12]
  intro a
  match a with
  | ⟨0, _⟩ =>
    show win0_12.index ⟨4 * ((i 0).val / 1024) + 3, _⟩ (0 : Fin 2) * 1024 ≤ (i 0).val ∧ (i 0).val < win0_12.index ⟨4 * ((i 0).val / 1024) + 3, _⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_12.index ⟨4 * ((i 0).val / 1024) + 3, _⟩ (1 : Fin 2) * 1 ≤ (i 1).val ∧ (i 1).val < win0_12.index ⟨4 * ((i 0).val / 1024) + 3, _⟩ (1 : Fin 2) * 1 + 1
    rw [e1]
    omega

/-- After the region window 12's array is the column E. -/
theorem final12 (c : Dev nD) (E : Fin 4096 → EReal)
    (h : ∀ (t : Fin cfg0.N) (h3 : t.val % 4 = 3) (p : Fin 1024),
      (outsAt (F := Ideal) m ρ c t.val t.isLt).2.2.2.2 (ix2 p (0 : Fin 1)) = E (row ⟨t.val / 4, tile_lt t⟩ p)) :
    finalA (F := Ideal) m ρ c 12 = colOf E :=
  (dats m ρ 0 c).arrAt_eq_of_cover 12 (colOf E) (flushed12_eq m ρ c E h) cover12

/-- The same from the accumulators' entries at the last point 4 I + 3 of each row tile I. -/
theorem final12_of_tiles (c : Dev nD) (E : Fin 4096 → EReal)
    (h : ∀ (I : Fin 4) (p : Fin 1024) (hlt : 4 * I.val + 3 < cfg0.N),
      (outsAt (F := Ideal) m ρ c (4 * I.val + 3) hlt).2.2.2.2 (ix2 p (0 : Fin 1)) = E (row I p)) :
    finalA (F := Ideal) m ρ c 12 = colOf E :=
  final12 m ρ c E fun t h3 p => by
    have e : 4 * (t.val / 4) + 3 = t.val := by omega
    rw [outsAt_congr m ρ c e.symm t.isLt (by rw [e]; exact t.isLt)]
    exact h ⟨t.val / 4, tile_lt t⟩ p _

end Cert.KerSide

end
-- ==== Proof.KerValueD.lean ====
/-
  The five result arrays of the pair kernel after the region, as functions of the whole arrays it was given: at row i the sum over
  the other rows of the exponentials of the logits, the sum over the other rows with the same id of the logits, the number of
  those rows, the summed hinge over the row's ranked pairs, and their number.
-/
import proofs.«138601_j79577154060421_2_alg».proof.Proof.KerValueC
import proofs.«138601_j79577154060421_2_alg».proof.Proof.KerArrays

set_option maxRecDepth 16384

noncomputable section

namespace Cert.KerSide

open Idealize.ShloMosaic Idealize.ShloMosaic.ValueIdx Idealize.ShloMosaic.TcCoe Cert.KernelIdeal Cert.KernelIdeal.Gen Cert.FrameI Cert.Spec

section Arrays

variable (m : (ℓ : Loc nD τ sig) → Buf (Elt Ideal) ℓ) (ρ : Dev nD → PrngReg) (c : Dev nD)
variable (hc : Named.named (F := Ideal) Cert.KernelIdeal.κ "inv_temp" (φ := .f32) 0x41200000#32 = ((Cert.Spec.cK : ℝ) : EReal))
variable (x : Fin 4096 → Fin 512 → ℝ) (id : Fin 4096 → BitVec 32) (g pv : Fin 4096 → EReal)
variable (h78 : ∀ i k, V (F := Ideal) m ρ c main_v78 (ix2 i k) = ((fr x i k : ℝ) : EReal))
  (h79 : ∀ i, V (F := Ideal) m ρ c main_v79 (ix2 i (0 : Fin 1)) = id i)
  (h80 : ∀ j, V (F := Ideal) m ρ c main_v80 (ix2 (0 : Fin 1) j) = id j)
  (h81 : ∀ i, V (F := Ideal) m ρ c main_v81 (ix2 i (0 : Fin 1)) = g i)
  (h82 : ∀ j, V (F := Ideal) m ρ c main_v82 (ix2 (0 : Fin 1) j) = g j)
  (h83 : ∀ i, V (F := Ideal) m ρ c main_v83 (ix2 i (0 : Fin 1)) = pv i)
  (h84 : ∀ j, V (F := Ideal) m ρ c main_v84 (ix2 (0 : Fin 1) j) = pv j)

include hc h78 in
theorem array_sumexp : finalA (F := Ideal) m ρ c 8 = colOf (fun i => ((se x i : ℝ) : EReal)) :=
  final8 m ρ c (fun i => ((se x i : ℝ) : EReal)) (fun t h3 p => acc0_final m ρ c hc x h78 t h3 p)

include hc h78 h79 h80 in
theorem array_sumpos : finalA (F := Ideal) m ρ c 9 = colOf (fun i => ((sp x id i : ℝ) : EReal)) :=
  final9 m ρ c (fun i => ((sp x id i : ℝ) : EReal)) (fun t h3 p => acc1_final m ρ c hc x id h78 h79 h80 t h3 p)

include h79 h80 in
theorem array_poscnt : finalA (F := Ideal) m ρ c 10 = colOf (fun i => ((pc id i : ℝ) : EReal)) :=
  final10 m ρ c (fun i => ((pc id i : ℝ) : EReal)) (fun t h3 p => acc2_final m ρ c id h79 h80 t h3 p)

include h79 h80 h81 h82 h83 h84 in
theorem array_rankloss : finalA (F := Ideal) m ρ c 11 = colOf (fun i => ∑ j, hinge pv i j * mk id g i j) :=
  final11 m ρ c (fun i => ∑ j, hinge pv i j * mk id g i j)
    (fun t h3 p => acc3_final m ρ c id g pv h79 h80 h81 h82 h83 h84 t h3 p)

include h79 h80 h81 h82 in
theorem array_rankcnt : finalA (F := Ideal) m ρ c 12 = colOf (fun i => ∑ j, mk id g i j) :=
  final12 m ρ c (fun i => ∑ j, mk id g i j) (fun t h3 p => acc4_final m ρ c id g h79 h80 h81 h82 t h3 p)

end Arrays

end Cert.KerSide

end
-- ==== Proof.KerHost2.lean ====
/-
  The kernel program's host operations after the region, read from any contents of the buffers: per row the quotient
  (sp − pc · log (se + ε)) / (pc + ε) of the first three accumulator columns, its sum over the rows divided by 4096, negated and
  scaled by 0.05; the sums of the fourth and fifth columns, their quotient with the count floored at 1, selected where the count
  is positive, scaled by 0.05; and the sum of the four terms.
-/
import proofs.«138601_j79577154060421_2_alg».proof.Proof.FI_Args

set_option maxRecDepth 16384

noncomputable section

namespace Cert.KerSide

open Cert.KernelIdeal Cert.KernelIdeal.Gen Cert.FrameI
open Idealize.ShloMosaic Idealize.ShloMosaic.TcCoe
open Idealize.SL.Sem

/-- The small positive word as a column. -/
abbrev epsCol : FVec Ideal S4096x1 .f32 :=
  broadcastInDim S4096x1 ![] bcast_S_S4096x1 (constant (F := Ideal) S_ .f32 0x322BCC77#32)

/-- Per row, the mean log-probability of the positives from the three accumulator columns. -/
def rowTerm (A0 A1 A2 : FVec Ideal S4096x1 .f32) : FVec Ideal S4096x1 .f32 :=
  Host.divf (subf A1 (mulf A2 (Host.log (addf A0 epsCol)))) (addf A2 epsCol)

/-- The host's sum of a column over both its axes. -/
def sumAll (A : FVec Ideal S4096x1 .f32) : FVec Ideal S_ .f32 :=
  Host.reduceAdd A (constant (F := Ideal) S_ .f32 0x00000000#32) reducesTo_S4096x1_S_d0_1 h_S_

/-- The supervised-contrastive term. -/
def supPart (A0 A1 A2 : FVec Ideal S4096x1 .f32) : FVec Ideal S_ .f32 :=
  mulf (constant (F := Ideal) S_ .f32 0x3D4CCCCD#32)
    (Host.negf (Host.divf (sumAll (rowTerm A0 A1 A2)) (constant (F := Ideal) S_ .f32 0x45800000#32)))

variable (W : Valuation τ sig (Elt Ideal))

theorem after1_v97 :
    (StableHlo.after (hostOps1 (F := Ideal)) W (Proc.devRef .tc main_v97) : S_.Idx → EReal)
      = supPart (W (Proc.devRef .tc main_v85_0)) (W (Proc.devRef .tc main_v85_1)) (W (Proc.devRef .tc main_v85_2)) := by
  after_results <;> rfl

theorem after1_v100 :
    (StableHlo.after (hostOps1 (F := Ideal)) W (Proc.devRef .tc main_v100) : S_.Idx → BitVec 1)
      = cmpf (F := Ideal) .ogt (sumAll (W (Proc.devRef .tc main_v85_4))) (constant (F := Ideal) S_ .f32 0x00000000#32) := by
  after_results <;> rfl

theorem after1_v102 :
    (StableHlo.after (hostOps1 (F := Ideal)) W (Proc.devRef .tc main_v102) : S_.Idx → EReal)
      = Host.divf (sumAll (W (Proc.devRef .tc main_v85_3)))
          (maximumf (sumAll (W (Proc.devRef .tc main_v85_4))) (constant (F := Ideal) S_ .f32 0x3F800000#32)) := by
  after_results <;> rfl

theorem after1_cst45 :
    (StableHlo.after (hostOps1 (F := Ideal)) W (Proc.devRef .tc main_cst_45) : S_.Idx → EReal)
      = constant (F := Ideal) S_ .f32 0x00000000#32 := by
  after_results <;> rfl

theorem after11_v103 :
    (StableHlo.after (hostOps1_1 (F := Ideal)) W (Proc.devRef .tc main_v103) : S_.Idx → EReal)
      = select (W (Proc.devRef .tc main_v100) : S_.Idx → BitVec 1) (W (Proc.devRef .tc main_v102) : S_.Idx → EReal)
          (W (Proc.devRef .tc main_cst_45) : S_.Idx → EReal) := by
  after_results <;> rfl

theorem after12_v107 :
    (StableHlo.after (hostOps1_2 (F := Ideal)) W (Proc.devRef .tc main_v107) : S_.Idx → EReal)
      = addf (F := Ideal) (s := S_) (φ := .f32)
          (addf (F := Ideal) (s := S_) (φ := .f32)
            (addf (F := Ideal) (s := S_) (φ := .f32) (W (Proc.devRef .tc main_v26)) (W (Proc.devRef .tc main_v74)))
            (W (Proc.devRef .tc main_v97)))
          (mulf (F := Ideal) (s := S_) (φ := .f32) (constant (F := Ideal) S_ .f32 0x3D4CCCCD#32) (W (Proc.devRef .tc main_v103))) := by
  after_results <;> rfl

end Cert.KerSide

end
-- ==== Proof.KerHost3a.lean ====
/-
  The kernel program's result as a function of the five accumulator arrays after the region and of the two scalars computed
  before it.  A sum over a 4096 x 1 array is the sum over its rows; the row term of the first three columns is a quotient
  formed entry by entry; the last stretches select, scale and add.
-/
import proofs.«138601_j79577154060421_2_alg».proof.Proof.KerHost2
import Idealize.ShloMosaic.Lib.IdealHost
import Idealize.ShloMosaic.PureOps.Ideal.Laws

set_option maxRecDepth 16384

noncomputable section

namespace Cert.KerSide

open Cert.KernelIdeal Cert.KernelIdeal.Gen Cert.FrameI
open Idealize.ShloMosaic Idealize.ShloMosaic.TcCoe Idealize.ShloMosaic.ValueIdx
open Idealize.SL.Sem

/-- The host's sum of a 4096 x 1 array is the sum over its rows. -/
theorem sumAll_ix0 (A : FVec Ideal S4096x1 .f32) : sumAll A ix0 = ∑ i : Fin 4096, A (ix2 i (0 : Fin 1)) := by
  unfold sumAll
  rw [hostReduceAdd_apply, Ideal.hostReduceAdd_total reducesTo_S4096x1_S_d0_1 (fun b => b.elim0)]
  show Ideal.ofBits .f32 0x00000000#32 + _ = _
  rw [Ideal.ofBits_zero_f32, zero_add, sum_idx2]
  exact Finset.sum_congr rfl fun i _ => Fin.sum_univ_one _

/-- The row term at an index. -/
theorem rowTerm_apply (A0 A1 A2 : FVec Ideal S4096x1 .f32) (j : S4096x1.Idx) :
    rowTerm A0 A1 A2 j
      = Ideal.div (A1 j - A2 j * Ideal.log (A0 j + Ideal.ofBits .f32 0x322BCC77#32)) (A2 j + Ideal.ofBits .f32 0x322BCC77#32) := by
  have he : epsCol j = Ideal.ofBits .f32 0x322BCC77#32 := (broadcastInDim_scalar_apply _ _ j).trans rfl
  show Ideal.div (A1 j - A2 j * Ideal.log (A0 j + epsCol j)) (A2 j + epsCol j) = _
  rw [he]

/-- The supervised-contrastive term at the scalar index. -/
theorem supPart_ix0 (A0 A1 A2 : FVec Ideal S4096x1 .f32) :
    supPart A0 A1 A2 ix0
      = Ideal.ofBits .f32 0x3D4CCCCD#32
          * -(Ideal.div (∑ i : Fin 4096, rowTerm A0 A1 A2 (ix2 i (0 : Fin 1))) (Ideal.ofBits .f32 0x45800000#32)) := by
  show Ideal.ofBits .f32 0x3D4CCCCD#32 * -(Ideal.div (sumAll (rowTerm A0 A1 A2) ix0) (Ideal.ofBits .f32 0x45800000#32)) = _
  rw [sumAll_ix0]

/-- The last operations as a function of the two scalars, the row terms' sum and the two ranking sums. -/
def comb (reg plcc sup loss cnt : EReal) : EReal :=
  ((reg + plcc) + Ideal.ofBits .f32 0x3D4CCCCD#32 * -(Ideal.div sup (Ideal.ofBits .f32 0x45800000#32)))
    + Ideal.ofBits .f32 0x3D4CCCCD#32
        * Scalar.select (Ideal.cmp .ogt cnt 0) (Ideal.div loss (max cnt (Ideal.ofBits .f32 0x3F800000#32))) 0

/-- The last stretch's sum of its four terms. -/
def add4 (a b s r : EReal) : EReal := ((a + b) + s) + Ideal.ofBits .f32 0x3D4CCCCD#32 * r

section Stretches
variable (W : Valuation τ sig (Elt Ideal))

/-! The stretches after the region at the scalar index, from any contents. -/
theorem after1_v97_ix0 :
    (StableHlo.after (hostOps1 (F := Ideal)) W (Proc.devRef .tc main_v97) : S_.Idx → EReal) ix0
      = Ideal.ofBits .f32 0x3D4CCCCD#32
          * -(Ideal.div (∑ i : Fin 4096, rowTerm (W (Proc.devRef .tc main_v85_0)) (W (Proc.devRef .tc main_v85_1))
                (W (Proc.devRef .tc main_v85_2)) (ix2 i (0 : Fin 1))) (Ideal.ofBits .f32 0x45800000#32)) :=
  (congrFun (after1_v97 W) ix0).trans (supPart_ix0 _ _ _)
theorem after1_v100_ix0 :
    (StableHlo.after (hostOps1 (F := Ideal)) W (Proc.devRef .tc main_v100) : S_.Idx → BitVec 1) ix0
      = Ideal.cmp .ogt (sumAll (W (Proc.devRef .tc main_v85_4)) ix0) (Ideal.ofBits .f32 0x00000000#32) :=
  congrFun (after1_v100 W) ix0
theorem after1_v102_ix0 :
    (StableHlo.after (hostOps1 (F := Ideal)) W (Proc.devRef .tc main_v102) : S_.Idx → EReal) ix0
      = Ideal.div (sumAll (W (Proc.devRef .tc main_v85_3)) ix0)
          (max (sumAll (W (Proc.devRef .tc main_v85_4)) ix0) (Ideal.ofBits .f32 0x3F800000#32)) :=
  congrFun (after1_v102 W) ix0
theorem after1_cst45_ix0 :
    (StableHlo.after (hostOps1 (F := Ideal)) W (Proc.devRef .tc main_cst_45) : S_.Idx → EReal) ix0 = Ideal.ofBits .f32 0x00000000#32 :=
  congrFun (after1_cst45 W) ix0
theorem after11_v103_ix0 :
    (StableHlo.after (hostOps1_1 (F := Ideal)) W (Proc.devRef .tc main_v103) : S_.Idx → EReal) ix0
      = Scalar.select ((W (Proc.devRef .tc main_v100) : S_.Idx → BitVec 1) ix0) ((W (Proc.devRef .tc main_v102) : S_.Idx → EReal) ix0)
          ((W (Proc.devRef .tc main_cst_45) : S_.Idx → EReal) ix0) :=
  congrFun (after11_v103 W) ix0
theorem after12_v107_ix0 :
    (StableHlo.after (hostOps1_2 (F := Ideal)) W (Proc.devRef .tc main_v107) : S_.Idx → EReal) ix0
      = add4 ((W (Proc.devRef .tc main_v26) : S_.Idx → EReal) ix0) ((W (Proc.devRef .tc main_v74) : S_.Idx → EReal) ix0)
          ((W (Proc.devRef .tc main_v97) : S_.Idx → EReal) ix0) ((W (Proc.devRef .tc main_v103) : S_.Idx → EReal) ix0) :=
  congrFun (after12_v107 W) ix0

end Stretches

variable (m : (ℓ : Loc nD τ sig) → Buf (Elt Ideal) ℓ) (ρ : Dev nD → PrngReg) (c : Dev nD)

/-- The two scalars computed before the region reach the last stretch unchanged. -/
theorem W10_v26 : W10 (F := Ideal) m ρ c main_v26 = W7 m ρ c main_v26 :=
  (W10_of m ρ c main_v26 (by decide)).trans ((W9_of m ρ c main_v26 (by decide)).trans (Wx_of m ρ c main_v26 (by decide)))
theorem W10_v74 : W10 (F := Ideal) m ρ c main_v74 = W7 m ρ c main_v74 :=
  (W10_of m ρ c main_v74 (by decide)).trans ((W9_of m ρ c main_v74 (by decide)).trans (Wx_of m ρ c main_v74 (by decide)))

/-- The supervised-contrastive term after the region. -/
theorem W10_v97 :
    (W10 (F := Ideal) m ρ c main_v97 : S_.Idx → EReal) ix0
      = Ideal.ofBits .f32 0x3D4CCCCD#32
          * -(Ideal.div (∑ i : Fin 4096, rowTerm (Wx m ρ c (Proc.devRef .tc main_v85_0)) (Wx m ρ c (Proc.devRef .tc main_v85_1))
                (Wx m ρ c (Proc.devRef .tc main_v85_2)) (ix2 i (0 : Fin 1))) (Ideal.ofBits .f32 0x45800000#32)) := by
  rw [W10_of m ρ c main_v97 (by decide)]
  exact after1_v97_ix0 (Wx m ρ c)

/-- The ranking term after the region. -/
theorem W10_v103 :
    (W10 (F := Ideal) m ρ c main_v103 : S_.Idx → EReal) ix0
      = Scalar.select (Ideal.cmp .ogt (sumAll (Wx (F := Ideal) m ρ c (Proc.devRef .tc main_v85_4)) ix0) 0)
          (Ideal.div (sumAll (Wx (F := Ideal) m ρ c (Proc.devRef .tc main_v85_3)) ix0)
            (max (sumAll (Wx (F := Ideal) m ρ c (Proc.devRef .tc main_v85_4)) ix0) (Ideal.ofBits .f32 0x3F800000#32))) 0 := by
  refine (after11_v103_ix0 (W9 m ρ c)).trans ?_
  rw [show (W9 (F := Ideal) m ρ c (Proc.devRef .tc main_v100) : S_.Idx → BitVec 1) ix0 = _ from after1_v100_ix0 (Wx m ρ c),
    show (W9 (F := Ideal) m ρ c (Proc.devRef .tc main_v102) : S_.Idx → EReal) ix0 = _ from after1_v102_ix0 (Wx m ρ c),
    show (W9 (F := Ideal) m ρ c (Proc.devRef .tc main_cst_45) : S_.Idx → EReal) ix0 = _ from after1_cst45_ix0 (Wx m ρ c),
    Ideal.ofBits_zero_f32]

/-- The program's result as the combination of the two scalars and the three sums over the accumulator arrays. -/
theorem W11_v107_comb :
    (W11 (F := Ideal) m ρ c main_v107 : S_.Idx → EReal) ix0
      = comb ((W7 (F := Ideal) m ρ c main_v26 : S_.Idx → EReal) ix0) ((W7 (F := Ideal) m ρ c main_v74 : S_.Idx → EReal) ix0)
          (∑ i : Fin 4096, rowTerm (Wx m ρ c (Proc.devRef .tc main_v85_0)) (Wx m ρ c (Proc.devRef .tc main_v85_1))
            (Wx m ρ c (Proc.devRef .tc main_v85_2)) (ix2 i (0 : Fin 1)))
          (sumAll (Wx (F := Ideal) m ρ c (Proc.devRef .tc main_v85_3)) ix0)
          (sumAll (Wx (F := Ideal) m ρ c (Proc.devRef .tc main_v85_4)) ix0) := by
  refine (after12_v107_ix0 (W10 m ρ c)).trans ?_
  rw [W10_v97, W10_v103, W10_v26, W10_v74]
  rfl

end Cert.KerSide

end
-- ==== Proof.KerHost3.lean ====
/-
  The kernel program's result from the five accumulator arrays, in the specification's terms.  When after the region the five
  arrays hold, at row i, the row's off-diagonal sum of exponentials, its positives' logit sum, its positives' count, its summed
  hinge over the ranked pairs and its number of ranked pairs, the row term the host forms is exactly the specification's mean
  log-probability, and the three sums over the rows are the specification's three sums; the last operations combine them with
  the two scalars computed before the region as the reference's last operations do.
-/
import proofs.«138601_j79577154060421_2_alg».proof.Proof.KerHost3a
import proofs.«138601_j79577154060421_2_alg».proof.Proof.RefValue

set_option maxRecDepth 16384

noncomputable section

namespace Cert.KerSide

open Cert.KernelIdeal Cert.KernelIdeal.Gen Cert.FrameI
open Idealize.ShloMosaic Idealize.ShloMosaic.TcCoe Idealize.ShloMosaic.ValueIdx
open Idealize.SL.Sem

/-- The two programs end in the same combination. -/
theorem comb_eq_tail (reg plcc sup loss cnt : EReal) : comb reg plcc sup loss cnt = Cert.RefSide.tail reg plcc sup loss cnt := rfl

variable (m : (ℓ : Loc nD τ sig) → Buf (Elt Ideal) ℓ) (ρ : Dev nD → PrngReg) (c : Dev nD)

/-- The program's result, from the five accumulator arrays after the region. -/
theorem W11_v107 (x : Fin 4096 → Fin 512 → ℝ) (idv : Fin 4096 → BitVec 32) (g pv : Fin 4096 → EReal)
    (h0 : ∀ i : Fin 4096, (Wx (F := Ideal) m ρ c main_v85_0 : S4096x1.Idx → EReal) (ix2 i (0 : Fin 1)) = ((Cert.Spec.se x i : ℝ) : EReal))
    (h1 : ∀ i : Fin 4096, (Wx (F := Ideal) m ρ c main_v85_1 : S4096x1.Idx → EReal) (ix2 i (0 : Fin 1)) = ((Cert.Spec.sp x idv i : ℝ) : EReal))
    (h2 : ∀ i : Fin 4096, (Wx (F := Ideal) m ρ c main_v85_2 : S4096x1.Idx → EReal) (ix2 i (0 : Fin 1)) = ((Cert.Spec.pc idv i : ℝ) : EReal))
    (h3 : ∀ i : Fin 4096, (Wx (F := Ideal) m ρ c main_v85_3 : S4096x1.Idx → EReal) (ix2 i (0 : Fin 1))
        = ∑ j, Cert.Spec.hinge pv i j * Cert.Spec.mk idv g i j)
    (h4 : ∀ i : Fin 4096, (Wx (F := Ideal) m ρ c main_v85_4 : S4096x1.Idx → EReal) (ix2 i (0 : Fin 1)) = ∑ j, Cert.Spec.mk idv g i j) :
    (W11 (F := Ideal) m ρ c main_v107 : S_.Idx → EReal) ix0
      = Cert.RefSide.tail ((W7 (F := Ideal) m ρ c main_v26 : S_.Idx → EReal) ix0) ((W7 (F := Ideal) m ρ c main_v74 : S_.Idx → EReal) ix0)
          (Cert.Spec.supSum x idv) (Cert.Spec.rankLoss idv g pv) (Cert.Spec.rankCnt idv g) := by
  have eS : (∑ i : Fin 4096, rowTerm (Wx m ρ c (Proc.devRef .tc main_v85_0)) (Wx m ρ c (Proc.devRef .tc main_v85_1))
      (Wx m ρ c (Proc.devRef .tc main_v85_2)) (ix2 i (0 : Fin 1))) = Cert.Spec.supSum x idv := by
    unfold Cert.Spec.supSum
    refine Finset.sum_congr rfl fun i _ => ?_
    rw [rowTerm_apply, h0 i, h1 i, h2 i]
    rfl
  have eC : sumAll (Wx (F := Ideal) m ρ c (Proc.devRef .tc main_v85_4)) ix0 = Cert.Spec.rankCnt idv g := by
    rw [sumAll_ix0]; unfold Cert.Spec.rankCnt
    exact Finset.sum_congr rfl fun i _ => h4 i
  have eL : sumAll (Wx (F := Ideal) m ρ c (Proc.devRef .tc main_v85_3)) ix0 = Cert.Spec.rankLoss idv g pv := by
    rw [sumAll_ix0]; unfold Cert.Spec.rankLoss
    exact Finset.sum_congr rfl fun i _ => h3 i
  rw [W11_v107_comb, eS, eC, eL, comb_eq_tail]

end Cert.KerSide

end
-- ==== Proof.KerTail.lean ====
/-
  The kernel program's result in the specification's terms, from the arrays the region was given: the five accumulator arrays
  after the region are the per-row sums of the whole pair matrix, and the host operations after the region combine their sums
  over the rows with the two scalars computed before the region.
-/
import proofs.«138601_j79577154060421_2_alg».proof.Proof.KerValueD
import proofs.«138601_j79577154060421_2_alg».proof.Proof.KerHost3

set_option maxRecDepth 16384

noncomputable section

namespace Cert.KerSide

open Idealize.ShloMosaic Idealize.ShloMosaic.ValueIdx Idealize.ShloMosaic.TcCoe Cert.KernelIdeal Cert.KernelIdeal.Gen Cert.FrameI Cert.Spec

variable (m : (ℓ : Loc nD τ sig) → Buf (Elt Ideal) ℓ) (ρ : Dev nD → PrngReg) (c : Dev nD)
variable (hc : Named.named (F := Ideal) Cert.KernelIdeal.κ "inv_temp" (φ := .f32) 0x41200000#32 = ((Cert.Spec.cK : ℝ) : EReal))
variable (x : Fin 4096 → Fin 512 → ℝ) (id : Fin 4096 → BitVec 32) (g pv : Fin 4096 → EReal)
variable (h78 : ∀ i k, V (F := Ideal) m ρ c main_v78 (ix2 i k) = ((fr x i k : ℝ) : EReal))
  (h79 : ∀ i, V (F := Ideal) m ρ c main_v79 (ix2 i (0 : Fin 1)) = id i)
  (h80 : ∀ j, V (F := Ideal) m ρ c main_v80 (ix2 (0 : Fin 1) j) = id j)
  (h81 : ∀ i, V (F := Ideal) m ρ c main_v81 (ix2 i (0 : Fin 1)) = g i)
  (h82 : ∀ j, V (F := Ideal) m ρ c main_v82 (ix2 (0 : Fin 1) j) = g j)
  (h83 : ∀ i, V (F := Ideal) m ρ c main_v83 (ix2 i (0 : Fin 1)) = pv i)
  (h84 : ∀ j, V (F := Ideal) m ρ c main_v84 (ix2 (0 : Fin 1) j) = pv j)

include hc h78 h79 h80 h81 h82 h83 h84 in
theorem kernel_result :
    (W11 (F := Ideal) m ρ c main_v107 : S_.Idx → EReal) ix0
      = Cert.RefSide.tail ((W7 (F := Ideal) m ρ c main_v26 : S_.Idx → EReal) ix0) ((W7 (F := Ideal) m ρ c main_v74 : S_.Idx → EReal) ix0)
          (supSum x id) (rankLoss id g pv) (rankCnt id g) :=
  W11_v107 m ρ c x id g pv
    (fun i => congrFun ((Wx_out0 m ρ c).trans (array_sumexp m ρ c hc x h78)) (ix2 i (0 : Fin 1)))
    (fun i => congrFun ((Wx_out1 m ρ c).trans (array_sumpos m ρ c hc x id h78 h79 h80)) (ix2 i (0 : Fin 1)))
    (fun i => congrFun ((Wx_out2 m ρ c).trans (array_poscnt m ρ c id h79 h80)) (ix2 i (0 : Fin 1)))
    (fun i => congrFun ((Wx_out3 m ρ c).trans (array_rankloss m ρ c id g pv h79 h80 h81 h82 h83 h84)) (ix2 i (0 : Fin 1)))
    (fun i => congrFun ((Wx_out4 m ρ c).trans (array_rankcnt m ρ c id g h79 h80 h81 h82)) (ix2 i (0 : Fin 1)))

end Cert.KerSide

end
-- ==== Proof.Algebraic.lean ====
/-
  The two idealised programs compute the same loss.

  From memories that agree on the six arguments, the kernel program ends with its result buffer at the last valuation of its run,
  the reference with its result at its operations' composed term.  Both are
      (reg + plcc) + 0.05 · (−(S / 4096)) + 0.05 · (if C > 0 then L / max C 1 else 0)
  with the same host terms reg and plcc of the arguments, S the sum over the rows of the mean log-probability of the row's
  positives, and L, C the summed hinge and the number of the ranked pairs: the reference by reading its operations, the kernel
  by what its sixteen grid points accumulate and its closing host operations make of it.  The features' rows are real with a
  positive sum of squares by the precondition, which is what makes every per-row quantity a real number.
-/
import proofs.«138601_j79577154060421_2_alg».proof.Defs
import proofs.«138601_j79577154060421_2_alg».proof.Proof.FI_Args
import proofs.«138601_j79577154060421_2_alg».proof.Proof.RefValue
import proofs.«138601_j79577154060421_2_alg».proof.Proof.PreFacts
import proofs.«138601_j79577154060421_2_alg».proof.Proof.Consts
import proofs.«138601_j79577154060421_2_alg».proof.Proof.KerHost1
import proofs.«138601_j79577154060421_2_alg».proof.Proof.KerHost4
import proofs.«138601_j79577154060421_2_alg».proof.Proof.KerTail

noncomputable section

namespace Cert.Proof.Algebraic

open Idealize.ShloMosaic Idealize.ShloMosaic.TcCoe Idealize.SL.Sem Idealize.ShloMosaic.ValueIdx

/-- The kernel program's result, at the ideal values, is the reference's term of the same arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.ReadP.val_main_v148 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.FrameI.W11 (F := Ideal) m ρ c Cert.KernelIdeal.main_v107 := by
  obtain ⟨x, hx, hpos⟩ := Cert.PreFacts.feats_real _ _ _ _ _ _ hpre
  funext i
  obtain rfl : i = ix0 := Subsingleton.elim _ _
  rw [Cert.RefSide.ref_value _ _ _ _ _ _ x hx hpos,
    Cert.KerSide.kernel_result m ρ c Cert.Consts.named_inv_temp x
      (fun i => (m ((c.tc : Thread Cert.KernelIdeal.nD Cert.KernelIdeal.τ).loc Cert.KernelIdeal.main_arg5)) (ix1 i)) (fun i => (m ((c.tc : Thread Cert.KernelIdeal.nD Cert.KernelIdeal.τ).loc Cert.KernelIdeal.main_arg3)) (ix1 i)) (fun i => (m ((c.tc : Thread Cert.KernelIdeal.nD Cert.KernelIdeal.τ).loc Cert.KernelIdeal.main_arg1)) (ix1 i))
      (Cert.KerSide.V_v78 m ρ c x hx hpos) (Cert.KerSide.V_v79 m ρ c) (Cert.KerSide.V_v80 m ρ c)
      (Cert.KerSide.V_v81 m ρ c) (Cert.KerSide.V_v82 m ρ c) (Cert.KerSide.V_v83 m ρ c) (Cert.KerSide.V_v84 m ρ c),
    Cert.KerSide.W7_v26 m ρ c, Cert.KerSide.W7_v74 m ρ c]

theorem algebraic : Cert.algebraic_KernelIdeal_ReferenceIdeal := by
  intro m ρ m' ρ' hpre hagree
  refine ⟨fun c => Cert.FrameI.W11 (F := Ideal) m ρ c Cert.KernelIdeal.main_v107, ?_, ?_⟩
  · exact (θ_run Cert.KernelIdeal.defs _ _).mono (fun r h c =>
      ⟨h c (Proc.devRef .tc Cert.KernelIdeal.main_v107) (Finset.mem_filter.mpr ⟨StableHlo.devRef_mem_tcRefs Cert.KernelIdeal.main_v107, by decide⟩),
       (h c (Proc.devRef .tc Cert.KernelIdeal.main_arg0) (Finset.mem_filter.mpr ⟨StableHlo.devRef_mem_tcRefs Cert.KernelIdeal.main_arg0, by decide⟩)).trans (Cert.FrameI.W11_main_arg0 m ρ c),
       (h c (Proc.devRef .tc Cert.KernelIdeal.main_arg1) (Finset.mem_filter.mpr ⟨StableHlo.devRef_mem_tcRefs Cert.KernelIdeal.main_arg1, by decide⟩)).trans (Cert.FrameI.W11_main_arg1 m ρ c),
       (h c (Proc.devRef .tc Cert.KernelIdeal.main_arg2) (Finset.mem_filter.mpr ⟨StableHlo.devRef_mem_tcRefs Cert.KernelIdeal.main_arg2, by decide⟩)).trans (Cert.FrameI.W11_main_arg2 m ρ c),
       (h c (Proc.devRef .tc Cert.KernelIdeal.main_arg3) (Finset.mem_filter.mpr ⟨StableHlo.devRef_mem_tcRefs Cert.KernelIdeal.main_arg3, by decide⟩)).trans (Cert.FrameI.W11_main_arg3 m ρ c),
       (h c (Proc.devRef .tc Cert.KernelIdeal.main_arg4) (Finset.mem_filter.mpr ⟨StableHlo.devRef_mem_tcRefs Cert.KernelIdeal.main_arg4, by decide⟩)).trans (Cert.FrameI.W11_main_arg4 m ρ c),
       (h c (Proc.devRef .tc Cert.KernelIdeal.main_arg5) (Finset.mem_filter.mpr ⟨StableHlo.devRef_mem_tcRefs Cert.KernelIdeal.main_arg5, by decide⟩)).trans (Cert.FrameI.W11_main_arg5 m ρ c)⟩)
      (Cert.FrameI.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v148_eq, (hagree c).1, (hagree c).2.1, (hagree c).2.2.1, (hagree c).2.2.2.1,
      (hagree c).2.2.2.2.1, (hagree c).2.2.2.2.2]
    exact result_eq m ρ c (hpre c)

end Cert.Proof.Algebraic

end
-- ==== Proof.lean ====
/-
  A pairwise contrastive-and-ranking loss over 4096 feature rows, computed by a tiled kernel and by a plain reference.

  The loss is  reg + plcc + 0.05 · sup + 0.05 · rank.  The first two terms are host arithmetic on the four score vectors and
  are spelt identically in both programs.  For the other two the reference forms the 4096 × 4096 matrix of pair terms and masks
  out the diagonal: with f the row-normalised features and logit i j = (f i · f j) / 0.1,
      sup  = −mean_i ( Σ_j (same − eye) · (logit − log (Σ_j' exp logit · (1 − eye) + ε)) / (Σ_j (same − eye) + ε) ),
      rank = L / max C 1 when C > 0 (else 0),  L and C the summed hinge and the number of the pairs with equal id and
             target above by more than 1e-6.
  The kernel walks a 4 × 4 grid of 1024 × 1024 tiles, keeping five per-row accumulators across the four column tiles of a row
  of tiles — Σ exp logit, Σ same · logit, Σ same, the hinge sum and the pair count — and on the diagonal tile takes the
  diagonal pair's term off the first three; its closing host operations form the same quotients from the accumulated rows.
  Over real features with no zero row every per-row quantity is a real number, so the sum over all j less the diagonal term is the
  masked sum, and Σ_j (same − eye)(logit − ℓ) = Σ_j (same − eye) logit − ℓ Σ_j (same − eye); the ranking sums are sums in the
  extended reals, which regroup freely.  The kernel multiplies by the word for 10 where the reference divides by the word for
  0.1; at the ideal values that word is read as the exact reciprocal of the divisor (the ledger's one entry), and a quotient by a
  nonzero real is the product with its reciprocal on every extended real.

  The claim: each of the three programs runs to the end from any memory satisfying the precondition, faulting nowhere and
  leaving its six arguments unchanged; the idealised kernel is the kernel's sanctioned idealisation; and from memories that
  agree on the arguments the two idealised programs end with equal results.
-/
import proofs.«138601_j79577154060421_2_alg».proof.Defs
import proofs.«138601_j79577154060421_2_alg».proof.Proof.Gen.Kernel
import proofs.«138601_j79577154060421_2_alg».proof.Proof.Gen.KernelIdeal
import proofs.«138601_j79577154060421_2_alg».proof.Proof.Gen.ReferenceIdeal
import proofs.«138601_j79577154060421_2_alg».proof.Proof.Gen.Pre_finite_inputs
import proofs.«138601_j79577154060421_2_alg».proof.Proof.Claims
import proofs.«138601_j79577154060421_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Algebraic.algebraic⟩

end Cert.Proof

end
